-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S16x128 : Shape := ⟨2, ![16, 128]⟩
abbrev S128 : Shape := ⟨1, ![128]⟩
abbrev S3x128x128 : Shape := ⟨3, ![3, 128, 128]⟩
abbrev S3x128 : Shape := ⟨2, ![3, 128]⟩
abbrev S128x4 : Shape := ⟨2, ![128, 4]⟩
abbrev S4 : Shape := ⟨1, ![4]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg8 : FVec F S3x128 .f32) (main_arg9 : FVec F S128x4 .f32) (main_arg10 : FVec F S4 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S128x4 .f32 := Host.absf main_arg9
  let main_cst_14 : FVec F S_ .f32 := constant S_ .f32 0x7F800000#32
  let main_v40 : FVec F S128x4 .f32 := broadcastInDim S128x4 ![] bcast_S_S128x4 main_cst_14
  let main_v41 : IVec S128x4 1 := cmpf .olt main_v39 main_v40
  let main_c_15 : IVec S_ 1 := constantI S_ 1 1#1
  let main_v42 : IVec S_ 1 := (fun x v => Host.reduce IntOp.andi x v reducesTo_S128x4_S_d0_1 h_S_) main_v41 main_c_15
  let main_v43 : IVec S_ 1 := andi main_v38 main_v42
  let main_v44 : FVec F S4 .f32 := Host.absf main_arg10
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  main_v48

def fn_part1 {F : FTy → Type} [FloatOps F] (main_arg5 : FVec F S3x128 .f32) (main_arg6 : FVec F S3x128x128 .f32) (main_arg7 : FVec F S3x128 .f32) (main_arg8 : FVec F S3x128 .f32) (main_arg9 : FVec F S128x4 .f32) (main_arg10 : FVec F S4 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x16 .f32) (main_arg1 : IVec S2x800000 32) (main_arg2 : FVec F S16x128 .f32) (main_arg3 : FVec F S128 .f32) (main_arg4 : FVec F S3x128x128 .f32) (main_arg5 : FVec F S3x128 .f32) (main_arg6 : FVec F S3x128x128 .f32) (main_arg7 : FVec F S3x128 .f32) (main_arg8 : FVec F S3x128 .f32) (main_arg9 : FVec F S128x4 .f32) (main_arg10 : FVec F S4 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_arg10 main_v13 main_v16
-- ==== Kernel.lean ====
abbrev S50000x16 : Shape := ⟨2, ![50000, 16]⟩
abbrev S2x800000 : Shape := ⟨2, ![2, 800000]⟩
abbrev S16x128 : Shape := ⟨2, ![16, 128]⟩
abbrev S128 : Shape := ⟨1, ![128]⟩
abbrev S3x128x128 : Shape := ⟨3, ![3, 128, 128]⟩
abbrev S3x128 : Shape := ⟨2, ![3, 128]⟩
abbrev S128x4 : Shape := ⟨2, ![128, 4]⟩
abbrev S4 : Shape := ⟨1, ![4]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S5000x16 : Shape := ⟨2, ![5000, 16]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩
abbrev S800000x128 : Shape := ⟨2, ![800000, 128]⟩
abbrev S50000x1 : Shape := ⟨2, ![50000, 1]⟩
abbrev S1x128x128 : Shape := ⟨3, ![1, 128, 128]⟩
abbrev S128x128 : Shape := ⟨2, ![128, 128]⟩
abbrev S50000x4 : Shape := ⟨2, ![50000, 4]⟩
abbrev S5000x4 : Shape := ⟨2, ![5000, 4]⟩
abbrev S1x4 : Shape := ⟨2, ![1, 4]⟩

abbrev nBuf : Space → Nat
  | .hbm => 113
  | .vmem => 63
  | .smem => 0
  | _ => 0

abbrev bufTy : (tb : Table) → Fin (tcTables nBuf tb) → BufTy
  | .hbm, ⟨0, _⟩ => ⟨S50000x16, .f32⟩
  | .hbm, ⟨1, _⟩ => ⟨S2x800000, .i32⟩
  | .hbm, ⟨2, _⟩ => ⟨S16x128, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S3x128, .f32⟩
  | .hbm, ⟨9, _⟩ => ⟨S128x4, .f32⟩
  | .hbm, ⟨10, _⟩ => ⟨S4, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x128, .f32⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S1x128x128, .f32⟩
  | .hbm, ⟨50, _⟩ => ⟨S128x128, .f32⟩
  | .hbm, ⟨51, _⟩ => ⟨S1x128, .f32⟩
  | .hbm, ⟨52, _⟩ => ⟨S128, .f32⟩
  | .hbm, ⟨53, _⟩ => ⟨S1x128x128, .f32⟩
  | .hbm, ⟨54, _⟩ => ⟨S128x128, .f32⟩
  | .hbm, ⟨55, _⟩ => ⟨S50000x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S128, .f32⟩
  | .hbm, ⟨60, _⟩ => ⟨S50000x128, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S50000x1, .f32⟩
  | .hbm, ⟨75, _⟩ => ⟨S50000x128, .f32⟩
  | .hbm, ⟨76, _⟩ => ⟨S50000x128, .f32⟩
  | .hbm, ⟨77, _⟩ => ⟨S1x128x128, .f32⟩
  | .hbm, ⟨78, _⟩ => ⟨S128x128, .f32⟩
  | .hbm, ⟨79, _⟩ => ⟨S1x128, .f32⟩
  | .hbm, ⟨80, _⟩ => ⟨S128, .f32⟩
  | .hbm, ⟨81, _⟩ => ⟨S1x128x128, .f32⟩
  | .hbm, ⟨82, _⟩ => ⟨S128x128, .f32⟩
  | .hbm, ⟨83, _⟩ => ⟨S50000x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S128, .f32⟩
  | .hbm, ⟨88, _⟩ => ⟨S50000x128, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000x128, .f32⟩
  | .hbm, ⟨98, _⟩ => ⟨S_, .f32⟩
  | .hbm, ⟨99, _⟩ => ⟨S50000x128, .f32⟩
  | .hbm, ⟨100, _⟩ => ⟨S800000x1, .i32⟩
  | .hbm, ⟨101, _⟩ => ⟨S50000x128, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S1x128x128, .f32⟩
  | .hbm, ⟨106, _⟩ => ⟨S128x128, .f32⟩
  | .hbm, ⟨107, _⟩ => ⟨S1x128, .f32⟩
  | .hbm, ⟨108, _⟩ => ⟨S128, .f32⟩
  | .hbm, ⟨109, _⟩ => ⟨S1x128x128, .f32⟩
  | .hbm, ⟨110, _⟩ => ⟨S128x128, .f32⟩
  | .hbm, ⟨111, _⟩ => ⟨S50000x128, .f32⟩
  | .hbm, ⟨112, _⟩ => ⟨S50000x4, .f32⟩
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128, .f32⟩
  | .local _ .vmem, ⟨26, _⟩ => ⟨S128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S128, .f32⟩
  | .local _ .vmem, ⟨37, _⟩ => ⟨S128x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128, .f32⟩
  | .local _ .vmem, ⟨43, _⟩ => ⟨S128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x128, .f32⟩
  | .local _ .vmem, ⟨53, _⟩ => ⟨S128, .f32⟩
  | .local _ .vmem, ⟨54, _⟩ => ⟨S128x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S128x4, .f32⟩
  | .local _ .vmem, ⟨60, _⟩ => ⟨S4, .f32⟩
  | .local _ .vmem, ⟨61, _⟩ => ⟨S5000x4, .f32⟩
  | .local _ .vmem, ⟨62, _⟩ => ⟨S5000x4, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_5 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_c_8 : Ref sig .tc := ⟨.hbm, 89, rfl⟩
abbrev main_v68 : Ref sig .tc := ⟨.hbm, 90, rfl⟩
abbrev main_v69 : Ref sig .tc := ⟨.hbm, 91, rfl⟩
abbrev main_c_9 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_10 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg6_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg2_1 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg6_0 : Ref sig .tc := ⟨.vmem, 55, rfl⟩
abbrev cc6_stg6_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg3_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem6_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem3_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem2_1 : DmaSem sig := 51
abbrev cc6_sem3_0 : DmaSem sig := 52
abbrev cc6_sem4_0 : DmaSem sig := 53
abbrev cc6_sem5_0 : DmaSem sig := 54
abbrev cc6_sem6_0 : DmaSem sig := 55
abbrev cc6_sem6_1 : DmaSem sig := 56
abbrev cc7_sem0_0 : DmaSem sig := 57
abbrev cc7_sem0_1 : DmaSem sig := 58
abbrev cc7_sem1_0 : DmaSem sig := 59
abbrev cc7_sem2_0 : DmaSem sig := 60
abbrev cc7_sem3_0 : DmaSem sig := 61
abbrev cc7_sem3_1 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x4 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S4 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x4 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S3x128_S1x128_0_0 : S3x128.Slices ![0, 0] S1x128
  shapeCasts_S1x128_S128 : S1x128.ShapeCasts S128
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  shapeCasts_S128_S128 : S128.ShapeCasts S128
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  inb_S128x4_S128x4_0_0 : ∀ a, (![0, 0] : Fin 2 → Nat) a + S128x4.size a ≤ S128x4.size a
  h_S128x4 : 0 < S128x4.numel
  inb_S4_S4_0 : ∀ a, (![0] : Fin 1 → Nat) a + S4.size a ≤ S4.size a
  h_S4 : 0 < S4.numel
  shapeCasts_S4_S1x4 : S4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S50000_S800000x1_S800000_n_0_0_1_wf : ScatterDims.WF S50000 S800000x1 S800000 [] [0] [0] 1
  dot_S5000x16_S16x128_S5000x128_1_0_0_1_n_n_wf : DotDims.WF S5000x16 S16x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x4_S5000x4_1_0_0_1_n_n_wf : DotDims.WF S5000x128 S128x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x4.size a ≤ S128x4.size a
  hwx7_1 : ∀ i : grid7.Coords, EltTy.bits .f32 = 32 ∨ (Rect.block (s := S128x4) S128x4.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S4.size a ≤ S4.size a
  hwx7_2 : ∀ i : grid7.Coords, EltTy.bits .f32 = 32 ∨ (Rect.block (s := S4) S4.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x4.size a ≤ S50000x4.size a
  hwx7_3 : ∀ i : grid7.Coords, EltTy.bits .f32 = 32 ∨ (Rect.block (s := S50000x4) S5000x4.size (cc7_transform_3 i) (hinb7_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v37) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v37) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v57) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v59) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v61) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v62) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v62) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v62) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v67) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v80) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v82) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v84) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v86) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v87) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v87) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128x4.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg10) S4.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v88) S5000x4.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S16x128 : Shape := ⟨2, ![16, 128]⟩
abbrev S128 : Shape := ⟨1, ![128]⟩
abbrev S3x128x128 : Shape := ⟨3, ![3, 128, 128]⟩
abbrev S3x128 : Shape := ⟨2, ![3, 128]⟩
abbrev S128x4 : Shape := ⟨2, ![128, 4]⟩
abbrev S4 : Shape := ⟨1, ![4]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S1x128 : Shape := ⟨2, ![1, 128]⟩
abbrev S50000x1 : Shape := ⟨2, ![50000, 1]⟩
abbrev S800000x128 : Shape := ⟨2, ![800000, 128]⟩
abbrev S1x128x128 : Shape := ⟨3, ![1, 128, 128]⟩
abbrev S128x128 : Shape := ⟨2, ![128, 128]⟩
abbrev S50000x4 : Shape := ⟨2, ![50000, 4]⟩
abbrev S1x4 : Shape := ⟨2, ![1, 4]⟩

abbrev nBuf : Space → Nat
  | .hbm => 230
  | .vmem => 0
  | .smem => 0
  | _ => 0

abbrev hbmTy0_0 (i : Nat) : BufTy := match i % 128 with
  | 0 => ⟨S50000x16, .f32⟩
  | 1 => ⟨S2x800000, .i32⟩
  | 2 => ⟨S16x128, .f32⟩
  | 3 => ⟨S128, .f32⟩
  | 4 => ⟨S3x128x128, .f32⟩
  | 5 => ⟨S3x128, .f32⟩
  | 6 => ⟨S3x128x128, .f32⟩
  | 7 => ⟨S3x128, .f32⟩
  | 8 => ⟨S3x128, .f32⟩
  | 9 => ⟨S128x4, .f32⟩
  | 10 => ⟨S4, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S50000x128, .f32⟩
  | 28 => ⟨S1x128, .f32⟩
  | 29 => ⟨S50000x128, .f32⟩
  | 30 => ⟨S50000x128, .f32⟩
  | 31 => ⟨S1x128, .f32⟩
  | 32 => ⟨S128, .f32⟩
  | 33 => ⟨S1x128, .f32⟩
  | 34 => ⟨S128, .f32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S50000x128, .f32⟩
  | 42 => ⟨S50000x128, .f32⟩
  | 43 => ⟨S50000x128, .f32⟩
  | 44 => ⟨S_, .f32⟩
  | 45 => ⟨S50000, .f32⟩
  | 46 => ⟨S50000x1, .f32⟩
  | 47 => ⟨S_, .f32⟩
  | 48 => ⟨S50000x1, .f32⟩
  | 49 => ⟨S50000x1, .f32⟩
  | 50 => ⟨S50000x128, .f32⟩
  | 51 => ⟨S50000x128, .f32⟩
  | 52 => ⟨S_, .f32⟩
  | 53 => ⟨S50000x1, .f32⟩
  | 54 => ⟨S50000x1, .f32⟩
  | 55 => ⟨S50000x1, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S50000x1, .f32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S1x128x128, .f32⟩
  | 89 => ⟨S128x128, .f32⟩
  | 90 => ⟨S50000x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S1x128, .f32⟩
  | 97 => ⟨S128, .f32⟩
  | 98 => ⟨S1x128, .f32⟩
  | 99 => ⟨S128, .f32⟩
  | 100 => ⟨S_, .f32⟩
  | 101 => ⟨S50000, .f32⟩
  | 102 => ⟨S50000x1, .f32⟩
  | 103 => ⟨S_, .f32⟩
  | 104 => ⟨S50000x1, .f32⟩
  | 105 => ⟨S50000x1, .f32⟩
  | 106 => ⟨S50000x128, .f32⟩
  | 107 => ⟨S50000x128, .f32⟩
  | 108 => ⟨S50000x128, .f32⟩
  | 109 => ⟨S_, .f32⟩
  | 110 => ⟨S50000, .f32⟩
  | 111 => ⟨S50000x1, .f32⟩
  | 112 => ⟨S_, .f32⟩
  | 113 => ⟨S50000x1, .f32⟩
  | 114 => ⟨S50000x1, .f32⟩
  | 115 => ⟨S50000x128, .f32⟩
  | 116 => ⟨S50000x128, .f32⟩
  | 117 => ⟨S_, .f32⟩
  | 118 => ⟨S50000x1, .f32⟩
  | 119 => ⟨S50000x1, .f32⟩
  | 120 => ⟨S50000x1, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S1x128, .f32⟩
  | 127 => ⟨S50000x128, .f32⟩
  | _ => ⟨S50000x16, .f32⟩

abbrev hbmTy0_1 (i : Nat) : BufTy := match i % 128 with
  | 0 => ⟨S50000x128, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S_, .f32⟩
  | 11 => ⟨S50000x128, .f32⟩
  | 12 => ⟨S800000x1, .i32⟩
  | 13 => ⟨S50000x128, .f32⟩
  | 14 => ⟨S50000x1, .f32⟩
  | 15 => ⟨S50000x128, .f32⟩
  | 16 => ⟨S50000x128, .f32⟩
  | 17 => ⟨S1x128x128, .f32⟩
  | 18 => ⟨S128x128, .f32⟩
  | 19 => ⟨S50000x128, .f32⟩
  | 20 => ⟨S1x128, .f32⟩
  | 21 => ⟨S128, .f32⟩
  | 22 => ⟨S1x128, .f32⟩
  | 23 => ⟨S50000x128, .f32⟩
  | 24 => ⟨S50000x128, .f32⟩
  | 25 => ⟨S1x128x128, .f32⟩
  | 26 => ⟨S128x128, .f32⟩
  | 27 => ⟨S50000x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S1x128, .f32⟩
  | 34 => ⟨S128, .f32⟩
  | 35 => ⟨S1x128, .f32⟩
  | 36 => ⟨S128, .f32⟩
  | 37 => ⟨S_, .f32⟩
  | 38 => ⟨S50000, .f32⟩
  | 39 => ⟨S50000x1, .f32⟩
  | 40 => ⟨S_, .f32⟩
  | 41 => ⟨S50000x1, .f32⟩
  | 42 => ⟨S50000x1, .f32⟩
  | 43 => ⟨S50000x128, .f32⟩
  | 44 => ⟨S50000x128, .f32⟩
  | 45 => ⟨S50000x128, .f32⟩
  | 46 => ⟨S_, .f32⟩
  | 47 => ⟨S50000, .f32⟩
  | 48 => ⟨S50000x1, .f32⟩
  | 49 => ⟨S_, .f32⟩
  | 50 => ⟨S50000x1, .f32⟩
  | 51 => ⟨S50000x1, .f32⟩
  | 52 => ⟨S50000x128, .f32⟩
  | 53 => ⟨S50000x128, .f32⟩
  | 54 => ⟨S_, .f32⟩
  | 55 => ⟨S50000x1, .f32⟩
  | 56 => ⟨S50000x1, .f32⟩
  | 57 => ⟨S50000x1, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S50000x1, .f32⟩
  | 80 => ⟨S50000x128, .f32⟩
  | 81 => ⟨S50000x128, .f32⟩
  | 82 => ⟨S1x128x128, .f32⟩
  | 83 => ⟨S128x128, .f32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S1x128x128, .f32⟩
  | 91 => ⟨S128x128, .f32⟩
  | 92 => ⟨S50000x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x4, .f32⟩
  | 99 => ⟨S1x4, .f32⟩
  | 100 => ⟨S50000x4, .f32⟩
  | 101 => ⟨S50000x4, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call0_cst : Ref sig .tc := ⟨.hbm, 93, rfl⟩
abbrev main_call0_v0 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_10 : Ref sig .tc := ⟨.hbm, 100, rfl⟩
abbrev main_v75 : Ref sig .tc := ⟨.hbm, 101, rfl⟩
abbrev main_v76 : Ref sig .tc := ⟨.hbm, 102, rfl⟩
abbrev main_cst_11 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_12 : Ref sig .tc := ⟨.hbm, 109, rfl⟩
abbrev main_v82 : Ref sig .tc := ⟨.hbm, 110, rfl⟩
abbrev main_v83 : Ref sig .tc := ⟨.hbm, 111, rfl⟩
abbrev main_cst_13 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_14 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_15 : Ref sig .tc := ⟨.hbm, 129, rfl⟩
abbrev main_v99 : Ref sig .tc := ⟨.hbm, 130, rfl⟩
abbrev main_v100 : Ref sig .tc := ⟨.hbm, 131, rfl⟩
abbrev main_c_16 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_17 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_call1_cst : Ref sig .tc := ⟨.hbm, 158, rfl⟩
abbrev main_call1_v0 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_18 : Ref sig .tc := ⟨.hbm, 165, rfl⟩
abbrev main_v130 : Ref sig .tc := ⟨.hbm, 166, rfl⟩
abbrev main_v131 : Ref sig .tc := ⟨.hbm, 167, rfl⟩
abbrev main_cst_19 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_20 : Ref sig .tc := ⟨.hbm, 174, rfl⟩
abbrev main_v137 : Ref sig .tc := ⟨.hbm, 175, rfl⟩
abbrev main_v138 : Ref sig .tc := ⟨.hbm, 176, rfl⟩
abbrev main_cst_21 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_22 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_c_23 : Ref sig .tc := ⟨.hbm, 194, rfl⟩
abbrev main_v154 : Ref sig .tc := ⟨.hbm, 195, rfl⟩
abbrev main_v155 : Ref sig .tc := ⟨.hbm, 196, rfl⟩
abbrev main_c_24 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_cst_25 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_call2_cst : Ref sig .tc := ⟨.hbm, 223, rfl⟩
abbrev main_call2_v0 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128_S1x128_0_0 : S3x128.Slices ![0, 0] S1x128
  shapeCasts_S1x128_S128 : S1x128.ShapeCasts S128
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  scatter_S50000_S800000x1_S800000_n_0_0_1_wf : ScatterDims.WF S50000 S800000x1 S800000 [] [0] [0] 1
  dot_S50000x16_S16x128_S50000x128_1_0_0_1_n_n_wf : DotDims.WF S50000x16 S16x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x4_S50000x4_1_0_0_1_n_n_wf : DotDims.WF S50000x128 S128x4 S50000x4 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x4_S50000x4_1_0_0_1_n_n : DotDims S50000x128 S128x4 S50000x4 where
  lhsContracting := [1]
  rhsContracting := [0]
  lhsNonContracting := [0]
  rhsNonContracting := [1]
  lhsBatch := []
  rhsBatch := []
  wf := dot_S50000x128_S128x4_S50000x4_1_0_0_1_n_n_wf

class Facts : Prop extends Facts₀ where

variable [Facts]
-- ==== Proof.KRun.lean ====
/-
  The idealized kernel program's run with its result named. The program is eight kernel launches among stretches of host
  operations; its buffers' contents are followed from the launch memory through every stretch and every launch to the
  last boundary. Every weakly fair execution ends with each unscoped buffer at that last boundary's contents: the result
  buffer at what the eighth launch's write-backs leave, the argument arrays as launched.
-/
import proofs.«165537_j50680614093676_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_named : θ_run defs (onTc (τ := τ) (main (F := F))) ⟨m, fun _ => 0, ρ⟩ (fun r => ∀ c : Dev nD,
      r.2.mem ((c.tc : Thread nD τ).loc main_v88) = W15 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v88 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c)⟩)

end Cert.KernelIdeal.Hand

end
-- ==== Proof.Rows.lean ====
/-
  One entry of each dense stage of the network, as a formula of one row of its input on the extended reals.
  A linear layer's entry is the row's product sum with a column of the weights plus the bias entry. A normalised
  row subtracts the row's mean (the sum over its 128 entries divided by 128), multiplies by the reciprocal square
  root of the mean squared deviation plus the stabiliser, scales by the gain entry and adds the shift entry. The
  residual update adds to the entry the two product sums and the bias entry, and clips below at zero.
-/
import Idealize.ShloMosaic.PureOps.Ideal
import Idealize.ShloMosaic.Lib.ValueIdx

noncomputable section

namespace Cert.Rows

open Idealize.ShloMosaic

/-- The product sum of a row with a column. -/
def dotE {K : Nat} (a b : Fin K → EReal) : EReal := ∑ k : Fin K, a k * b k

/-- One entry of a linear layer. -/
def linE {K : Nat} (row col : Fin K → EReal) (b : EReal) : EReal := dotE row col + b

/-- The mean of a row of 128 entries. -/
def meanE (row : Fin 128 → EReal) : EReal := Ideal.div (∑ k : Fin 128, row k) (Ideal.ofBits .f32 0x43000000#32)

/-- The mean squared deviation of a row of 128 entries. -/
def varE (row : Fin 128 → EReal) : EReal :=
  Ideal.div (∑ k : Fin 128, (row k - meanE row) * (row k - meanE row)) (Ideal.ofBits .f32 0x43000000#32)

/-- One entry of a normalised row, with gain `g` and shift `b`. -/
def lnE (row : Fin 128 → EReal) (q : Fin 128) (g b : EReal) : EReal :=
  (row q - meanE row) * Ideal.rsqrt (varE row + Ideal.ofBits .f32 0x3727C5AC#32) * g + b

/-- One entry of the residual update: the entry `h`, plus the aggregated row against a column of the left weights, plus
    the bias entry, plus the normalised row against a column of the right weights; clipped below at zero. -/
def updE (h : EReal) (agg hn wl wr : Fin 128 → EReal) (bl : EReal) : EReal :=
  max (h + (dotE agg wl + bl + dotE hn wr)) (Ideal.ofBits .f32 0x00000000#32)

end Cert.Rows

end
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«165537_j50680614093676_1_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.LibCols.lean ====
/-
  A column of per-row numbers against a matrix, read entry by entry. A vector of `a` entries made a column `[a, 1]`
  reads its entry `p` at `(p, 0)`; a column repeated across `b` columns reads its entry `p` at `(p, c)`. Both in the
  vector unit's spelling (a shape cast, a broadcast) and in the host's (two `broadcast_in_dim`s). These are the forms
  a keep-dimensions row reduction takes on its way back to the matrix it was reduced from.
-/
import Idealize.ShloMosaic.Lib.Pipeline.Value
import Idealize.ShloMosaic.Lib.ValueIdx
import Idealize.ShloMosaic.Lib.ValueLayout

namespace Cert.LibCols

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's column: an `[a]` vector broadcast along axis 0 into `[a, 1]` reads, at `(p, u)`, the vector's entry `p`. -/
theorem inDim_a_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's repeated column: an `[a, 1]` array broadcast along both axes into `[a, b]` reads, at `(p, c)`, entry `p`. -/
theorem inDim_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibCols
-- ==== Proof.KPay.lean ====
/-
  What each kernel body stores, read at one entry of its block, on the extended reals. A change of float format is the
  identity there, a matrix-unit product into a zero accumulator is the textbook sum, and a lane sum is the sum of the
  row's entries; so a linear body stores the row's product sum plus the bias entry, the normalising body the
  normalised entry of the row, and the update body the clipped residual sum.
-/
import proofs.«165537_j50680614093676_1_alg».proof.Proof.Gen.KernelIdeal.Skeleton
import proofs.«165537_j50680614093676_1_alg».proof.Proof.Rows
import proofs.«165537_j50680614093676_1_alg».proof.Proof.LibRows
import proofs.«165537_j50680614093676_1_alg».proof.Proof.LibCols
import Idealize.ShloMosaic.PureOps.Ideal.Laws
import Idealize.ShloMosaic.Lib.Pipeline.Value
import Idealize.ShloMosaic.Lib.ValueLayout

noncomputable section
namespace Cert.KernelIdeal.Hand
open Idealize.ShloMosaic Idealize.ShloMosaic.ValueIdx Cert.KernelIdeal Cert.KernelIdeal.Gen Cert.Rows

/-- A lane sum of a block of 5000 rows of 128 entries, at row `r`, is the sum of that row's entries. -/
theorem rowSum_apply (v : FVec Ideal S5000x128 .f32) (hφ : FTy.f32 = FTy.f32 ∨ FTy.f32 = FTy.bf16)
    (hacc : (0x00000000#32 : BitVec FTy.f32.bits) = 0x00000000#32) (r : Fin 5000) :
    multiReduction .add [1] S5000 v 0x00000000#32 reduces_S5000x128_S5000 hφ hacc (ix1 r) = ∑ k : Fin 128, v (ix2 r k) := by
  refine (Ideal.multiReduction_add_single v 0x00000000#32 reduces_S5000x128_S5000 hφ hacc (ix1 r)).trans ?_
  refine Finset.sum_congr rfl fun k _ => congrArg v ?_
  funext a
  apply Fin.ext
  match a with
  | ⟨0, _⟩ => rfl
  | ⟨1, _⟩ => rfl

theorem dims_16_128 : dot_S5000x16_S16x128_S5000x128_1_0_0_1_n_n = DotDims.plain 5000 16 128 := rfl
theorem dims_128_128 : dot_S5000x128_S128x128_S5000x128_1_0_0_1_n_n = DotDims.plain 5000 128 128 := rfl
theorem dims_128_4 : dot_S5000x128_S128x4_S5000x4_1_0_0_1_n_n = DotDims.plain 5000 128 4 := rfl

/-! ## The normalising body, piece by piece -/

/-- The block's row sums. -/
def kRowSums (v : FVec Ideal S5000x128 .f32) : FVec Ideal S5000 .f32 :=
  multiReduction .add [1] S5000 v 0x00000000#32 reduces_S5000x128_S5000 (.inl rfl) rfl
/-- A per-row number made a column. -/
def kCol (v : FVec Ideal S5000 .f32) : FVec Ideal S5000x1 .f32 := shapeCast S5000x1 v shapeCasts_S5000_S5000x1
/-- A column repeated across the 128 columns. -/
def kColRep (v : FVec Ideal S5000x1 .f32) : FVec Ideal S5000x128 .f32 := broadcastTo S5000x128 v broadcasts_S5000x1_S5000x128
/-- A 128-vector repeated down the block's rows. -/
def kRowRep (v : FVec Ideal S128 .f32) : FVec Ideal S5000x128 .f32 :=
  broadcastTo S5000x128 (shapeCast S1x128 v shapeCasts_S128_S1x128) broadcasts_S1x128_S5000x128
/-- A constant column. -/
def kSplatCol (b : BitVec 32) : FVec Ideal S5000x1 .f32 := broadcast S5000x1 (Scalar.ofBits .f32 b)
/-- The column of row means, and of row mean squared deviations. -/
def kMean (h : FVec Ideal S5000x128 .f32) : FVec Ideal S5000x1 .f32 := divf (kCol (kRowSums h)) (kSplatCol 0x43000000#32)
def kVar (h : FVec Ideal S5000x128 .f32) : FVec Ideal S5000x1 .f32 :=
  divf (kCol (kRowSums (mulf (subf h (kColRep (kMean h))) (subf h (kColRep (kMean h)))))) (kSplatCol 0x43000000#32)
/-- The block normalised row by row. -/
def kLN (h : FVec Ideal S5000x128 .f32) (g b : FVec Ideal S128 .f32) : FVec Ideal S5000x128 .f32 :=
  addf (mulf (mulf (subf h (kColRep (kMean h))) (kColRep (rsqrt (addf (kVar h) (kSplatCol 0x3727C5AC#32))))) (kRowRep g)) (kRowRep b)

/-- The body's stored value is that composition (of its loads passed through identity casts). -/
theorem k1_pay1_eq (x0 : FVec Ideal S5000x128 .f32) (x1 x2 : FVec Ideal S128 .f32) :
    k1_pay1 (F := Ideal) x0 x1 x2
      = kLN (shapeCast S5000x128 x0 shapeCasts_S5000x128_S5000x128) (shapeCast S128 x1 shapeCasts_S128_S128)
          (shapeCast S128 x2 shapeCasts_S128_S128) := rfl

theorem kRowSums_apply (v : FVec Ideal S5000x128 .f32) (r : Fin 5000) : kRowSums v (ix1 r) = ∑ k : Fin 128, v (ix2 r k) := by
  unfold kRowSums
  exact rowSum_apply v _ _ r

theorem kCol_apply (v : FVec Ideal S5000 .f32) (p : Fin 5000) (u : Fin 1) : kCol v (ix2 p u) = v (ix1 p) := by
  unfold kCol; exact Cert.LibCols.shapeCast_a_a1_apply v _ p u

theorem kColRep_apply (v : FVec Ideal S5000x1 .f32) (p : Fin 5000) (q : Fin 128) : kColRep v (ix2 p q) = v (ix2 p (0 : Fin 1)) := by
  unfold kColRep; exact Cert.LibCols.broadcastTo_a1_ab_apply v _ p q

theorem kRowRep_apply (v : FVec Ideal S128 .f32) (p : Fin 5000) (q : Fin 128) : kRowRep v (ix2 p q) = v (ix1 q) := by
  unfold kRowRep; exact Cert.LibRows.rowBias_apply v _ _ p q

theorem kSplatCol_apply (b : BitVec 32) (j : S5000x1.Idx) : kSplatCol b j = Ideal.ofBits .f32 b := rfl

theorem kMean_apply (h : FVec Ideal S5000x128 .f32) (p : Fin 5000) (u : Fin 1) : kMean h (ix2 p u) = meanE (fun k => h (ix2 p k)) := by
  unfold kMean meanE
  simp only [divf, kCol_apply, kSplatCol_apply, kRowSums_apply, Ideal.divf_def]

theorem kVar_apply (h : FVec Ideal S5000x128 .f32) (p : Fin 5000) (u : Fin 1) : kVar h (ix2 p u) = varE (fun k => h (ix2 p k)) := by
  unfold kVar varE
  simp only [divf, mulf, subf, kCol_apply, kColRep_apply, kSplatCol_apply, kRowSums_apply, kMean_apply,
    Ideal.divf_def, Ideal.mulf_def, Ideal.subf_def]

theorem kLN_apply (h : FVec Ideal S5000x128 .f32) (g b : FVec Ideal S128 .f32) (p : Fin 5000) (q : Fin 128) :
    kLN h g b (ix2 p q) = lnE (fun k => h (ix2 p k)) q (g (ix1 q)) (b (ix1 q)) := by
  unfold kLN lnE
  simp only [rsqrt, addf, mulf, subf, kRowRep_apply, kColRep_apply, kSplatCol_apply, kMean_apply, kVar_apply,
    Ideal.addf_def, Ideal.mulf_def, Ideal.subf_def, Ideal.rsqrt_def]

/-- The normalising body's stored value at row `r`, column `q` of its block: the normalised entry of that row. -/
theorem k1_pay1_apply (x0 : FVec Ideal S5000x128 .f32) (x1 x2 : FVec Ideal S128 .f32) (r : Fin 5000) (q : Fin 128) :
    k1_pay1 (F := Ideal) x0 x1 x2 (ix2 r q) = lnE (fun k => x0 (ix2 r k)) q (x1 (ix1 q)) (x2 (ix1 q)) := by
  rw [k1_pay1_eq, shapeCast_self, shapeCast_self, shapeCast_self]
  exact kLN_apply x0 x1 x2 r q

/-- The first linear body's stored value at row `r`, column `q`: the row against column `q` of the weights, plus the bias. -/
theorem k0_pay1_apply (x0 : FVec Ideal S5000x16 .f32) (x1 : FVec Ideal S16x128 .f32) (x2 : FVec Ideal S128 .f32) (r : Fin 5000) (q : Fin 128) :
    k0_pay1 (F := Ideal) x0 x1 x2 (ix2 r q) = linE (fun k => x0 (ix2 r k)) (fun k => x1 (ix2 k q)) (x2 (ix1 q)) := by
  unfold k0_pay1
  simp only [addf, truncf, Ideal.truncf_def, Cert.LibRows.rowBias_apply,
    Cert.LibRows.matmul_plain_apply _ dims_16_128]
  rfl

/-- The last linear body's stored value at row `r`, column `q`. -/
theorem k7_pay1_apply (x0 : FVec Ideal S5000x128 .f32) (x1 : FVec Ideal S128x4 .f32) (x2 : FVec Ideal S4 .f32) (r : Fin 5000) (q : Fin 4) :
    k7_pay1 (F := Ideal) x0 x1 x2 (ix2 r q) = linE (fun k => x0 (ix2 r k)) (fun k => x1 (ix2 k q)) (x2 (ix1 q)) := by
  unfold k7_pay1
  simp only [addf, truncf, Ideal.truncf_def, shapeCast_self, Cert.LibRows.rowBias_apply,
    Cert.LibRows.matmul_plain_apply _ dims_128_4]
  rfl

/-- The update body's stored value at row `r`, column `q`. -/
theorem k2_pay1_apply (h hn agg : FVec Ideal S5000x128 .f32) (wl wr : FVec Ideal S128x128 .f32) (bl : FVec Ideal S128 .f32) (r : Fin 5000) (q : Fin 128) :
    k2_pay1 (F := Ideal) h hn agg wl wr bl (ix2 r q)
      = updE (h (ix2 r q)) (fun k => agg (ix2 r k)) (fun k => hn (ix2 r k)) (fun k => wl (ix2 k q)) (fun k => wr (ix2 k q)) (bl (ix1 q)) := by
  unfold k2_pay1
  simp only [addf, maximumf, broadcast, truncf, Ideal.truncf_def, shapeCast_self, Cert.LibRows.rowBias_apply,
    Cert.LibRows.matmul_plain_apply _ dims_128_128]
  rfl

/-- The later normalising and update launches run the same bodies. -/
theorem k3_pay1_apply (x0 : FVec Ideal S5000x128 .f32) (x1 x2 : FVec Ideal S128 .f32) (r : Fin 5000) (q : Fin 128) :
    k3_pay1 (F := Ideal) x0 x1 x2 (ix2 r q) = lnE (fun k => x0 (ix2 r k)) q (x1 (ix1 q)) (x2 (ix1 q)) :=
  k1_pay1_apply x0 x1 x2 r q
theorem k5_pay1_apply (x0 : FVec Ideal S5000x128 .f32) (x1 x2 : FVec Ideal S128 .f32) (r : Fin 5000) (q : Fin 128) :
    k5_pay1 (F := Ideal) x0 x1 x2 (ix2 r q) = lnE (fun k => x0 (ix2 r k)) q (x1 (ix1 q)) (x2 (ix1 q)) :=
  k1_pay1_apply x0 x1 x2 r q
theorem k4_pay1_apply (h hn agg : FVec Ideal S5000x128 .f32) (wl wr : FVec Ideal S128x128 .f32) (bl : FVec Ideal S128 .f32) (r : Fin 5000) (q : Fin 128) :
    k4_pay1 (F := Ideal) h hn agg wl wr bl (ix2 r q)
      = updE (h (ix2 r q)) (fun k => agg (ix2 r k)) (fun k => hn (ix2 r k)) (fun k => wl (ix2 k q)) (fun k => wr (ix2 k q)) (bl (ix1 q)) :=
  k2_pay1_apply h hn agg wl wr bl r q
theorem k6_pay1_apply (h hn agg : FVec Ideal S5000x128 .f32) (wl wr : FVec Ideal S128x128 .f32) (bl : FVec Ideal S128 .f32) (r : Fin 5000) (q : Fin 128) :
    k6_pay1 (F := Ideal) h hn agg wl wr bl (ix2 r q)
      = updE (h (ix2 r q)) (fun k => agg (ix2 r k)) (fun k => hn (ix2 r k)) (fun k => wl (ix2 k q)) (fun k => wr (ix2 k q)) (bl (ix1 q)) :=
  k2_pay1_apply h hn agg wl wr bl r q

end Cert.KernelIdeal.Hand
end
-- ==== Proof.RForms.lean ====
/-
  The reference's stages as functions of whole arrays, and each dense stage read at one entry, on the extended reals.
  The host's matrix product is the textbook sum; its row sum is the start value (zero) plus the sum of the row's
  entries; a vector repeated down the rows reads its entry, a column repeated across the columns reads its entry, a
  scalar repeated reads the scalar. So the linear stages, the row normalisation and the residual update read, at row
  `p` and column `q`, as the formulas of one row in the rows module. The edge stage (gather the source rows, add them
  into the destination rows, scale by the reciprocal in-degree) and the slices of the stacked weights are carried
  whole: the kernel's program applies the same host operations to its own arrays.
-/
import proofs.«165537_j50680614093676_1_alg».proof.ReferenceIdeal
import proofs.«165537_j50680614093676_1_alg».proof.Proof.Gen.ReferenceIdeal
import proofs.«165537_j50680614093676_1_alg».proof.Proof.Rows
import proofs.«165537_j50680614093676_1_alg».proof.Proof.LibRows
import proofs.«165537_j50680614093676_1_alg».proof.Proof.LibCols
import Idealize.ShloMosaic.PureOps.Ideal.Laws
import Idealize.ShloMosaic.Lib.Pipeline.Value
import Idealize.ShloMosaic.Lib.ValueLayout

noncomputable section

namespace Cert.ReferenceIdeal.Hand

open Idealize.ShloMosaic Idealize.ShloMosaic.ValueIdx Cert.ReferenceIdeal Cert.ReferenceIdeal.Gen Cert.Rows

/-- Arrays of extended reals, and of 32-bit words. -/
abbrev A (s : Shape) : Type := FVec Ideal s .f32
abbrev I32 (s : Shape) : Type := (⟨s, .i32⟩ : BufTy).Contents (Elt Ideal)

/-! ## Layout pieces -/

/-- A 128-vector repeated down the 50000 rows. -/
def rowRep (v : A S128) : A S50000x128 :=
  broadcastInDim S50000x128 ![0, 1] bcast_S1x128_S50000x128_0_1 (broadcastInDim S1x128 ![1] bcast_S128_S1x128_1 v)
/-- A per-row number made a column. -/
def col (v : A S50000) : A S50000x1 := broadcastInDim S50000x1 ![0] bcast_S50000_S50000x1_0 v
/-- A column repeated across the 128 columns. -/
def colRep (v : A S50000x1) : A S50000x128 := broadcastInDim S50000x128 ![0, 1] bcast_S50000x1_S50000x128_0_1 v
/-- A constant column. -/
def splatCol (b : BitVec 32) : A S50000x1 := broadcastInDim S50000x1 ![] bcast_S_S50000x1 (constant S_ .f32 b)
/-- A 4-vector repeated down the 50000 rows, and the zero matrix. -/
def rowRep4 (v : A S4) : A S50000x4 :=
  broadcastInDim S50000x4 ![0, 1] bcast_S1x4_S50000x4_0_1 (broadcastInDim S1x4 ![1] bcast_S4_S1x4_1 v)
def zeroMat : A S50000x128 := broadcastInDim S50000x128 ![] bcast_S_S50000x128 (constant S_ .f32 0x00000000#32)
/-- The sums of the rows, started at zero. -/
def rowSums (h : A S50000x128) : A S50000 :=
  Host.reduceAdd h (constant S_ .f32 0x00000000#32) reducesTo_S50000x128_S50000_d1 h_S_

/-! ## The dense stages -/

/-- The input projection. -/
def hLin0 (x : A S50000x16) (w : A S16x128) (b : A S128) : A S50000x128 :=
  addf (Host.dotGeneral dot_S50000x16_S16x128_S50000x128_1_0_0_1_n_n none x w) (rowRep b)

/-- The output projection. -/
def hLin7 (h : A S50000x128) (w : A S128x4) (b : A S4) : A S50000x4 :=
  addf (Host.dotGeneral dot_S50000x128_S128x4_S50000x4_1_0_0_1_n_n none h w)
    (rowRep4 b)

/-- The column of row means. -/
def hMean (h : A S50000x128) : A S50000x1 := Host.divf (col (rowSums h)) (splatCol 0x43000000#32)

/-- The column of row mean squared deviations. -/
def hVar (h : A S50000x128) : A S50000x1 :=
  Host.divf (col (rowSums (mulf (subf h (colRep (hMean h))) (subf h (colRep (hMean h)))))) (splatCol 0x43000000#32)

/-- The row normalisation with gain `g` and shift `b`. -/
def hLN (h : A S50000x128) (g b : A S128) : A S50000x128 :=
  addf (mulf (mulf (subf h (colRep (hMean h))) (colRep (Host.rsqrt (addf (hVar h) (splatCol 0x3727C5AC#32))))) (rowRep g)) (rowRep b)

/-- The residual update. -/
def hUpd (h hn agg : A S50000x128) (wl : A S128x128) (bl : A S128) (wr : A S128x128) : A S50000x128 :=
  maximumf
    (addf h (addf (addf (Host.dotGeneral dot_S50000x128_S128x128_S50000x128_1_0_0_1_n_n none agg wl) (rowRep bl))
      (Host.dotGeneral dot_S50000x128_S128x128_S50000x128_1_0_0_1_n_n none hn wr)))
    zeroMat

/-! ## The edge stage and the slices, carried whole -/

/-- The source and the destination node of every edge. -/
def hSrc (e : I32 S2x800000) : I32 S800000 :=
  shapeCast _ (extractStridedSlice S1x800000 ![0, 0] e slices_S2x800000_S1x800000_0_0) shapeCasts_S1x800000_S800000
def hDst (e : I32 S2x800000) : I32 S800000 :=
  shapeCast _ (extractStridedSlice S1x800000 ![1, 0] e slices_S2x800000_S1x800000_1_0) shapeCasts_S1x800000_S800000

/-- The reciprocal of each node's in-degree (at least one). -/
def hInvDeg (dst : I32 S800000) : A S50000 :=
  Host.divf (broadcastInDim S50000 ![] bcast_S_S50000 (constant S_ .f32 0x3F800000#32))
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 dst)
        (broadcastInDim S800000 ![] bcast_S_S800000 (constant S_ .f32 0x3F800000#32)))
      (broadcastInDim S50000 ![] bcast_S_S50000 (constant S_ .f32 0x3F800000#32)))

/-- The mean of the source rows over each node's incoming edges. -/
def hAgg (hn : A S50000x128) (src dst : I32 S800000) (inv : A S50000) : A S50000x128 :=
  mulf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 hn
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (colRep (col inv))

/-- Layer `i`'s row of a stack of three 128-vectors, and its matrix of a stack of three 128 by 128 matrices. -/
def row0 (x : A S3x128) : A S128 := shapeCast _ (extractStridedSlice S1x128 ![0, 0] x slices_S3x128_S1x128_0_0) shapeCasts_S1x128_S128
def row1 (x : A S3x128) : A S128 := shapeCast _ (extractStridedSlice S1x128 ![1, 0] x slices_S3x128_S1x128_1_0) shapeCasts_S1x128_S128
def row2 (x : A S3x128) : A S128 := shapeCast _ (extractStridedSlice S1x128 ![2, 0] x slices_S3x128_S1x128_2_0) shapeCasts_S1x128_S128
def mat0 (x : A S3x128x128) : A S128x128 :=
  shapeCast _ (extractStridedSlice S1x128x128 ![0, 0, 0] x slices_S3x128x128_S1x128x128_0_0_0) shapeCasts_S1x128x128_S128x128
def mat1 (x : A S3x128x128) : A S128x128 :=
  shapeCast _ (extractStridedSlice S1x128x128 ![1, 0, 0] x slices_S3x128x128_S1x128x128_1_0_0) shapeCasts_S1x128x128_S128x128
def mat2 (x : A S3x128x128) : A S128x128 :=
  shapeCast _ (extractStridedSlice S1x128x128 ![2, 0, 0] x slices_S3x128x128_S1x128x128_2_0_0) shapeCasts_S1x128x128_S128x128

/-! ## The dense stages at an entry -/

theorem rdims_16_128 : dot_S50000x16_S16x128_S50000x128_1_0_0_1_n_n = DotDims.plain 50000 16 128 := rfl
theorem rdims_128_128 : dot_S50000x128_S128x128_S50000x128_1_0_0_1_n_n = DotDims.plain 50000 128 128 := rfl
theorem rdims_128_4 : dot_S50000x128_S128x4_S50000x4_1_0_0_1_n_n = DotDims.plain 50000 128 4 := rfl

theorem rowRep_apply (v : A S128) (p : Fin 50000) (q : Fin 128) : rowRep v (ix2 p q) = v (ix1 q) := by
  unfold rowRep; exact Cert.LibRows.rowBiasInDim_apply v _ _ p q

theorem colRep_apply (v : A S50000x1) (p : Fin 50000) (q : Fin 128) : colRep v (ix2 p q) = v (ix2 p (0 : Fin 1)) := by
  unfold colRep; exact Cert.LibCols.inDim_a1_ab_apply v _ p q

theorem col_apply (v : A S50000) (p : Fin 50000) (u : Fin 1) : col v (ix2 p u) = v (ix1 p) := by
  unfold col; exact Cert.LibCols.inDim_a_a1_apply v _ p u

theorem splatCol_apply (b : BitVec 32) (j : S50000x1.Idx) : splatCol b j = Ideal.ofBits .f32 b := by
  unfold splatCol; rw [Cert.LibRows.scalarInDim_apply]; rfl

theorem rowRep4_apply (v : A S4) (p : Fin 50000) (q : Fin 4) : rowRep4 v (ix2 p q) = v (ix1 q) := by
  unfold rowRep4; exact Cert.LibRows.rowBiasInDim_apply v _ _ p q

theorem zeroMat_apply (j : S50000x128.Idx) : zeroMat j = Ideal.ofBits .f32 0x00000000#32 := by
  unfold zeroMat; rw [Cert.LibRows.scalarInDim_apply]; rfl

/-- The host's row sum started at zero is the sum of the row's entries. -/
theorem rowSums_apply (h : A S50000x128) (p : Fin 50000) : rowSums h (ix1 p) = ∑ k : Fin 128, h (ix2 p k) := by
  unfold rowSums
  simp only [Host.reduceAdd, Ideal.hostReduceAdd_def]
  rw [Ideal.hostReduceAdd_single reducesTo_S50000x128_S50000_d1 (by decide)]
  refine (congrArg (· + _) (show (constant S_ .f32 0x00000000#32 : A S_) _ = (0 : EReal) from Ideal.ofBits_zero_f32)).trans ?_
  rw [zero_add]
  refine Finset.sum_congr rfl fun k _ => congrArg h ?_
  funext a
  apply Fin.ext
  match a with
  | ⟨0, _⟩ => rfl
  | ⟨1, _⟩ => rfl

theorem hMean_apply (h : A S50000x128) (p : Fin 50000) (u : Fin 1) : hMean h (ix2 p u) = meanE (fun k => h (ix2 p k)) := by
  unfold hMean meanE
  simp only [Host.divf, col_apply, splatCol_apply, rowSums_apply, Ideal.hostDivf_def]

theorem hVar_apply (h : A S50000x128) (p : Fin 50000) (u : Fin 1) : hVar h (ix2 p u) = varE (fun k => h (ix2 p k)) := by
  unfold hVar varE
  simp only [Host.divf, mulf, subf, col_apply, colRep_apply, splatCol_apply, rowSums_apply, hMean_apply,
    Ideal.hostDivf_def, Ideal.mulf_def, Ideal.subf_def]

/-- The row normalisation at row `p`, column `q`. -/
theorem hLN_apply (h : A S50000x128) (g b : A S128) (p : Fin 50000) (q : Fin 128) :
    hLN h g b (ix2 p q) = lnE (fun k => h (ix2 p k)) q (g (ix1 q)) (b (ix1 q)) := by
  unfold hLN lnE
  simp only [Host.rsqrt, addf, mulf, subf, rowRep_apply, colRep_apply, splatCol_apply, hMean_apply, hVar_apply,
    Ideal.addf_def, Ideal.mulf_def, Ideal.subf_def, Ideal.hostUnary_rsqrt_def]

/-- The input projection at row `p`, column `q`. -/
theorem hLin0_apply (x : A S50000x16) (w : A S16x128) (b : A S128) (p : Fin 50000) (q : Fin 128) :
    hLin0 x w b (ix2 p q) = linE (fun k => x (ix2 p k)) (fun k => w (ix2 k q)) (b (ix1 q)) := by
  unfold hLin0 linE dotE
  simp only [addf, rowRep_apply, Cert.LibRows.dotGeneral_plain_apply _ rdims_16_128, Ideal.addf_def]

/-- The output projection at row `p`, column `q`. -/
theorem hLin7_apply (h : A S50000x128) (w : A S128x4) (b : A S4) (p : Fin 50000) (q : Fin 4) :
    hLin7 h w b (ix2 p q) = linE (fun k => h (ix2 p k)) (fun k => w (ix2 k q)) (b (ix1 q)) := by
  unfold hLin7 linE dotE
  simp only [addf, rowRep4_apply, Cert.LibRows.dotGeneral_plain_apply _ rdims_128_4, Ideal.addf_def]

/-- The residual update at row `p`, column `q`. -/
theorem hUpd_apply (h hn agg : A S50000x128) (wl : A S128x128) (bl : A S128) (wr : A S128x128) (p : Fin 50000) (q : Fin 128) :
    hUpd h hn agg wl bl wr (ix2 p q)
      = updE (h (ix2 p q)) (fun k => agg (ix2 p k)) (fun k => hn (ix2 p k)) (fun k => wl (ix2 k q)) (fun k => wr (ix2 k q)) (bl (ix1 q)) := by
  unfold hUpd updE dotE
  simp only [addf, maximumf, rowRep_apply, zeroMat_apply,
    Cert.LibRows.dotGeneral_plain_apply _ rdims_128_128, Ideal.addf_def, Ideal.maximumf_def]

end Cert.ReferenceIdeal.Hand

end
-- ==== Proof.KReg0.lean ====
/-
  A linear launch, read as a whole array. Its grid has ten points; point `t` fetches rows `5000 t … 5000 t + 4999` of
  the input and the whole weight matrix and bias vector, and writes back the same rows of the output. An entry of what
  it writes depends on its own row of the input only, and a row of the block is a row of the array, so the ten written
  blocks are the blocks of ONE array: the product of the whole input with the weights plus the bias repeated down the
  rows, in the host's spelling. The blocks cover the output.
-/
import proofs.«165537_j50680614093676_1_alg».proof.Proof.Gen.KernelIdeal.Frame
import proofs.«165537_j50680614093676_1_alg».proof.Proof.KPay
import proofs.«165537_j50680614093676_1_alg».proof.Proof.RForms
import Idealize.ShloMosaic.Lib.Pipeline.Value

set_option maxRecDepth 16384

noncomputable section

namespace Cert.KernelIdeal.Hand

open Cert.KernelIdeal Cert.KernelIdeal.Gen Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Reg0

theorem hz2 : (![0, 0] : Fin 2 → Nat) = fun _ => 0 := funext fun a => by fin_cases a <;> rfl
theorem hz1 : (![0] : Fin 1 → Nat) = fun _ => 0 := funext fun a => by fin_cases a <;> rfl

theorem lt10 (t : Fin cfg0.N) : t.val < 10 := Nat.lt_of_lt_of_eq t.isLt N_0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

/-- Window 0's block at point `t` is rows `5000 t … 5000 t + 4999` of its array. -/
theorem iblk0_apply (c : Dev nD) (t : Fin cfg0.N) (r : Fin 5000) (k : Fin 16) (hr : t.val * 5000 + r.val < 50000) :
    (iblk0 V c 0 t : Vec Ideal S5000x16 .f32) (ix2 r k)
      = (V c main_arg0 : Vec Ideal S50000x16 .f32) (ix2 (⟨t.val * 5000 + r.val, hr⟩ : Fin 50000) k) := by
  obtain ⟨e0, e1⟩ := idx0 t
  unfold iblk0
  rw [View.read_apply]
  show V c main_arg0 _ = V c main_arg0 _
  refine congrArg (V c main_arg0 : Vec Ideal S50000x16 .f32) ?_
  funext a
  apply Fin.ext
  match a with
  | ⟨0, _⟩ => show win0_0.index t (0 : Fin 2) * 5000 + 1 * r.val = t.val * 5000 + r.val; rw [e0]; omega
  | ⟨1, _⟩ => show win0_0.index t (1 : Fin 2) * 16 + 1 * k.val = k.val; rw [e1]; omega

/-- Window 1's block is its whole matrix at every point. -/
theorem iblk1_apply (c : Dev nD) (t : Fin cfg0.N) (k : Fin 16) (q : Fin 128) :
    (iblk0 V c 1 t : Vec Ideal S16x128 .f32) (ix2 k q) = (V c main_arg2 : Vec Ideal S16x128 .f32) (ix2 k q) := by
  obtain ⟨e0, e1⟩ := idx1 t
  unfold iblk0
  rw [View.read_apply]
  show V c main_arg2 _ = V c main_arg2 _
  refine congrArg (V c main_arg2 : Vec Ideal S16x128 .f32) ?_
  funext a
  apply Fin.ext
  match a with
  | ⟨0, _⟩ => show win0_1.index t (0 : Fin 2) * 16 + 1 * k.val = k.val; rw [e0]; omega
  | ⟨1, _⟩ => show win0_1.index t (1 : Fin 2) * 128 + 1 * q.val = q.val; rw [e1]; omega

/-- Window 2's block is its whole vector at every point. -/
theorem iblk2_apply (c : Dev nD) (t : Fin cfg0.N) (k : Fin 128) :
    (iblk0 V c 2 t : Vec Ideal S128 .f32) (ix1 k) = (V c main_arg3 : Vec Ideal S128 .f32) (ix1 k) := by
  have e0 := idx2 t
  unfold iblk0
  rw [View.read_apply]
  show V c main_arg3 _ = V c main_arg3 _
  refine congrArg (V c main_arg3 : Vec Ideal S128 .f32) ?_
  funext a
  apply Fin.ext
  match a with
  | ⟨0, _⟩ => show win0_2.index t (0 : Fin 1) * 128 + 1 * k.val = k.val; rw [e0]; omega

/-- What point `t` writes back is block `t` of the linear layer of the whole arrays. -/
theorem flushed_eq (c : Dev nD) (t : Fin cfg0.N) :
    (dat0 V c).flushed 3 t = ((cfg0.win 3).blk t).view.read (Elt Ideal)
      (Cert.ReferenceIdeal.Hand.hLin0 (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S5000x16) hz2, View.ld_unit_zero (S := S16x128) hz2, View.ld_unit_zero (S := S128) hz1]
  funext (j : S5000x128.Idx)
  obtain ⟨r, q, rfl⟩ : ∃ (r : Fin 5000) (q : Fin 128), j = ix2 r q := ⟨j 0, j 1, eq_ix2 j⟩
  have ht := lt10 t
  have hr : t.val * 5000 + r.val < 50000 := by have := r.isLt; omega
  obtain ⟨e4, e5⟩ := idx3 t
  have hemb : ((cfg0.win 3).blk t).view.emb (ix2 r q) = (ix2 (⟨t.val * 5000 + r.val, hr⟩ : Fin 50000) q : S50000x128.Idx) := by
    funext a
    apply Fin.ext
    match a with
    | ⟨0, _⟩ => show win0_3.index t (0 : Fin 2) * 5000 + 1 * r.val = t.val * 5000 + r.val; rw [e4]; omega
    | ⟨1, _⟩ => show win0_3.index t (1 : Fin 2) * 128 + 1 * q.val = q.val; rw [e5]; omega
  rw [View.read_apply, hemb]
  refine (k0_pay1_apply (iblk0 V c 0 t) (iblk0 V c 1 t) (iblk0 V c 2 t) r q).trans ?_
  rw [Cert.ReferenceIdeal.Hand.hLin0_apply, iblk2_apply V c t q,
    show (fun k : Fin 16 => (iblk0 V c 0 t : Vec Ideal S5000x16 .f32) (ix2 r k))
      = fun k : Fin 16 => (V c main_arg0 : Vec Ideal S50000x16 .f32) (ix2 (⟨t.val * 5000 + r.val, hr⟩ : Fin 50000) k)
      from funext fun k => iblk0_apply V c t r k hr,
    show (fun k : Fin 16 => (iblk0 V c 1 t : Vec Ideal S16x128 .f32) (ix2 k q))
      = fun k : Fin 16 => (V c main_arg2 : Vec Ideal S16x128 .f32) (ix2 k q)
      from funext fun k => iblk1_apply V c t k q]
  first | rfl | exact (cast_eq _ _).symm

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v12).slice (win0_3.rect t)).set ↔ _
  rw [View.set_slice_whole, Rect.mem_set_unit]
  exact Iff.rfl

/-- After the launch the output array is that one array: the ten written blocks cover it. -/
theorem arr (c : Dev nD) :
    (dat0 V c).arrAt 3 cfg0.N = Cert.ReferenceIdeal.Hand.hLin0 (V c main_arg0) (V c main_arg2) (V c main_arg3) :=
  (dat0 V c).arrAt_eq_of_cover 3 _ (fun t _ => flushed_eq V c t) fun (i : S50000x128.Idx) => by
    have hi0 : (i 0).val < 50000 := (i 0).isLt
    have hi1 : (i 1).val < 128 := (i 1).isLt
    have hN : cfg0.N = 10 := N_0
    let t : Fin cfg0.N := ⟨(i 0).val / 5000, by rw [hN]; omega⟩
    obtain ⟨e4, e5⟩ := idx3 t
    have e4' : win0_3.index t (0 : Fin 2) = (i 0).val / 5000 := e4
    refine ⟨t, flush0_3 t, ?_⟩
    rw [mem_blk]
    intro a
    match a with
    | ⟨0, _⟩ => show win0_3.index t (0 : Fin 2) * 5000 ≤ (i 0).val ∧ (i 0).val < win0_3.index t (0 : Fin 2) * 5000 + 5000; rw [e4']; omega
    | ⟨1, _⟩ => show win0_3.index t (1 : Fin 2) * 128 ≤ (i 1).val ∧ (i 1).val < win0_3.index t (1 : Fin 2) * 128 + 128; rw [e5]; omega

end Reg0

end Cert.KernelIdeal.Hand

end
-- ==== Proof.KReg1.lean ====
/-
  A normalising launch, read as a whole array. Its grid has ten points; point `t` fetches rows `5000 t … 5000 t + 4999`
  of the input and the whole gain and shift vectors, and writes back the same rows of the output. An entry of what it
  writes depends on its own row only, and a row of the block is a row of the array, so the ten written blocks are the
  blocks of ONE array: the input normalised row by row, in the host's spelling. The blocks cover the output.
-/
import proofs.«165537_j50680614093676_1_alg».proof.Proof.Gen.KernelIdeal.Frame
import proofs.«165537_j50680614093676_1_alg».proof.Proof.KPay
import proofs.«165537_j50680614093676_1_alg».proof.Proof.RForms
import Idealize.ShloMosaic.Lib.Pipeline.Value

set_option maxRecDepth 16384

noncomputable section

namespace Cert.KernelIdeal.Hand

open Cert.KernelIdeal Cert.KernelIdeal.Gen Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Reg1

theorem hz2 : (![0, 0] : Fin 2 → Nat) = fun _ => 0 := funext fun a => by fin_cases a <;> rfl
theorem hz1 : (![0] : Fin 1 → Nat) = fun _ => 0 := funext fun a => by fin_cases a <;> rfl

/-- The index maps over the grid's ten points: the row-block windows move with the point, the vectors stay. -/
theorem idx : ∀ t : Fin cfg1.N, win1_0.index t (0 : Fin 2) = t.val ∧ win1_0.index t (1 : Fin 2) = 0
    ∧ win1_1.index t (0 : Fin 1) = 0 ∧ win1_2.index t (0 : Fin 1) = 0
    ∧ win1_3.index t (0 : Fin 2) = t.val ∧ win1_3.index t (1 : Fin 2) = 0 :=
  (by decide +kernel : ∀ t : Fin grid1.N, _)

theorem lt10 (t : Fin cfg1.N) : t.val < 10 := by
  exact Nat.lt_of_lt_of_eq t.isLt N_1

/-- The input block at point `t` is rows `5000 t … 5000 t + 4999` of the array. -/
theorem iblk0_apply (c : Dev nD) (t : Fin cfg1.N) (r : Fin 5000) (k : Fin 128) (hr : t.val * 5000 + r.val < 50000) :
    (iblk1 V c 0 t : Vec Ideal S5000x128 .f32) (ix2 r k)
      = (V c main_v12 : Vec Ideal S50000x128 .f32) (ix2 (⟨t.val * 5000 + r.val, hr⟩ : Fin 50000) k) := by
  obtain ⟨e0, e1, -⟩ := idx t
  unfold iblk1
  rw [View.read_apply]
  show V c main_v12 _ = V c main_v12 _
  refine congrArg (V c main_v12 : Vec Ideal S50000x128 .f32) ?_
  funext a
  apply Fin.ext
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

/-- The gain and shift blocks are the whole vectors at every point. -/
theorem iblk1_apply (c : Dev nD) (t : Fin cfg1.N) (k : Fin 128) :
    (iblk1 V c 1 t : Vec Ideal S128 .f32) (ix1 k) = (V c main_v14 : Vec Ideal S128 .f32) (ix1 k) := by
  obtain ⟨-, -, e2, -⟩ := idx t
  unfold iblk1
  rw [View.read_apply]
  show V c main_v14 _ = V c main_v14 _
  refine congrArg (V c main_v14 : Vec Ideal S128 .f32) ?_
  funext a
  apply Fin.ext
  match a with
  | ⟨0, _⟩ => show win1_1.index t (0 : Fin 1) * 128 + 1 * k.val = k.val; rw [e2]; omega

theorem iblk2_apply (c : Dev nD) (t : Fin cfg1.N) (k : Fin 128) :
    (iblk1 V c 2 t : Vec Ideal S128 .f32) (ix1 k) = (V c main_v16 : Vec Ideal S128 .f32) (ix1 k) := by
  obtain ⟨-, -, -, e3, -⟩ := idx t
  unfold iblk1
  rw [View.read_apply]
  show V c main_v16 _ = V c main_v16 _
  refine congrArg (V c main_v16 : Vec Ideal S128 .f32) ?_
  funext a
  apply Fin.ext
  match a with
  | ⟨0, _⟩ => show win1_2.index t (0 : Fin 1) * 128 + 1 * k.val = k.val; rw [e3]; omega

/-- What point `t` writes back is block `t` of the array normalised row by row. -/
theorem flushed_eq (c : Dev nD) (t : Fin cfg1.N) :
    (dat1 V c).flushed 3 t = ((cfg1.win 3).blk t).view.read (Elt Ideal)
      (Cert.ReferenceIdeal.Hand.hLN (V c main_v12) (V c main_v14) (V c main_v16)) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128) hz1]
  funext (j : S5000x128.Idx)
  obtain ⟨r, q, rfl⟩ : ∃ (r : Fin 5000) (q : Fin 128), j = ix2 r q := ⟨j 0, j 1, eq_ix2 j⟩
  have ht := lt10 t
  have hr : t.val * 5000 + r.val < 50000 := by have := r.isLt; omega
  obtain ⟨-, -, -, -, e4, e5⟩ := idx t
  have hemb : ((cfg1.win 3).blk t).view.emb (ix2 r q) = (ix2 (⟨t.val * 5000 + r.val, hr⟩ : Fin 50000) q : S50000x128.Idx) := by
    funext a
    apply Fin.ext
    match a with
    | ⟨0, _⟩ => show win1_3.index t (0 : Fin 2) * 5000 + 1 * r.val = t.val * 5000 + r.val; rw [e4]; omega
    | ⟨1, _⟩ => show win1_3.index t (1 : Fin 2) * 128 + 1 * q.val = q.val; rw [e5]; omega
  rw [View.read_apply, hemb]
  refine (k1_pay1_apply (iblk1 V c 0 t) (iblk1 V c 1 t) (iblk1 V c 2 t) r q).trans ?_
  rw [Cert.ReferenceIdeal.Hand.hLN_apply, iblk1_apply V c t q, iblk2_apply V c t q,
    show (fun k : Fin 128 => (iblk1 V c 0 t : Vec Ideal S5000x128 .f32) (ix2 r k))
      = fun k : Fin 128 => (V c main_v12 : Vec Ideal S50000x128 .f32) (ix2 (⟨t.val * 5000 + r.val, hr⟩ : Fin 50000) k)
      from funext fun k => iblk0_apply V c t r k hr]
  first | rfl | exact (cast_eq _ _).symm

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v17).slice (win1_3.rect t)).set ↔ _
  rw [View.set_slice_whole, Rect.mem_set_unit]
  exact Iff.rfl

/-- After the launch the output array is the input array normalised row by row. -/
theorem arr (c : Dev nD) :
    (dat1 V c).arrAt 3 cfg1.N = Cert.ReferenceIdeal.Hand.hLN (V c main_v12) (V c main_v14) (V c main_v16) :=
  (dat1 V c).arrAt_eq_of_cover 3 _ (fun t _ => flushed_eq V c t) fun (i : S50000x128.Idx) => by
    have hi0 : (i 0).val < 50000 := (i 0).isLt
    have hi1 : (i 1).val < 128 := (i 1).isLt
    have hN : cfg1.N = 10 := N_1
    let t : Fin cfg1.N := ⟨(i 0).val / 5000, by rw [hN]; omega⟩
    obtain ⟨-, -, -, -, e4, e5⟩ := idx t
    have e4' : win1_3.index t (0 : Fin 2) = (i 0).val / 5000 := e4
    refine ⟨t, flush1_3 t, ?_⟩
    rw [mem_blk]
    intro a
    match a with
    | ⟨0, _⟩ => show win1_3.index t (0 : Fin 2) * 5000 ≤ (i 0).val ∧ (i 0).val < win1_3.index t (0 : Fin 2) * 5000 + 5000; rw [e4']; omega
    | ⟨1, _⟩ => show win1_3.index t (1 : Fin 2) * 128 ≤ (i 1).val ∧ (i 1).val < win1_3.index t (1 : Fin 2) * 128 + 128; rw [e5]; omega

end Reg1

end Cert.KernelIdeal.Hand

end
-- ==== Proof.KReg2.lean ====
/-
  An update launch, read as a whole array. Its grid has ten points; point `t` fetches rows `5000 t … 5000 t + 4999` of
  the carried features, of the normalised features and of the aggregated features, and the whole two weight matrices
  and bias vector, and writes back the same rows of the output. An entry of what it writes depends on its own row of
  each row-blocked input only, and a row of a block is a row of its array, so the ten written blocks are the blocks
  of ONE array: the residual update of the whole arrays, in the host's spelling. The blocks cover the output.
-/
import proofs.«165537_j50680614093676_1_alg».proof.Proof.Gen.KernelIdeal.Frame
import proofs.«165537_j50680614093676_1_alg».proof.Proof.KPay
import proofs.«165537_j50680614093676_1_alg».proof.Proof.RForms
import Idealize.ShloMosaic.Lib.Pipeline.Value

set_option maxRecDepth 16384

noncomputable section

namespace Cert.KernelIdeal.Hand

open Cert.KernelIdeal Cert.KernelIdeal.Gen Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Reg2

theorem hz2 : (![0, 0] : Fin 2 → Nat) = fun _ => 0 := funext fun a => by fin_cases a <;> rfl
theorem hz1 : (![0] : Fin 1 → Nat) = fun _ => 0 := funext fun a => by fin_cases a <;> rfl

theorem lt10 (t : Fin cfg2.N) : t.val < 10 := Nat.lt_of_lt_of_eq t.isLt N_2

theorem idx0 : ∀ t : Fin cfg2.N, win2_0.index t (0 : Fin 2) = t.val ∧ win2_0.index t (1 : Fin 2) = 0 :=
  (by decide +kernel : ∀ t : Fin grid2.N, _)
theorem idx1 : ∀ t : Fin cfg2.N, win2_1.index t (0 : Fin 2) = t.val ∧ win2_1.index t (1 : Fin 2) = 0 :=
  (by decide +kernel : ∀ t : Fin grid2.N, _)
theorem idx2 : ∀ t : Fin cfg2.N, win2_2.index t (0 : Fin 2) = t.val ∧ win2_2.index t (1 : Fin 2) = 0 :=
  (by decide +kernel : ∀ t : Fin grid2.N, _)
theorem idx3 : ∀ t : Fin cfg2.N, win2_3.index t (0 : Fin 2) = 0 ∧ win2_3.index t (1 : Fin 2) = 0 :=
  (by decide +kernel : ∀ t : Fin grid2.N, _)
theorem idx4 : ∀ t : Fin cfg2.N, win2_4.index t (0 : Fin 1) = 0 :=
  (by decide +kernel : ∀ t : Fin grid2.N, _)
theorem idx5 : ∀ t : Fin cfg2.N, win2_5.index t (0 : Fin 2) = 0 ∧ win2_5.index t (1 : Fin 2) = 0 :=
  (by decide +kernel : ∀ t : Fin grid2.N, _)
theorem idx6 : ∀ t : Fin cfg2.N, win2_6.index t (0 : Fin 2) = t.val ∧ win2_6.index t (1 : Fin 2) = 0 :=
  (by decide +kernel : ∀ t : Fin grid2.N, _)

/-- Window 0's block at point `t` is rows `5000 t … 5000 t + 4999` of its array. -/
theorem iblk0_apply (c : Dev nD) (t : Fin cfg2.N) (r : Fin 5000) (k : Fin 128) (hr : t.val * 5000 + r.val < 50000) :
    (iblk2 V c 0 t : Vec Ideal S5000x128 .f32) (ix2 r k)
      = (V c main_v12 : Vec Ideal S50000x128 .f32) (ix2 (⟨t.val * 5000 + r.val, hr⟩ : Fin 50000) k) := by
  obtain ⟨e0, e1⟩ := idx0 t
  unfold iblk2
  rw [View.read_apply]
  show V c main_v12 _ = V c main_v12 _
  refine congrArg (V c main_v12 : Vec Ideal S50000x128 .f32) ?_
  funext a
  apply Fin.ext
  match a with
  | ⟨0, _⟩ => show win2_0.index t (0 : Fin 2) * 5000 + 1 * r.val = t.val * 5000 + r.val; rw [e0]; omega
  | ⟨1, _⟩ => show win2_0.index t (1 : Fin 2) * 128 + 1 * k.val = k.val; rw [e1]; omega

/-- Window 1's block at point `t` is rows `5000 t … 5000 t + 4999` of its array. -/
theorem iblk1_apply (c : Dev nD) (t : Fin cfg2.N) (r : Fin 5000) (k : Fin 128) (hr : t.val * 5000 + r.val < 50000) :
    (iblk2 V c 1 t : Vec Ideal S5000x128 .f32) (ix2 r k)
      = (V c main_v17 : Vec Ideal S50000x128 .f32) (ix2 (⟨t.val * 5000 + r.val, hr⟩ : Fin 50000) k) := by
  obtain ⟨e0, e1⟩ := idx1 t
  unfold iblk2
  rw [View.read_apply]
  show V c main_v17 _ = V c main_v17 _
  refine congrArg (V c main_v17 : Vec Ideal S50000x128 .f32) ?_
  funext a
  apply Fin.ext
  match a with
  | ⟨0, _⟩ => show win2_1.index t (0 : Fin 2) * 5000 + 1 * r.val = t.val * 5000 + r.val; rw [e0]; omega
  | ⟨1, _⟩ => show win2_1.index t (1 : Fin 2) * 128 + 1 * k.val = k.val; rw [e1]; omega

/-- Window 2's block at point `t` is rows `5000 t … 5000 t + 4999` of its array. -/
theorem iblk2_apply (c : Dev nD) (t : Fin cfg2.N) (r : Fin 5000) (k : Fin 128) (hr : t.val * 5000 + r.val < 50000) :
    (iblk2 V c 2 t : Vec Ideal S5000x128 .f32) (ix2 r k)
      = (V c main_v30 : Vec Ideal S50000x128 .f32) (ix2 (⟨t.val * 5000 + r.val, hr⟩ : Fin 50000) k) := by
  obtain ⟨e0, e1⟩ := idx2 t
  unfold iblk2
  rw [View.read_apply]
  show V c main_v30 _ = V c main_v30 _
  refine congrArg (V c main_v30 : Vec Ideal S50000x128 .f32) ?_
  funext a
  apply Fin.ext
  match a with
  | ⟨0, _⟩ => show win2_2.index t (0 : Fin 2) * 5000 + 1 * r.val = t.val * 5000 + r.val; rw [e0]; omega
  | ⟨1, _⟩ => show win2_2.index t (1 : Fin 2) * 128 + 1 * k.val = k.val; rw [e1]; omega

/-- Window 3's block is its whole matrix at every point. -/
theorem iblk3_apply (c : Dev nD) (t : Fin cfg2.N) (k : Fin 128) (q : Fin 128) :
    (iblk2 V c 3 t : Vec Ideal S128x128 .f32) (ix2 k q) = (V c main_v32 : Vec Ideal S128x128 .f32) (ix2 k q) := by
  obtain ⟨e0, e1⟩ := idx3 t
  unfold iblk2
  rw [View.read_apply]
  show V c main_v32 _ = V c main_v32 _
  refine congrArg (V c main_v32 : Vec Ideal S128x128 .f32) ?_
  funext a
  apply Fin.ext
  match a with
  | ⟨0, _⟩ => show win2_3.index t (0 : Fin 2) * 128 + 1 * k.val = k.val; rw [e0]; omega
  | ⟨1, _⟩ => show win2_3.index t (1 : Fin 2) * 128 + 1 * q.val = q.val; rw [e1]; omega

/-- Window 4's block is its whole vector at every point. -/
theorem iblk4_apply (c : Dev nD) (t : Fin cfg2.N) (k : Fin 128) :
    (iblk2 V c 4 t : Vec Ideal S128 .f32) (ix1 k) = (V c main_v34 : Vec Ideal S128 .f32) (ix1 k) := by
  have e0 := idx4 t
  unfold iblk2
  rw [View.read_apply]
  show V c main_v34 _ = V c main_v34 _
  refine congrArg (V c main_v34 : Vec Ideal S128 .f32) ?_
  funext a
  apply Fin.ext
  match a with
  | ⟨0, _⟩ => show win2_4.index t (0 : Fin 1) * 128 + 1 * k.val = k.val; rw [e0]; omega

/-- Window 5's block is its whole matrix at every point. -/
theorem iblk5_apply (c : Dev nD) (t : Fin cfg2.N) (k : Fin 128) (q : Fin 128) :
    (iblk2 V c 5 t : Vec Ideal S128x128 .f32) (ix2 k q) = (V c main_v36 : Vec Ideal S128x128 .f32) (ix2 k q) := by
  obtain ⟨e0, e1⟩ := idx5 t
  unfold iblk2
  rw [View.read_apply]
  show V c main_v36 _ = V c main_v36 _
  refine congrArg (V c main_v36 : Vec Ideal S128x128 .f32) ?_
  funext a
  apply Fin.ext
  match a with
  | ⟨0, _⟩ => show win2_5.index t (0 : Fin 2) * 128 + 1 * k.val = k.val; rw [e0]; omega
  | ⟨1, _⟩ => show win2_5.index t (1 : Fin 2) * 128 + 1 * q.val = q.val; rw [e1]; omega

/-- What point `t` writes back is block `t` of the residual update of the whole arrays. -/
theorem flushed_eq (c : Dev nD) (t : Fin cfg2.N) :
    (dat2 V c).flushed 6 t = ((cfg2.win 6).blk t).view.read (Elt Ideal)
      (Cert.ReferenceIdeal.Hand.hUpd (V c main_v12) (V c main_v17) (V c main_v30) (V c main_v32) (V c main_v34) (V c main_v36)) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S128x128) hz2, View.ld_unit_zero (S := S128) hz1]
  funext (j : S5000x128.Idx)
  obtain ⟨r, q, rfl⟩ : ∃ (r : Fin 5000) (q : Fin 128), j = ix2 r q := ⟨j 0, j 1, eq_ix2 j⟩
  have ht := lt10 t
  have hr : t.val * 5000 + r.val < 50000 := by have := r.isLt; omega
  obtain ⟨e4, e5⟩ := idx6 t
  have hemb : ((cfg2.win 6).blk t).view.emb (ix2 r q) = (ix2 (⟨t.val * 5000 + r.val, hr⟩ : Fin 50000) q : S50000x128.Idx) := by
    funext a
    apply Fin.ext
    match a with
    | ⟨0, _⟩ => show win2_6.index t (0 : Fin 2) * 5000 + 1 * r.val = t.val * 5000 + r.val; rw [e4]; omega
    | ⟨1, _⟩ => show win2_6.index t (1 : Fin 2) * 128 + 1 * q.val = q.val; rw [e5]; omega
  rw [View.read_apply, hemb]
  refine (k2_pay1_apply (iblk2 V c 0 t) (iblk2 V c 1 t) (iblk2 V c 2 t) (iblk2 V c 3 t) (iblk2 V c 5 t) (iblk2 V c 4 t) r q).trans ?_
  rw [Cert.ReferenceIdeal.Hand.hUpd_apply, iblk0_apply V c t r q hr, iblk4_apply V c t q,
    show (fun k : Fin 128 => (iblk2 V c 2 t : Vec Ideal S5000x128 .f32) (ix2 r k))
      = fun k : Fin 128 => (V c main_v30 : Vec Ideal S50000x128 .f32) (ix2 (⟨t.val * 5000 + r.val, hr⟩ : Fin 50000) k)
      from funext fun k => iblk2_apply V c t r k hr,
    show (fun k : Fin 128 => (iblk2 V c 1 t : Vec Ideal S5000x128 .f32) (ix2 r k))
      = fun k : Fin 128 => (V c main_v17 : Vec Ideal S50000x128 .f32) (ix2 (⟨t.val * 5000 + r.val, hr⟩ : Fin 50000) k)
      from funext fun k => iblk1_apply V c t r k hr,
    show (fun k : Fin 128 => (iblk2 V c 3 t : Vec Ideal S128x128 .f32) (ix2 k q))
      = fun k : Fin 128 => (V c main_v32 : Vec Ideal S128x128 .f32) (ix2 k q)
      from funext fun k => iblk3_apply V c t k q,
    show (fun k : Fin 128 => (iblk2 V c 5 t : Vec Ideal S128x128 .f32) (ix2 k q))
      = fun k : Fin 128 => (V c main_v36 : Vec Ideal S128x128 .f32) (ix2 k q)
      from funext fun k => iblk5_apply V c t k q]
  first | rfl | exact (cast_eq _ _).symm

/-- An index of the array is in point `t`'s block iff each coordinate is in the block's range on its axis. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v37).slice (win2_6.rect t)).set ↔ _
  rw [View.set_slice_whole, Rect.mem_set_unit]
  exact Iff.rfl

/-- After the launch the output array is that one array: the ten written blocks cover it. -/
theorem arr (c : Dev nD) :
    (dat2 V c).arrAt 6 cfg2.N = Cert.ReferenceIdeal.Hand.hUpd (V c main_v12) (V c main_v17) (V c main_v30) (V c main_v32) (V c main_v34) (V c main_v36) :=
  (dat2 V c).arrAt_eq_of_cover 6 _ (fun t _ => flushed_eq V c t) fun (i : S50000x128.Idx) => by
    have hi0 : (i 0).val < 50000 := (i 0).isLt
    have hi1 : (i 1).val < 128 := (i 1).isLt
    have hN : cfg2.N = 10 := N_2
    let t : Fin cfg2.N := ⟨(i 0).val / 5000, by rw [hN]; omega⟩
    obtain ⟨e4, e5⟩ := idx6 t
    have e4' : win2_6.index t (0 : Fin 2) = (i 0).val / 5000 := e4
    refine ⟨t, flush2_6 t, ?_⟩
    rw [mem_blk]
    intro a
    match a with
    | ⟨0, _⟩ => show win2_6.index t (0 : Fin 2) * 5000 ≤ (i 0).val ∧ (i 0).val < win2_6.index t (0 : Fin 2) * 5000 + 5000; rw [e4']; omega
    | ⟨1, _⟩ => show win2_6.index t (1 : Fin 2) * 128 ≤ (i 1).val ∧ (i 1).val < win2_6.index t (1 : Fin 2) * 128 + 128; rw [e5]; omega

end Reg2

end Cert.KernelIdeal.Hand

end
-- ==== Proof.KReg3.lean ====
/-
  A normalising launch, read as a whole array. Its grid has ten points; point `t` fetches rows `5000 t … 5000 t + 4999`
  of the input and the whole gain and shift vectors, and writes back the same rows of the output. An entry of what it
  writes depends on its own row only, and a row of the block is a row of the array, so the ten written blocks are the
  blocks of ONE array: the input normalised row by row, in the host's spelling. The blocks cover the output.
-/
import proofs.«165537_j50680614093676_1_alg».proof.Proof.Gen.KernelIdeal.Frame
import proofs.«165537_j50680614093676_1_alg».proof.Proof.KPay
import proofs.«165537_j50680614093676_1_alg».proof.Proof.RForms
import Idealize.ShloMosaic.Lib.Pipeline.Value

set_option maxRecDepth 16384

noncomputable section

namespace Cert.KernelIdeal.Hand

open Cert.KernelIdeal Cert.KernelIdeal.Gen Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Reg3

theorem hz2 : (![0, 0] : Fin 2 → Nat) = fun _ => 0 := funext fun a => by fin_cases a <;> rfl
theorem hz1 : (![0] : Fin 1 → Nat) = fun _ => 0 := funext fun a => by fin_cases a <;> rfl

/-- The index maps over the grid's ten points: the row-block windows move with the point, the vectors stay. -/
theorem idx : ∀ t : Fin cfg3.N, win3_0.index t (0 : Fin 2) = t.val ∧ win3_0.index t (1 : Fin 2) = 0
    ∧ win3_1.index t (0 : Fin 1) = 0 ∧ win3_2.index t (0 : Fin 1) = 0
    ∧ win3_3.index t (0 : Fin 2) = t.val ∧ win3_3.index t (1 : Fin 2) = 0 :=
  (by decide +kernel : ∀ t : Fin grid3.N, _)

theorem lt10 (t : Fin cfg3.N) : t.val < 10 := by
  exact Nat.lt_of_lt_of_eq t.isLt N_3

/-- The input block at point `t` is rows `5000 t … 5000 t + 4999` of the array. -/
theorem iblk0_apply (c : Dev nD) (t : Fin cfg3.N) (r : Fin 5000) (k : Fin 128) (hr : t.val * 5000 + r.val < 50000) :
    (iblk3 V c 0 t : Vec Ideal S5000x128 .f32) (ix2 r k)
      = (V c main_v37 : Vec Ideal S50000x128 .f32) (ix2 (⟨t.val * 5000 + r.val, hr⟩ : Fin 50000) k) := by
  obtain ⟨e0, e1, -⟩ := idx t
  unfold iblk3
  rw [View.read_apply]
  show V c main_v37 _ = V c main_v37 _
  refine congrArg (V c main_v37 : Vec Ideal S50000x128 .f32) ?_
  funext a
  apply Fin.ext
  match a with
  | ⟨0, _⟩ => show win3_0.index t (0 : Fin 2) * 5000 + 1 * r.val = t.val * 5000 + r.val; rw [e0]; omega
  | ⟨1, _⟩ => show win3_0.index t (1 : Fin 2) * 128 + 1 * k.val = k.val; rw [e1]; omega

/-- The gain and shift blocks are the whole vectors at every point. -/
theorem iblk1_apply (c : Dev nD) (t : Fin cfg3.N) (k : Fin 128) :
    (iblk3 V c 1 t : Vec Ideal S128 .f32) (ix1 k) = (V c main_v39 : Vec Ideal S128 .f32) (ix1 k) := by
  obtain ⟨-, -, e2, -⟩ := idx t
  unfold iblk3
  rw [View.read_apply]
  show V c main_v39 _ = V c main_v39 _
  refine congrArg (V c main_v39 : Vec Ideal S128 .f32) ?_
  funext a
  apply Fin.ext
  match a with
  | ⟨0, _⟩ => show win3_1.index t (0 : Fin 1) * 128 + 1 * k.val = k.val; rw [e2]; omega

theorem iblk2_apply (c : Dev nD) (t : Fin cfg3.N) (k : Fin 128) :
    (iblk3 V c 2 t : Vec Ideal S128 .f32) (ix1 k) = (V c main_v41 : Vec Ideal S128 .f32) (ix1 k) := by
  obtain ⟨-, -, -, e3, -⟩ := idx t
  unfold iblk3
  rw [View.read_apply]
  show V c main_v41 _ = V c main_v41 _
  refine congrArg (V c main_v41 : Vec Ideal S128 .f32) ?_
  funext a
  apply Fin.ext
  match a with
  | ⟨0, _⟩ => show win3_2.index t (0 : Fin 1) * 128 + 1 * k.val = k.val; rw [e3]; omega

/-- What point `t` writes back is block `t` of the array normalised row by row. -/
theorem flushed_eq (c : Dev nD) (t : Fin cfg3.N) :
    (dat3 V c).flushed 3 t = ((cfg3.win 3).blk t).view.read (Elt Ideal)
      (Cert.ReferenceIdeal.Hand.hLN (V c main_v37) (V c main_v39) (V c main_v41)) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S128) hz1]
  funext (j : S5000x128.Idx)
  obtain ⟨r, q, rfl⟩ : ∃ (r : Fin 5000) (q : Fin 128), j = ix2 r q := ⟨j 0, j 1, eq_ix2 j⟩
  have ht := lt10 t
  have hr : t.val * 5000 + r.val < 50000 := by have := r.isLt; omega
  obtain ⟨-, -, -, -, e4, e5⟩ := idx t
  have hemb : ((cfg3.win 3).blk t).view.emb (ix2 r q) = (ix2 (⟨t.val * 5000 + r.val, hr⟩ : Fin 50000) q : S50000x128.Idx) := by
    funext a
    apply Fin.ext
    match a with
    | ⟨0, _⟩ => show win3_3.index t (0 : Fin 2) * 5000 + 1 * r.val = t.val * 5000 + r.val; rw [e4]; omega
    | ⟨1, _⟩ => show win3_3.index t (1 : Fin 2) * 128 + 1 * q.val = q.val; rw [e5]; omega
  rw [View.read_apply, hemb]
  refine (k3_pay1_apply (iblk3 V c 0 t) (iblk3 V c 1 t) (iblk3 V c 2 t) r q).trans ?_
  rw [Cert.ReferenceIdeal.Hand.hLN_apply, iblk1_apply V c t q, iblk2_apply V c t q,
    show (fun k : Fin 128 => (iblk3 V c 0 t : Vec Ideal S5000x128 .f32) (ix2 r k))
      = fun k : Fin 128 => (V c main_v37 : Vec Ideal S50000x128 .f32) (ix2 (⟨t.val * 5000 + r.val, hr⟩ : Fin 50000) k)
      from funext fun k => iblk0_apply V c t r k hr]
  first | rfl | exact (cast_eq _ _).symm

/-- An index of the array is in point `t`'s block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v42).slice (win3_3.rect t)).set ↔ _
  rw [View.set_slice_whole, Rect.mem_set_unit]
  exact Iff.rfl

/-- After the launch the output array is the input array normalised row by row. -/
theorem arr (c : Dev nD) :
    (dat3 V c).arrAt 3 cfg3.N = Cert.ReferenceIdeal.Hand.hLN (V c main_v37) (V c main_v39) (V c main_v41) :=
  (dat3 V c).arrAt_eq_of_cover 3 _ (fun t _ => flushed_eq V c t) fun (i : S50000x128.Idx) => by
    have hi0 : (i 0).val < 50000 := (i 0).isLt
    have hi1 : (i 1).val < 128 := (i 1).isLt
    have hN : cfg3.N = 10 := N_3
    let t : Fin cfg3.N := ⟨(i 0).val / 5000, by rw [hN]; omega⟩
    obtain ⟨-, -, -, -, e4, e5⟩ := idx t
    have e4' : win3_3.index t (0 : Fin 2) = (i 0).val / 5000 := e4
    refine ⟨t, flush3_3 t, ?_⟩
    rw [mem_blk]
    intro a
    match a with
    | ⟨0, _⟩ => show win3_3.index t (0 : Fin 2) * 5000 ≤ (i 0).val ∧ (i 0).val < win3_3.index t (0 : Fin 2) * 5000 + 5000; rw [e4']; omega
    | ⟨1, _⟩ => show win3_3.index t (1 : Fin 2) * 128 ≤ (i 1).val ∧ (i 1).val < win3_3.index t (1 : Fin 2) * 128 + 128; rw [e5]; omega

end Reg3

end Cert.KernelIdeal.Hand

end
-- ==== Proof.KReg4.lean ====
/-
  An update launch, read as a whole array. Its grid has ten points; point `t` fetches rows `5000 t … 5000 t + 4999` of
  the carried features, of the normalised features and of the aggregated features, and the whole two weight matrices
  and bias vector, and writes back the same rows of the output. An entry of what it writes depends on its own row of
  each row-blocked input only, and a row of a block is a row of its array, so the ten written blocks are the blocks
  of ONE array: the residual update of the whole arrays, in the host's spelling. The blocks cover the output.
-/
import proofs.«165537_j50680614093676_1_alg».proof.Proof.Gen.KernelIdeal.Frame
import proofs.«165537_j50680614093676_1_alg».proof.Proof.KPay
import proofs.«165537_j50680614093676_1_alg».proof.Proof.RForms
import Idealize.ShloMosaic.Lib.Pipeline.Value

set_option maxRecDepth 16384

noncomputable section

namespace Cert.KernelIdeal.Hand

open Cert.KernelIdeal Cert.KernelIdeal.Gen Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Reg4

theorem hz2 : (![0, 0] : Fin 2 → Nat) = fun _ => 0 := funext fun a => by fin_cases a <;> rfl
theorem hz1 : (![0] : Fin 1 → Nat) = fun _ => 0 := funext fun a => by fin_cases a <;> rfl

theorem lt10 (t : Fin cfg4.N) : t.val < 10 := Nat.lt_of_lt_of_eq t.isLt N_4

theorem idx0 : ∀ t : Fin cfg4.N, win4_0.index t (0 : Fin 2) = t.val ∧ win4_0.index t (1 : Fin 2) = 0 :=
  (by decide +kernel : ∀ t : Fin grid4.N, _)
theorem idx1 : ∀ t : Fin cfg4.N, win4_1.index t (0 : Fin 2) = t.val ∧ win4_1.index t (1 : Fin 2) = 0 :=
  (by decide +kernel : ∀ t : Fin grid4.N, _)
theorem idx2 : ∀ t : Fin cfg4.N, win4_2.index t (0 : Fin 2) = t.val ∧ win4_2.index t (1 : Fin 2) = 0 :=
  (by decide +kernel : ∀ t : Fin grid4.N, _)
theorem idx3 : ∀ t : Fin cfg4.N, win4_3.index t (0 : Fin 2) = 0 ∧ win4_3.index t (1 : Fin 2) = 0 :=
  (by decide +kernel : ∀ t : Fin grid4.N, _)
theorem idx4 : ∀ t : Fin cfg4.N, win4_4.index t (0 : Fin 1) = 0 :=
  (by decide +kernel : ∀ t : Fin grid4.N, _)
theorem idx5 : ∀ t : Fin cfg4.N, win4_5.index t (0 : Fin 2) = 0 ∧ win4_5.index t (1 : Fin 2) = 0 :=
  (by decide +kernel : ∀ t : Fin grid4.N, _)
theorem idx6 : ∀ t : Fin cfg4.N, win4_6.index t (0 : Fin 2) = t.val ∧ win4_6.index t (1 : Fin 2) = 0 :=
  (by decide +kernel : ∀ t : Fin grid4.N, _)

/-- Window 0's block at point `t` is rows `5000 t … 5000 t + 4999` of its array. -/
theorem iblk0_apply (c : Dev nD) (t : Fin cfg4.N) (r : Fin 5000) (k : Fin 128) (hr : t.val * 5000 + r.val < 50000) :
    (iblk4 V c 0 t : Vec Ideal S5000x128 .f32) (ix2 r k)
      = (V c main_v37 : Vec Ideal S50000x128 .f32) (ix2 (⟨t.val * 5000 + r.val, hr⟩ : Fin 50000) k) := by
  obtain ⟨e0, e1⟩ := idx0 t
  unfold iblk4
  rw [View.read_apply]
  show V c main_v37 _ = V c main_v37 _
  refine congrArg (V c main_v37 : Vec Ideal S50000x128 .f32) ?_
  funext a
  apply Fin.ext
  match a with
  | ⟨0, _⟩ => show win4_0.index t (0 : Fin 2) * 5000 + 1 * r.val = t.val * 5000 + r.val; rw [e0]; omega
  | ⟨1, _⟩ => show win4_0.index t (1 : Fin 2) * 128 + 1 * k.val = k.val; rw [e1]; omega

/-- Window 1's block at point `t` is rows `5000 t … 5000 t + 4999` of its array. -/
theorem iblk1_apply (c : Dev nD) (t : Fin cfg4.N) (r : Fin 5000) (k : Fin 128) (hr : t.val * 5000 + r.val < 50000) :
    (iblk4 V c 1 t : Vec Ideal S5000x128 .f32) (ix2 r k)
      = (V c main_v42 : Vec Ideal S50000x128 .f32) (ix2 (⟨t.val * 5000 + r.val, hr⟩ : Fin 50000) k) := by
  obtain ⟨e0, e1⟩ := idx1 t
  unfold iblk4
  rw [View.read_apply]
  show V c main_v42 _ = V c main_v42 _
  refine congrArg (V c main_v42 : Vec Ideal S50000x128 .f32) ?_
  funext a
  apply Fin.ext
  match a with
  | ⟨0, _⟩ => show win4_1.index t (0 : Fin 2) * 5000 + 1 * r.val = t.val * 5000 + r.val; rw [e0]; omega
  | ⟨1, _⟩ => show win4_1.index t (1 : Fin 2) * 128 + 1 * k.val = k.val; rw [e1]; omega

/-- Window 2's block at point `t` is rows `5000 t … 5000 t + 4999` of its array. -/
theorem iblk2_apply (c : Dev nD) (t : Fin cfg4.N) (r : Fin 5000) (k : Fin 128) (hr : t.val * 5000 + r.val < 50000) :
    (iblk4 V c 2 t : Vec Ideal S5000x128 .f32) (ix2 r k)
      = (V c main_v55 : Vec Ideal S50000x128 .f32) (ix2 (⟨t.val * 5000 + r.val, hr⟩ : Fin 50000) k) := by
  obtain ⟨e0, e1⟩ := idx2 t
  unfold iblk4
  rw [View.read_apply]
  show V c main_v55 _ = V c main_v55 _
  refine congrArg (V c main_v55 : Vec Ideal S50000x128 .f32) ?_
  funext a
  apply Fin.ext
  match a with
  | ⟨0, _⟩ => show win4_2.index t (0 : Fin 2) * 5000 + 1 * r.val = t.val * 5000 + r.val; rw [e0]; omega
  | ⟨1, _⟩ => show win4_2.index t (1 : Fin 2) * 128 + 1 * k.val = k.val; rw [e1]; omega

/-- Window 3's block is its whole matrix at every point. -/
theorem iblk3_apply (c : Dev nD) (t : Fin cfg4.N) (k : Fin 128) (q : Fin 128) :
    (iblk4 V c 3 t : Vec Ideal S128x128 .f32) (ix2 k q) = (V c main_v57 : Vec Ideal S128x128 .f32) (ix2 k q) := by
  obtain ⟨e0, e1⟩ := idx3 t
  unfold iblk4
  rw [View.read_apply]
  show V c main_v57 _ = V c main_v57 _
  refine congrArg (V c main_v57 : Vec Ideal S128x128 .f32) ?_
  funext a
  apply Fin.ext
  match a with
  | ⟨0, _⟩ => show win4_3.index t (0 : Fin 2) * 128 + 1 * k.val = k.val; rw [e0]; omega
  | ⟨1, _⟩ => show win4_3.index t (1 : Fin 2) * 128 + 1 * q.val = q.val; rw [e1]; omega

/-- Window 4's block is its whole vector at every point. -/
theorem iblk4_apply (c : Dev nD) (t : Fin cfg4.N) (k : Fin 128) :
    (iblk4 V c 4 t : Vec Ideal S128 .f32) (ix1 k) = (V c main_v59 : Vec Ideal S128 .f32) (ix1 k) := by
  have e0 := idx4 t
  unfold iblk4
  rw [View.read_apply]
  show V c main_v59 _ = V c main_v59 _
  refine congrArg (V c main_v59 : Vec Ideal S128 .f32) ?_
  funext a
  apply Fin.ext
  match a with
  | ⟨0, _⟩ => show win4_4.index t (0 : Fin 1) * 128 + 1 * k.val = k.val; rw [e0]; omega

/-- Window 5's block is its whole matrix at every point. -/
theorem iblk5_apply (c : Dev nD) (t : Fin cfg4.N) (k : Fin 128) (q : Fin 128) :
    (iblk4 V c 5 t : Vec Ideal S128x128 .f32) (ix2 k q) = (V c main_v61 : Vec Ideal S128x128 .f32) (ix2 k q) := by
  obtain ⟨e0, e1⟩ := idx5 t
  unfold iblk4
  rw [View.read_apply]
  show V c main_v61 _ = V c main_v61 _
  refine congrArg (V c main_v61 : Vec Ideal S128x128 .f32) ?_
  funext a
  apply Fin.ext
  match a with
  | ⟨0, _⟩ => show win4_5.index t (0 : Fin 2) * 128 + 1 * k.val = k.val; rw [e0]; omega
  | ⟨1, _⟩ => show win4_5.index t (1 : Fin 2) * 128 + 1 * q.val = q.val; rw [e1]; omega

/-- What point `t` writes back is block `t` of the residual update of the whole arrays. -/
theorem flushed_eq (c : Dev nD) (t : Fin cfg4.N) :
    (dat4 V c).flushed 6 t = ((cfg4.win 6).blk t).view.read (Elt Ideal)
      (Cert.ReferenceIdeal.Hand.hUpd (V c main_v37) (V c main_v42) (V c main_v55) (V c main_v57) (V c main_v59) (V c main_v61)) := by
  show (cfg4.win 6).cut (grid4.coords t) ((dat4 V c).after 6 t) = _
  rw [after4_6]
  unfold out4_6
  rw [View.canon_unit_zero hz2]
  simp only [View.ld_unit_zero (S := S5000x128) hz2, View.ld_unit_zero (S := S128x128) hz2, View.ld_unit_zero (S := S128) hz1]
  funext (j : S5000x128.Idx)
  obtain ⟨r, q, rfl⟩ : ∃ (r : Fin 5000) (q : Fin 128), j = ix2 r q := ⟨j 0, j 1, eq_ix2 j⟩
  have ht := lt10 t
  have hr : t.val * 5000 + r.val < 50000 := by have := r.isLt; omega
  obtain ⟨e4, e5⟩ := idx6 t
  have hemb : ((cfg4.win 6).blk t).view.emb (ix2 r q) = (ix2 (⟨t.val * 5000 + r.val, hr⟩ : Fin 50000) q : S50000x128.Idx) := by
    funext a
    apply Fin.ext
    match a with
    | ⟨0, _⟩ => show win4_6.index t (0 : Fin 2) * 5000 + 1 * r.val = t.val * 5000 + r.val; rw [e4]; omega
    | ⟨1, _⟩ => show win4_6.index t (1 : Fin 2) * 128 + 1 * q.val = q.val; rw [e5]; omega
  rw [View.read_apply, hemb]
  refine (k4_pay1_apply (iblk4 V c 0 t) (iblk4 V c 1 t) (iblk4 V c 2 t) (iblk4 V c 3 t) (iblk4 V c 5 t) (iblk4 V c 4 t) r q).trans ?_
  rw [Cert.ReferenceIdeal.Hand.hUpd_apply, iblk0_apply V c t r q hr, iblk4_apply V c t q,
    show (fun k : Fin 128 => (iblk4 V c 2 t : Vec Ideal S5000x128 .f32) (ix2 r k))
      = fun k : Fin 128 => (V c main_v55 : Vec Ideal S50000x128 .f32) (ix2 (⟨t.val * 5000 + r.val, hr⟩ : Fin 50000) k)
      from funext fun k => iblk2_apply V c t r k hr,
    show (fun k : Fin 128 => (iblk4 V c 1 t : Vec Ideal S5000x128 .f32) (ix2 r k))
      = fun k : Fin 128 => (V c main_v42 : Vec Ideal S50000x128 .f32) (ix2 (⟨t.val * 5000 + r.val, hr⟩ : Fin 50000) k)
      from funext fun k => iblk1_apply V c t r k hr,
    show (fun k : Fin 128 => (iblk4 V c 3 t : Vec Ideal S128x128 .f32) (ix2 k q))
      = fun k : Fin 128 => (V c main_v57 : Vec Ideal S128x128 .f32) (ix2 k q)
      from funext fun k => iblk3_apply V c t k q,
    show (fun k : Fin 128 => (iblk4 V c 5 t : Vec Ideal S128x128 .f32) (ix2 k q))
      = fun k : Fin 128 => (V c main_v61 : Vec Ideal S128x128 .f32) (ix2 k q)
      from funext fun k => iblk5_apply V c t k q]
  first | rfl | exact (cast_eq _ _).symm

/-- An index of the array is in point `t`'s block iff each coordinate is in the block's range on its axis. -/
theorem mem_blk (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v62).slice (win4_6.rect t)).set ↔ _
  rw [View.set_slice_whole, Rect.mem_set_unit]
  exact Iff.rfl

/-- After the launch the output array is that one array: the ten written blocks cover it. -/
theorem arr (c : Dev nD) :
    (dat4 V c).arrAt 6 cfg4.N = Cert.ReferenceIdeal.Hand.hUpd (V c main_v37) (V c main_v42) (V c main_v55) (V c main_v57) (V c main_v59) (V c main_v61) :=
  (dat4 V c).arrAt_eq_of_cover 6 _ (fun t _ => flushed_eq V c t) fun (i : S50000x128.Idx) => by
    have hi0 : (i 0).val < 50000 := (i 0).isLt
    have hi1 : (i 1).val < 128 := (i 1).isLt
    have hN : cfg4.N = 10 := N_4
    let t : Fin cfg4.N := ⟨(i 0).val / 5000, by rw [hN]; omega⟩
    obtain ⟨e4, e5⟩ := idx6 t
    have e4' : win4_6.index t (0 : Fin 2) = (i 0).val / 5000 := e4
    refine ⟨t, flush4_6 t, ?_⟩
    rw [mem_blk]
    intro a
    match a with
    | ⟨0, _⟩ => show win4_6.index t (0 : Fin 2) * 5000 ≤ (i 0).val ∧ (i 0).val < win4_6.index t (0 : Fin 2) * 5000 + 5000; rw [e4']; omega
    | ⟨1, _⟩ => show win4_6.index t (1 : Fin 2) * 128 ≤ (i 1).val ∧ (i 1).val < win4_6.index t (1 : Fin 2) * 128 + 128; rw [e5]; omega

end Reg4

end Cert.KernelIdeal.Hand

end
-- ==== Proof.KReg5.lean ====
/-
  A normalising launch, read as a whole array. Its grid has ten points; point `t` fetches rows `5000 t … 5000 t + 4999`
  of the input and the whole gain and shift vectors, and writes back the same rows of the output. An entry of what it
  writes depends on its own row only, and a row of the block is a row of the array, so the ten written blocks are the
  blocks of ONE array: the input normalised row by row, in the host's spelling. The blocks cover the output.
-/
import proofs.«165537_j50680614093676_1_alg».proof.Proof.Gen.KernelIdeal.Frame
import proofs.«165537_j50680614093676_1_alg».proof.Proof.KPay
import proofs.«165537_j50680614093676_1_alg».proof.Proof.RForms
import Idealize.ShloMosaic.Lib.Pipeline.Value

set_option maxRecDepth 16384

noncomputable section

namespace Cert.KernelIdeal.Hand

open Cert.KernelIdeal Cert.KernelIdeal.Gen Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Reg5

theorem hz2 : (![0, 0] : Fin 2 → Nat) = fun _ => 0 := funext fun a => by fin_cases a <;> rfl
theorem hz1 : (![0] : Fin 1 → Nat) = fun _ => 0 := funext fun a => by fin_cases a <;> rfl

/-- The index maps over the grid's ten points: the row-block windows move with the point, the vectors stay. -/
theorem idx : ∀ t : Fin cfg5.N, win5_0.index t (0 : Fin 2) = t.val ∧ win5_0.index t (1 : Fin 2) = 0
    ∧ win5_1.index t (0 : Fin 1) = 0 ∧ win5_2.index t (0 : Fin 1) = 0
    ∧ win5_3.index t (0 : Fin 2) = t.val ∧ win5_3.index t (1 : Fin 2) = 0 :=
  (by decide +kernel : ∀ t : Fin grid5.N, _)

theorem lt10 (t : Fin cfg5.N) : t.val < 10 := by
  exact Nat.lt_of_lt_of_eq t.isLt N_5

/-- The input block at point `t` is rows `5000 t … 5000 t + 4999` of the array. -/
theorem iblk0_apply (c : Dev nD) (t : Fin cfg5.N) (r : Fin 5000) (k : Fin 128) (hr : t.val * 5000 + r.val < 50000) :
    (iblk5 V c 0 t : Vec Ideal S5000x128 .f32) (ix2 r k)
      = (V c main_v62 : Vec Ideal S50000x128 .f32) (ix2 (⟨t.val * 5000 + r.val, hr⟩ : Fin 50000) k) := by
  obtain ⟨e0, e1, -⟩ := idx t
  unfold iblk5
  rw [View.read_apply]
  show V c main_v62 _ = V c main_v62 _
  refine congrArg (V c main_v62 : Vec Ideal S50000x128 .f32) ?_
  funext a
  apply Fin.ext
  match a with
  | ⟨0, _⟩ => show win5_0.index t (0 : Fin 2) * 5000 + 1 * r.val = t.val * 5000 + r.val; rw [e0]; omega
  | ⟨1, _⟩ => show win5_0.index t (1 : Fin 2) * 128 + 1 * k.val = k.val; rw [e1]; omega

/-- The gain and shift blocks are the whole vectors at every point. -/
theorem iblk1_apply (c : Dev nD) (t : Fin cfg5.N) (k : Fin 128) :
    (iblk5 V c 1 t : Vec Ideal S128 .f32) (ix1 k) = (V c main_v64 : Vec Ideal S128 .f32) (ix1 k) := by
  obtain ⟨-, -, e2, -⟩ := idx t
  unfold iblk5
  rw [View.read_apply]
  show V c main_v64 _ = V c main_v64 _
  refine congrArg (V c main_v64 : Vec Ideal S128 .f32) ?_
  funext a
  apply Fin.ext
  match a with
  | ⟨0, _⟩ => show win5_1.index t (0 : Fin 1) * 128 + 1 * k.val = k.val; rw [e2]; omega

theorem iblk2_apply (c : Dev nD) (t : Fin cfg5.N) (k : Fin 128) :
    (iblk5 V c 2 t : Vec Ideal S128 .f32) (ix1 k) = (V c main_v66 : Vec Ideal S128 .f32) (ix1 k) := by
  obtain ⟨-, -, -, e3, -⟩ := idx t
  unfold iblk5
  rw [View.read_apply]
  show V c main_v66 _ = V c main_v66 _
  refine congrArg (V c main_v66 : Vec Ideal S128 .f32) ?_
  funext a
  apply Fin.ext
  match a with
  | ⟨0, _⟩ => show win5_2.index t (0 : Fin 1) * 128 + 1 * k.val = k.val; rw [e3]; omega

/-- What point `t` writes back is block `t` of the array normalised row by row. -/
theorem flushed_eq (c : Dev nD) (t : Fin cfg5.N) :
    (dat5 V c).flushed 3 t = ((cfg5.win 3).blk t).view.read (Elt Ideal)
      (Cert.ReferenceIdeal.Hand.hLN (V c main_v62) (V c main_v64) (V c main_v66)) := by
  show (cfg5.win 3).cut (grid5.coords t) ((dat5 V c).after 3 t) = _
  rw [after5_3]
  unfold out5_3
  rw [View.canon_unit_zero hz2]
  simp only [View.ld_unit_zero (S := S5000x128) hz2, View.ld_unit_zero (S := S128) hz1]
  funext (j : S5000x128.Idx)
  obtain ⟨r, q, rfl⟩ : ∃ (r : Fin 5000) (q : Fin 128), j = ix2 r q := ⟨j 0, j 1, eq_ix2 j⟩
  have ht := lt10 t
  have hr : t.val * 5000 + r.val < 50000 := by have := r.isLt; omega
  obtain ⟨-, -, -, -, e4, e5⟩ := idx t
  have hemb : ((cfg5.win 3).blk t).view.emb (ix2 r q) = (ix2 (⟨t.val * 5000 + r.val, hr⟩ : Fin 50000) q : S50000x128.Idx) := by
    funext a
    apply Fin.ext
    match a with
    | ⟨0, _⟩ => show win5_3.index t (0 : Fin 2) * 5000 + 1 * r.val = t.val * 5000 + r.val; rw [e4]; omega
    | ⟨1, _⟩ => show win5_3.index t (1 : Fin 2) * 128 + 1 * q.val = q.val; rw [e5]; omega
  rw [View.read_apply, hemb]
  refine (k5_pay1_apply (iblk5 V c 0 t) (iblk5 V c 1 t) (iblk5 V c 2 t) r q).trans ?_
  rw [Cert.ReferenceIdeal.Hand.hLN_apply, iblk1_apply V c t q, iblk2_apply V c t q,
    show (fun k : Fin 128 => (iblk5 V c 0 t : Vec Ideal S5000x128 .f32) (ix2 r k))
      = fun k : Fin 128 => (V c main_v62 : Vec Ideal S50000x128 .f32) (ix2 (⟨t.val * 5000 + r.val, hr⟩ : Fin 50000) k)
      from funext fun k => iblk0_apply V c t r k hr]
  first | rfl | exact (cast_eq _ _).symm

/-- An index of the array is in point `t`'s block iff each coordinate is in the block's range on its axis. -/
theorem mem_blk (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v67).slice (win5_3.rect t)).set ↔ _
  rw [View.set_slice_whole, Rect.mem_set_unit]
  exact Iff.rfl

/-- After the launch the output array is the input array normalised row by row. -/
theorem arr (c : Dev nD) :
    (dat5 V c).arrAt 3 cfg5.N = Cert.ReferenceIdeal.Hand.hLN (V c main_v62) (V c main_v64) (V c main_v66) :=
  (dat5 V c).arrAt_eq_of_cover 3 _ (fun t _ => flushed_eq V c t) fun (i : S50000x128.Idx) => by
    have hi0 : (i 0).val < 50000 := (i 0).isLt
    have hi1 : (i 1).val < 128 := (i 1).isLt
    have hN : cfg5.N = 10 := N_5
    let t : Fin cfg5.N := ⟨(i 0).val / 5000, by rw [hN]; omega⟩
    obtain ⟨-, -, -, -, e4, e5⟩ := idx t
    have e4' : win5_3.index t (0 : Fin 2) = (i 0).val / 5000 := e4
    refine ⟨t, flush5_3 t, ?_⟩
    rw [mem_blk]
    intro a
    match a with
    | ⟨0, _⟩ => show win5_3.index t (0 : Fin 2) * 5000 ≤ (i 0).val ∧ (i 0).val < win5_3.index t (0 : Fin 2) * 5000 + 5000; rw [e4']; omega
    | ⟨1, _⟩ => show win5_3.index t (1 : Fin 2) * 128 ≤ (i 1).val ∧ (i 1).val < win5_3.index t (1 : Fin 2) * 128 + 128; rw [e5]; omega

end Reg5

end Cert.KernelIdeal.Hand

end
-- ==== Proof.KReg6.lean ====
/-
  An update launch, read as a whole array. Its grid has ten points; point `t` fetches rows `5000 t … 5000 t + 4999` of
  the carried features, of the normalised features and of the aggregated features, and the whole two weight matrices
  and bias vector, and writes back the same rows of the output. An entry of what it writes depends on its own row of
  each row-blocked input only, and a row of a block is a row of its array, so the ten written blocks are the blocks
  of ONE array: the residual update of the whole arrays, in the host's spelling. The blocks cover the output.
-/
import proofs.«165537_j50680614093676_1_alg».proof.Proof.Gen.KernelIdeal.Frame
import proofs.«165537_j50680614093676_1_alg».proof.Proof.KPay
import proofs.«165537_j50680614093676_1_alg».proof.Proof.RForms
import Idealize.ShloMosaic.Lib.Pipeline.Value

set_option maxRecDepth 16384

noncomputable section

namespace Cert.KernelIdeal.Hand

open Cert.KernelIdeal Cert.KernelIdeal.Gen Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Reg6

theorem hz2 : (![0, 0] : Fin 2 → Nat) = fun _ => 0 := funext fun a => by fin_cases a <;> rfl
theorem hz1 : (![0] : Fin 1 → Nat) = fun _ => 0 := funext fun a => by fin_cases a <;> rfl

theorem lt10 (t : Fin cfg6.N) : t.val < 10 := Nat.lt_of_lt_of_eq t.isLt N_6

theorem idx0 : ∀ t : Fin cfg6.N, win6_0.index t (0 : Fin 2) = t.val ∧ win6_0.index t (1 : Fin 2) = 0 :=
  (by decide +kernel : ∀ t : Fin grid6.N, _)
theorem idx1 : ∀ t : Fin cfg6.N, win6_1.index t (0 : Fin 2) = t.val ∧ win6_1.index t (1 : Fin 2) = 0 :=
  (by decide +kernel : ∀ t : Fin grid6.N, _)
theorem idx2 : ∀ t : Fin cfg6.N, win6_2.index t (0 : Fin 2) = t.val ∧ win6_2.index t (1 : Fin 2) = 0 :=
  (by decide +kernel : ∀ t : Fin grid6.N, _)
theorem idx3 : ∀ t : Fin cfg6.N, win6_3.index t (0 : Fin 2) = 0 ∧ win6_3.index t (1 : Fin 2) = 0 :=
  (by decide +kernel : ∀ t : Fin grid6.N, _)
theorem idx4 : ∀ t : Fin cfg6.N, win6_4.index t (0 : Fin 1) = 0 :=
  (by decide +kernel : ∀ t : Fin grid6.N, _)
theorem idx5 : ∀ t : Fin cfg6.N, win6_5.index t (0 : Fin 2) = 0 ∧ win6_5.index t (1 : Fin 2) = 0 :=
  (by decide +kernel : ∀ t : Fin grid6.N, _)
theorem idx6 : ∀ t : Fin cfg6.N, win6_6.index t (0 : Fin 2) = t.val ∧ win6_6.index t (1 : Fin 2) = 0 :=
  (by decide +kernel : ∀ t : Fin grid6.N, _)

/-- Window 0's block at point `t` is rows `5000 t … 5000 t + 4999` of its array. -/
theorem iblk0_apply (c : Dev nD) (t : Fin cfg6.N) (r : Fin 5000) (k : Fin 128) (hr : t.val * 5000 + r.val < 50000) :
    (iblk6 V c 0 t : Vec Ideal S5000x128 .f32) (ix2 r k)
      = (V c main_v62 : Vec Ideal S50000x128 .f32) (ix2 (⟨t.val * 5000 + r.val, hr⟩ : Fin 50000) k) := by
  obtain ⟨e0, e1⟩ := idx0 t
  unfold iblk6
  rw [View.read_apply]
  show V c main_v62 _ = V c main_v62 _
  refine congrArg (V c main_v62 : Vec Ideal S50000x128 .f32) ?_
  funext a
  apply Fin.ext
  match a with
  | ⟨0, _⟩ => show win6_0.index t (0 : Fin 2) * 5000 + 1 * r.val = t.val * 5000 + r.val; rw [e0]; omega
  | ⟨1, _⟩ => show win6_0.index t (1 : Fin 2) * 128 + 1 * k.val = k.val; rw [e1]; omega

/-- Window 1's block at point `t` is rows `5000 t … 5000 t + 4999` of its array. -/
theorem iblk1_apply (c : Dev nD) (t : Fin cfg6.N) (r : Fin 5000) (k : Fin 128) (hr : t.val * 5000 + r.val < 50000) :
    (iblk6 V c 1 t : Vec Ideal S5000x128 .f32) (ix2 r k)
      = (V c main_v67 : Vec Ideal S50000x128 .f32) (ix2 (⟨t.val * 5000 + r.val, hr⟩ : Fin 50000) k) := by
  obtain ⟨e0, e1⟩ := idx1 t
  unfold iblk6
  rw [View.read_apply]
  show V c main_v67 _ = V c main_v67 _
  refine congrArg (V c main_v67 : Vec Ideal S50000x128 .f32) ?_
  funext a
  apply Fin.ext
  match a with
  | ⟨0, _⟩ => show win6_1.index t (0 : Fin 2) * 5000 + 1 * r.val = t.val * 5000 + r.val; rw [e0]; omega
  | ⟨1, _⟩ => show win6_1.index t (1 : Fin 2) * 128 + 1 * k.val = k.val; rw [e1]; omega

/-- Window 2's block at point `t` is rows `5000 t … 5000 t + 4999` of its array. -/
theorem iblk2_apply (c : Dev nD) (t : Fin cfg6.N) (r : Fin 5000) (k : Fin 128) (hr : t.val * 5000 + r.val < 50000) :
    (iblk6 V c 2 t : Vec Ideal S5000x128 .f32) (ix2 r k)
      = (V c main_v80 : Vec Ideal S50000x128 .f32) (ix2 (⟨t.val * 5000 + r.val, hr⟩ : Fin 50000) k) := by
  obtain ⟨e0, e1⟩ := idx2 t
  unfold iblk6
  rw [View.read_apply]
  show V c main_v80 _ = V c main_v80 _
  refine congrArg (V c main_v80 : Vec Ideal S50000x128 .f32) ?_
  funext a
  apply Fin.ext
  match a with
  | ⟨0, _⟩ => show win6_2.index t (0 : Fin 2) * 5000 + 1 * r.val = t.val * 5000 + r.val; rw [e0]; omega
  | ⟨1, _⟩ => show win6_2.index t (1 : Fin 2) * 128 + 1 * k.val = k.val; rw [e1]; omega

/-- Window 3's block is its whole matrix at every point. -/
theorem iblk3_apply (c : Dev nD) (t : Fin cfg6.N) (k : Fin 128) (q : Fin 128) :
    (iblk6 V c 3 t : Vec Ideal S128x128 .f32) (ix2 k q) = (V c main_v82 : Vec Ideal S128x128 .f32) (ix2 k q) := by
  obtain ⟨e0, e1⟩ := idx3 t
  unfold iblk6
  rw [View.read_apply]
  show V c main_v82 _ = V c main_v82 _
  refine congrArg (V c main_v82 : Vec Ideal S128x128 .f32) ?_
  funext a
  apply Fin.ext
  match a with
  | ⟨0, _⟩ => show win6_3.index t (0 : Fin 2) * 128 + 1 * k.val = k.val; rw [e0]; omega
  | ⟨1, _⟩ => show win6_3.index t (1 : Fin 2) * 128 + 1 * q.val = q.val; rw [e1]; omega

/-- Window 4's block is its whole vector at every point. -/
theorem iblk4_apply (c : Dev nD) (t : Fin cfg6.N) (k : Fin 128) :
    (iblk6 V c 4 t : Vec Ideal S128 .f32) (ix1 k) = (V c main_v84 : Vec Ideal S128 .f32) (ix1 k) := by
  have e0 := idx4 t
  unfold iblk6
  rw [View.read_apply]
  show V c main_v84 _ = V c main_v84 _
  refine congrArg (V c main_v84 : Vec Ideal S128 .f32) ?_
  funext a
  apply Fin.ext
  match a with
  | ⟨0, _⟩ => show win6_4.index t (0 : Fin 1) * 128 + 1 * k.val = k.val; rw [e0]; omega

/-- Window 5's block is its whole matrix at every point. -/
theorem iblk5_apply (c : Dev nD) (t : Fin cfg6.N) (k : Fin 128) (q : Fin 128) :
    (iblk6 V c 5 t : Vec Ideal S128x128 .f32) (ix2 k q) = (V c main_v86 : Vec Ideal S128x128 .f32) (ix2 k q) := by
  obtain ⟨e0, e1⟩ := idx5 t
  unfold iblk6
  rw [View.read_apply]
  show V c main_v86 _ = V c main_v86 _
  refine congrArg (V c main_v86 : Vec Ideal S128x128 .f32) ?_
  funext a
  apply Fin.ext
  match a with
  | ⟨0, _⟩ => show win6_5.index t (0 : Fin 2) * 128 + 1 * k.val = k.val; rw [e0]; omega
  | ⟨1, _⟩ => show win6_5.index t (1 : Fin 2) * 128 + 1 * q.val = q.val; rw [e1]; omega

/-- What point `t` writes back is block `t` of the residual update of the whole arrays. -/
theorem flushed_eq (c : Dev nD) (t : Fin cfg6.N) :
    (dat6 V c).flushed 6 t = ((cfg6.win 6).blk t).view.read (Elt Ideal)
      (Cert.ReferenceIdeal.Hand.hUpd (V c main_v62) (V c main_v67) (V c main_v80) (V c main_v82) (V c main_v84) (V c main_v86)) := by
  show (cfg6.win 6).cut (grid6.coords t) ((dat6 V c).after 6 t) = _
  rw [after6_6]
  unfold out6_6
  rw [View.canon_unit_zero hz2]
  simp only [View.ld_unit_zero (S := S5000x128) hz2, View.ld_unit_zero (S := S128x128) hz2, View.ld_unit_zero (S := S128) hz1]
  funext (j : S5000x128.Idx)
  obtain ⟨r, q, rfl⟩ : ∃ (r : Fin 5000) (q : Fin 128), j = ix2 r q := ⟨j 0, j 1, eq_ix2 j⟩
  have ht := lt10 t
  have hr : t.val * 5000 + r.val < 50000 := by have := r.isLt; omega
  obtain ⟨e4, e5⟩ := idx6 t
  have hemb : ((cfg6.win 6).blk t).view.emb (ix2 r q) = (ix2 (⟨t.val * 5000 + r.val, hr⟩ : Fin 50000) q : S50000x128.Idx) := by
    funext a
    apply Fin.ext
    match a with
    | ⟨0, _⟩ => show win6_6.index t (0 : Fin 2) * 5000 + 1 * r.val = t.val * 5000 + r.val; rw [e4]; omega
    | ⟨1, _⟩ => show win6_6.index t (1 : Fin 2) * 128 + 1 * q.val = q.val; rw [e5]; omega
  rw [View.read_apply, hemb]
  refine (k6_pay1_apply (iblk6 V c 0 t) (iblk6 V c 1 t) (iblk6 V c 2 t) (iblk6 V c 3 t) (iblk6 V c 5 t) (iblk6 V c 4 t) r q).trans ?_
  rw [Cert.ReferenceIdeal.Hand.hUpd_apply, iblk0_apply V c t r q hr, iblk4_apply V c t q,
    show (fun k : Fin 128 => (iblk6 V c 2 t : Vec Ideal S5000x128 .f32) (ix2 r k))
      = fun k : Fin 128 => (V c main_v80 : Vec Ideal S50000x128 .f32) (ix2 (⟨t.val * 5000 + r.val, hr⟩ : Fin 50000) k)
      from funext fun k => iblk2_apply V c t r k hr,
    show (fun k : Fin 128 => (iblk6 V c 1 t : Vec Ideal S5000x128 .f32) (ix2 r k))
      = fun k : Fin 128 => (V c main_v67 : Vec Ideal S50000x128 .f32) (ix2 (⟨t.val * 5000 + r.val, hr⟩ : Fin 50000) k)
      from funext fun k => iblk1_apply V c t r k hr,
    show (fun k : Fin 128 => (iblk6 V c 3 t : Vec Ideal S128x128 .f32) (ix2 k q))
      = fun k : Fin 128 => (V c main_v82 : Vec Ideal S128x128 .f32) (ix2 k q)
      from funext fun k => iblk3_apply V c t k q,
    show (fun k : Fin 128 => (iblk6 V c 5 t : Vec Ideal S128x128 .f32) (ix2 k q))
      = fun k : Fin 128 => (V c main_v86 : Vec Ideal S128x128 .f32) (ix2 k q)
      from funext fun k => iblk5_apply V c t k q]
  first | rfl | exact (cast_eq _ _).symm

/-- An index of the array is in point `t`'s block iff each coordinate is in the block's range on its axis. -/
theorem mem_blk (t : Fin cfg6.N) (i : S50000x128.Idx) :
    i ∈ ((cfg6.win 6).blk t).view.set ↔ ∀ a : Fin 2, win6_6.index t a * S5000x128.size a ≤ (i a).val ∧ (i a).val < win6_6.index t a * S5000x128.size a + S5000x128.size a := by
  show i ∈ ((View.whole main_v87).slice (win6_6.rect t)).set ↔ _
  rw [View.set_slice_whole, Rect.mem_set_unit]
  exact Iff.rfl

/-- After the launch the output array is that one array: the ten written blocks cover it. -/
theorem arr (c : Dev nD) :
    (dat6 V c).arrAt 6 cfg6.N = Cert.ReferenceIdeal.Hand.hUpd (V c main_v62) (V c main_v67) (V c main_v80) (V c main_v82) (V c main_v84) (V c main_v86) :=
  (dat6 V c).arrAt_eq_of_cover 6 _ (fun t _ => flushed_eq V c t) fun (i : S50000x128.Idx) => by
    have hi0 : (i 0).val < 50000 := (i 0).isLt
    have hi1 : (i 1).val < 128 := (i 1).isLt
    have hN : cfg6.N = 10 := N_6
    let t : Fin cfg6.N := ⟨(i 0).val / 5000, by rw [hN]; omega⟩
    obtain ⟨e4, e5⟩ := idx6 t
    have e4' : win6_6.index t (0 : Fin 2) = (i 0).val / 5000 := e4
    refine ⟨t, flush6_6 t, ?_⟩
    rw [mem_blk]
    intro a
    match a with
    | ⟨0, _⟩ => show win6_6.index t (0 : Fin 2) * 5000 ≤ (i 0).val ∧ (i 0).val < win6_6.index t (0 : Fin 2) * 5000 + 5000; rw [e4']; omega
    | ⟨1, _⟩ => show win6_6.index t (1 : Fin 2) * 128 ≤ (i 1).val ∧ (i 1).val < win6_6.index t (1 : Fin 2) * 128 + 128; rw [e5]; omega

end Reg6

end Cert.KernelIdeal.Hand

end
-- ==== Proof.KReg7.lean ====
/-
  A linear launch, read as a whole array. Its grid has ten points; point `t` fetches rows `5000 t … 5000 t + 4999` of
  the input and the whole weight matrix and bias vector, and writes back the same rows of the output. An entry of what
  it writes depends on its own row of the input only, and a row of the block is a row of the array, so the ten written
  blocks are the blocks of ONE array: the product of the whole input with the weights plus the bias repeated down the
  rows, in the host's spelling. The blocks cover the output.
-/
import proofs.«165537_j50680614093676_1_alg».proof.Proof.Gen.KernelIdeal.Frame
import proofs.«165537_j50680614093676_1_alg».proof.Proof.KPay
import proofs.«165537_j50680614093676_1_alg».proof.Proof.RForms
import Idealize.ShloMosaic.Lib.Pipeline.Value

set_option maxRecDepth 16384

noncomputable section

namespace Cert.KernelIdeal.Hand

open Cert.KernelIdeal Cert.KernelIdeal.Gen Cert.Rows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

namespace Reg7

theorem hz2 : (![0, 0] : Fin 2 → Nat) = fun _ => 0 := funext fun a => by fin_cases a <;> rfl
theorem hz1 : (![0] : Fin 1 → Nat) = fun _ => 0 := funext fun a => by fin_cases a <;> rfl

theorem lt10 (t : Fin cfg7.N) : t.val < 10 := Nat.lt_of_lt_of_eq t.isLt N_7

theorem idx0 : ∀ t : Fin cfg7.N, win7_0.index t (0 : Fin 2) = t.val ∧ win7_0.index t (1 : Fin 2) = 0 :=
  (by decide +kernel : ∀ t : Fin grid7.N, _)
theorem idx1 : ∀ t : Fin cfg7.N, win7_1.index t (0 : Fin 2) = 0 ∧ win7_1.index t (1 : Fin 2) = 0 :=
  (by decide +kernel : ∀ t : Fin grid7.N, _)
theorem idx2 : ∀ t : Fin cfg7.N, win7_2.index t (0 : Fin 1) = 0 :=
  (by decide +kernel : ∀ t : Fin grid7.N, _)
theorem idx3 : ∀ t : Fin cfg7.N, win7_3.index t (0 : Fin 2) = t.val ∧ win7_3.index t (1 : Fin 2) = 0 :=
  (by decide +kernel : ∀ t : Fin grid7.N, _)

/-- Window 0's block at point `t` is rows `5000 t … 5000 t + 4999` of its array. -/
theorem iblk0_apply (c : Dev nD) (t : Fin cfg7.N) (r : Fin 5000) (k : Fin 128) (hr : t.val * 5000 + r.val < 50000) :
    (iblk7 V c 0 t : Vec Ideal S5000x128 .f32) (ix2 r k)
      = (V c main_v87 : Vec Ideal S50000x128 .f32) (ix2 (⟨t.val * 5000 + r.val, hr⟩ : Fin 50000) k) := by
  obtain ⟨e0, e1⟩ := idx0 t
  unfold iblk7
  rw [View.read_apply]
  show V c main_v87 _ = V c main_v87 _
  refine congrArg (V c main_v87 : Vec Ideal S50000x128 .f32) ?_
  funext a
  apply Fin.ext
  match a with
  | ⟨0, _⟩ => show win7_0.index t (0 : Fin 2) * 5000 + 1 * r.val = t.val * 5000 + r.val; rw [e0]; omega
  | ⟨1, _⟩ => show win7_0.index t (1 : Fin 2) * 128 + 1 * k.val = k.val; rw [e1]; omega

/-- Window 1's block is its whole matrix at every point. -/
theorem iblk1_apply (c : Dev nD) (t : Fin cfg7.N) (k : Fin 128) (q : Fin 4) :
    (iblk7 V c 1 t : Vec Ideal S128x4 .f32) (ix2 k q) = (V c main_arg9 : Vec Ideal S128x4 .f32) (ix2 k q) := by
  obtain ⟨e0, e1⟩ := idx1 t
  unfold iblk7
  rw [View.read_apply]
  show V c main_arg9 _ = V c main_arg9 _
  refine congrArg (V c main_arg9 : Vec Ideal S128x4 .f32) ?_
  funext a
  apply Fin.ext
  match a with
  | ⟨0, _⟩ => show win7_1.index t (0 : Fin 2) * 128 + 1 * k.val = k.val; rw [e0]; omega
  | ⟨1, _⟩ => show win7_1.index t (1 : Fin 2) * 4 + 1 * q.val = q.val; rw [e1]; omega

/-- Window 2's block is its whole vector at every point. -/
theorem iblk2_apply (c : Dev nD) (t : Fin cfg7.N) (k : Fin 4) :
    (iblk7 V c 2 t : Vec Ideal S4 .f32) (ix1 k) = (V c main_arg10 : Vec Ideal S4 .f32) (ix1 k) := by
  have e0 := idx2 t
  unfold iblk7
  rw [View.read_apply]
  show V c main_arg10 _ = V c main_arg10 _
  refine congrArg (V c main_arg10 : Vec Ideal S4 .f32) ?_
  funext a
  apply Fin.ext
  match a with
  | ⟨0, _⟩ => show win7_2.index t (0 : Fin 1) * 4 + 1 * k.val = k.val; rw [e0]; omega

/-- What point `t` writes back is block `t` of the linear layer of the whole arrays. -/
theorem flushed_eq (c : Dev nD) (t : Fin cfg7.N) :
    (dat7 V c).flushed 3 t = ((cfg7.win 3).blk t).view.read (Elt Ideal)
      (Cert.ReferenceIdeal.Hand.hLin7 (V c main_v87) (V c main_arg9) (V c main_arg10)) := by
  show (cfg7.win 3).cut (grid7.coords t) ((dat7 V c).after 3 t) = _
  rw [after7_3]
  unfold out7_3
  rw [View.canon_unit_zero hz2]
  simp only [View.ld_unit_zero (S := S5000x128) hz2, View.ld_unit_zero (S := S128x4) hz2, View.ld_unit_zero (S := S4) hz1]
  funext (j : S5000x4.Idx)
  obtain ⟨r, q, rfl⟩ : ∃ (r : Fin 5000) (q : Fin 4), j = ix2 r q := ⟨j 0, j 1, eq_ix2 j⟩
  have ht := lt10 t
  have hr : t.val * 5000 + r.val < 50000 := by have := r.isLt; omega
  obtain ⟨e4, e5⟩ := idx3 t
  have hemb : ((cfg7.win 3).blk t).view.emb (ix2 r q) = (ix2 (⟨t.val * 5000 + r.val, hr⟩ : Fin 50000) q : S50000x4.Idx) := by
    funext a
    apply Fin.ext
    match a with
    | ⟨0, _⟩ => show win7_3.index t (0 : Fin 2) * 5000 + 1 * r.val = t.val * 5000 + r.val; rw [e4]; omega
    | ⟨1, _⟩ => show win7_3.index t (1 : Fin 2) * 4 + 1 * q.val = q.val; rw [e5]; omega
  rw [View.read_apply, hemb]
  refine (k7_pay1_apply (iblk7 V c 0 t) (iblk7 V c 1 t) (iblk7 V c 2 t) r q).trans ?_
  rw [Cert.ReferenceIdeal.Hand.hLin7_apply, iblk2_apply V c t q,
    show (fun k : Fin 128 => (iblk7 V c 0 t : Vec Ideal S5000x128 .f32) (ix2 r k))
      = fun k : Fin 128 => (V c main_v87 : Vec Ideal S50000x128 .f32) (ix2 (⟨t.val * 5000 + r.val, hr⟩ : Fin 50000) k)
      from funext fun k => iblk0_apply V c t r k hr,
    show (fun k : Fin 128 => (iblk7 V c 1 t : Vec Ideal S128x4 .f32) (ix2 k q))
      = fun k : Fin 128 => (V c main_arg9 : Vec Ideal S128x4 .f32) (ix2 k q)
      from funext fun k => iblk1_apply V c t k q]
  first | rfl | exact (cast_eq _ _).symm

/-- An index of the array is in point `t`'s block iff each coordinate is in the block's range on its axis. -/
theorem mem_blk (t : Fin cfg7.N) (i : S50000x4.Idx) :
    i ∈ ((cfg7.win 3).blk t).view.set ↔ ∀ a : Fin 2, win7_3.index t a * S5000x4.size a ≤ (i a).val ∧ (i a).val < win7_3.index t a * S5000x4.size a + S5000x4.size a := by
  show i ∈ ((View.whole main_v88).slice (win7_3.rect t)).set ↔ _
  rw [View.set_slice_whole, Rect.mem_set_unit]
  exact Iff.rfl

/-- After the launch the output array is that one array: the ten written blocks cover it. -/
theorem arr (c : Dev nD) :
    (dat7 V c).arrAt 3 cfg7.N = Cert.ReferenceIdeal.Hand.hLin7 (V c main_v87) (V c main_arg9) (V c main_arg10) :=
  (dat7 V c).arrAt_eq_of_cover 3 _ (fun t _ => flushed_eq V c t) fun (i : S50000x4.Idx) => by
    have hi0 : (i 0).val < 50000 := (i 0).isLt
    have hi1 : (i 1).val < 4 := (i 1).isLt
    have hN : cfg7.N = 10 := N_7
    let t : Fin cfg7.N := ⟨(i 0).val / 5000, by rw [hN]; omega⟩
    obtain ⟨e4, e5⟩ := idx3 t
    have e4' : win7_3.index t (0 : Fin 2) = (i 0).val / 5000 := e4
    refine ⟨t, flush7_3 t, ?_⟩
    rw [mem_blk]
    intro a
    match a with
    | ⟨0, _⟩ => show win7_3.index t (0 : Fin 2) * 5000 ≤ (i 0).val ∧ (i 0).val < win7_3.index t (0 : Fin 2) * 5000 + 5000; rw [e4']; omega
    | ⟨1, _⟩ => show win7_3.index t (1 : Fin 2) * 4 ≤ (i 1).val ∧ (i 1).val < win7_3.index t (1 : Fin 2) * 4 + 4; rw [e5]; omega

end Reg7

end Cert.KernelIdeal.Hand

end
-- ==== Proof.RNet.lean ====
/-
  The whole network as one function of the argument arrays: the input projection, three layers, the output
  projection. A layer normalises the features row by row, averages the normalised source rows over each node's
  incoming edges, and adds to the features the residual update of the two, clipped below at zero. The edge endpoints
  and the reciprocal in-degrees come from the edge list once; layer `i` takes row `i` of each stacked vector and
  matrix `i` of each stacked matrix.
-/
import proofs.«165537_j50680614093676_1_alg».proof.Proof.RForms

noncomputable section

namespace Cert.ReferenceIdeal.Hand

open Idealize.ShloMosaic Cert.ReferenceIdeal Cert.ReferenceIdeal.Gen

/-- One layer. -/
def layer (h : A S50000x128) (g b : A S128) (src dst : I32 S800000) (inv : A S50000)
    (wl : A S128x128) (bl : A S128) (wr : A S128x128) : A S50000x128 :=
  hUpd h (hLN h g b) (hAgg (hLN h g b) src dst inv) wl bl wr

/-- The whole network. -/
def net (x : A S50000x16) (e : I32 S2x800000) (win : A S16x128) (bin : A S128) (wl : A S3x128x128) (bl : A S3x128)
    (wr : A S3x128x128) (g b : A S3x128) (wout : A S128x4) (bout : A S4) : A S50000x4 :=
  hLin7
    (layer
      (layer
        (layer (hLin0 x win bin) (row0 g) (row0 b) (hSrc e) (hDst e) (hInvDeg (hDst e)) (mat0 wl) (row0 bl) (mat0 wr))
        (row1 g) (row1 b) (hSrc e) (hDst e) (hInvDeg (hDst e)) (mat1 wl) (row1 bl) (mat1 wr))
      (row2 g) (row2 b) (hSrc e) (hDst e) (hInvDeg (hDst e)) (mat2 wl) (row2 bl) (mat2 wr))
    wout bout

end Cert.ReferenceIdeal.Hand

end
-- ==== Proof.KChain.lean ====
/-
  The idealized kernel program's buffers, followed from the launch to the result. The program alternates stretches of
  host operations with launches. Over ANY buffer contents a stretch leaves every buffer it does not write as it was, and
  computes the edge endpoints, the reciprocal in-degrees, the layers' rows and matrices and the edge stage as the
  reference's own functions of the buffers it reads. A launch leaves every buffer but its output as it was, and leaves
  its output at the stage's whole-array function of its input arrays. Chained from the launch memory, the result
  buffer at the last boundary is the whole network of the arguments.
-/
import proofs.«165537_j50680614093676_1_alg».proof.Proof.Gen.KernelIdeal.Frame
import proofs.«165537_j50680614093676_1_alg».proof.Proof.KReg0
import proofs.«165537_j50680614093676_1_alg».proof.Proof.KReg1
import proofs.«165537_j50680614093676_1_alg».proof.Proof.KReg2
import proofs.«165537_j50680614093676_1_alg».proof.Proof.KReg3
import proofs.«165537_j50680614093676_1_alg».proof.Proof.KReg4
import proofs.«165537_j50680614093676_1_alg».proof.Proof.KReg5
import proofs.«165537_j50680614093676_1_alg».proof.Proof.KReg6
import proofs.«165537_j50680614093676_1_alg».proof.Proof.KReg7
import proofs.«165537_j50680614093676_1_alg».proof.Proof.RNet

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

/-! ## The host stretches -/

/-- Stretch 0 of host operations. -/
def kH0 : List (HloOp τ sig (Elt Ideal)) := hostOps0
/-- Stretch 1 of host operations. -/
def kH1 : List (HloOp τ sig (Elt Ideal)) := hostOps1
/-- Stretch 2 of host operations. -/
def kH2 : List (HloOp τ sig (Elt Ideal)) := hostOps2
/-- Stretch 3 of host operations. -/
def kH3 : List (HloOp τ sig (Elt Ideal)) := hostOps3
/-- Stretch 4 of host operations. -/
def kH4 : List (HloOp τ sig (Elt Ideal)) := hostOps4
/-- Stretch 5 of host operations. -/
def kH5 : List (HloOp τ sig (Elt Ideal)) := hostOps5
/-- Stretch 6 of host operations. -/
def kH6 : List (HloOp τ sig (Elt Ideal)) := hostOps6

theorem kH0_keep (W : Valuation τ sig (Elt Ideal)) (r : Ref sig .tc)
    (hr : r ∉ [main_v0, main_v1, main_v2, main_v3, main_cst, main_v4, main_cst_0, main_v5, main_v6, main_v7, main_cst_1, main_v8, main_v9, main_cst_2, main_v10, main_v11]) :
    StableHlo.after kH0 W (no_index (Proc.devRef .tc r)) = W (Proc.devRef .tc r) :=
  StableHlo.after_of_forall_not_mem kH0 W (List.forall_iff_forall_mem.mp (by
    simp only [kH0, hostOps0, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

theorem kH1_keep (W : Valuation τ sig (Elt Ideal)) (r : Ref sig .tc)
    (hr : r ∉ [main_v13, main_v14, main_v15, main_v16]) :
    StableHlo.after kH1 W (no_index (Proc.devRef .tc r)) = W (Proc.devRef .tc r) :=
  StableHlo.after_of_forall_not_mem kH1 W (List.forall_iff_forall_mem.mp (by
    simp only [kH1, hostOps1, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

theorem kH2_keep (W : Valuation τ sig (Elt Ideal)) (r : Ref sig .tc)
    (hr : r ∉ [main_c, main_v18, main_v19, main_c_3, main_v20, main_v21, main_v22, main_v23, main_v24, main_cst_4, main_v25, main_v26, main_v27, main_v28, main_v29, main_v30, main_v31, main_v32, main_v33, main_v34, main_v35, main_v36]) :
    StableHlo.after kH2 W (no_index (Proc.devRef .tc r)) = W (Proc.devRef .tc r) :=
  StableHlo.after_of_forall_not_mem kH2 W (List.forall_iff_forall_mem.mp (by
    simp only [kH2, hostOps2, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

theorem kH3_keep (W : Valuation τ sig (Elt Ideal)) (r : Ref sig .tc)
    (hr : r ∉ [main_v38, main_v39, main_v40, main_v41]) :
    StableHlo.after kH3 W (no_index (Proc.devRef .tc r)) = W (Proc.devRef .tc r) :=
  StableHlo.after_of_forall_not_mem kH3 W (List.forall_iff_forall_mem.mp (by
    simp only [kH3, hostOps3, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

theorem kH4_keep (W : Valuation τ sig (Elt Ideal)) (r : Ref sig .tc)
    (hr : r ∉ [main_c_5, main_v43, main_v44, main_c_6, main_v45, main_v46, main_v47, main_v48, main_v49, main_cst_7, main_v50, main_v51, main_v52, main_v53, main_v54, main_v55, main_v56, main_v57, main_v58, main_v59, main_v60, main_v61]) :
    StableHlo.after kH4 W (no_index (Proc.devRef .tc r)) = W (Proc.devRef .tc r) :=
  StableHlo.after_of_forall_not_mem kH4 W (List.forall_iff_forall_mem.mp (by
    simp only [kH4, hostOps4, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

theorem kH5_keep (W : Valuation τ sig (Elt Ideal)) (r : Ref sig .tc)
    (hr : r ∉ [main_v63, main_v64, main_v65, main_v66]) :
    StableHlo.after kH5 W (no_index (Proc.devRef .tc r)) = W (Proc.devRef .tc r) :=
  StableHlo.after_of_forall_not_mem kH5 W (List.forall_iff_forall_mem.mp (by
    simp only [kH5, hostOps5, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

theorem kH6_keep (W : Valuation τ sig (Elt Ideal)) (r : Ref sig .tc)
    (hr : r ∉ [main_c_8, main_v68, main_v69, main_c_9, main_v70, main_v71, main_v72, main_v73, main_v74, main_cst_10, main_v75, main_v76, main_v77, main_v78, main_v79, main_v80, main_v81, main_v82, main_v83, main_v84, main_v85, main_v86]) :
    StableHlo.after kH6 W (no_index (Proc.devRef .tc r)) = W (Proc.devRef .tc r) :=
  StableHlo.after_of_forall_not_mem kH6 W (List.forall_iff_forall_mem.mp (by
    simp only [kH6, hostOps6, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

theorem kH0_src (W : Valuation τ sig (Elt Ideal)) :
    StableHlo.after kH0 W (no_index (Proc.devRef .tc main_v1)) = Cert.ReferenceIdeal.Hand.hSrc (W (Proc.devRef .tc main_arg1)) := by
  unfold kH0 hostOps0
  after_results_simp
  first | rfl | skip

theorem kH0_dst (W : Valuation τ sig (Elt Ideal)) :
    StableHlo.after kH0 W (no_index (Proc.devRef .tc main_v3)) = Cert.ReferenceIdeal.Hand.hDst (W (Proc.devRef .tc main_arg1)) := by
  unfold kH0 hostOps0
  after_results_simp
  first | rfl | skip

theorem kH0_inv (W : Valuation τ sig (Elt Ideal)) :
    StableHlo.after kH0 W (no_index (Proc.devRef .tc main_v11)) = Cert.ReferenceIdeal.Hand.hInvDeg (Cert.ReferenceIdeal.Hand.hDst (W (Proc.devRef .tc main_arg1))) := by
  unfold kH0 hostOps0
  after_results_simp
  first | rfl | skip

theorem kH1_g (W : Valuation τ sig (Elt Ideal)) :
    StableHlo.after kH1 W (no_index (Proc.devRef .tc main_v14)) = Cert.ReferenceIdeal.Hand.row0 (W (Proc.devRef .tc main_arg7)) := by
  unfold kH1 hostOps1
  after_results_simp
  first | rfl | skip

theorem kH1_b (W : Valuation τ sig (Elt Ideal)) :
    StableHlo.after kH1 W (no_index (Proc.devRef .tc main_v16)) = Cert.ReferenceIdeal.Hand.row0 (W (Proc.devRef .tc main_arg8)) := by
  unfold kH1 hostOps1
  after_results_simp
  first | rfl | skip

theorem kH2_agg (W : Valuation τ sig (Elt Ideal)) :
    StableHlo.after kH2 W (no_index (Proc.devRef .tc main_v30)) = Cert.ReferenceIdeal.Hand.hAgg (W (Proc.devRef .tc main_v17)) (W (Proc.devRef .tc main_v1)) (W (Proc.devRef .tc main_v3)) (W (Proc.devRef .tc main_v11)) := by
  unfold kH2 hostOps2
  after_results_simp
  first | rfl | skip

theorem kH2_wl (W : Valuation τ sig (Elt Ideal)) :
    StableHlo.after kH2 W (no_index (Proc.devRef .tc main_v32)) = Cert.ReferenceIdeal.Hand.mat0 (W (Proc.devRef .tc main_arg4)) := by
  unfold kH2 hostOps2
  after_results_simp
  first | rfl | skip

theorem kH2_bl (W : Valuation τ sig (Elt Ideal)) :
    StableHlo.after kH2 W (no_index (Proc.devRef .tc main_v34)) = Cert.ReferenceIdeal.Hand.row0 (W (Proc.devRef .tc main_arg5)) := by
  unfold kH2 hostOps2
  after_results_simp
  first | rfl | skip

theorem kH2_wr (W : Valuation τ sig (Elt Ideal)) :
    StableHlo.after kH2 W (no_index (Proc.devRef .tc main_v36)) = Cert.ReferenceIdeal.Hand.mat0 (W (Proc.devRef .tc main_arg6)) := by
  unfold kH2 hostOps2
  after_results_simp
  first | rfl | skip

theorem kH3_g (W : Valuation τ sig (Elt Ideal)) :
    StableHlo.after kH3 W (no_index (Proc.devRef .tc main_v39)) = Cert.ReferenceIdeal.Hand.row1 (W (Proc.devRef .tc main_arg7)) := by
  unfold kH3 hostOps3
  after_results_simp
  first | rfl | skip

theorem kH3_b (W : Valuation τ sig (Elt Ideal)) :
    StableHlo.after kH3 W (no_index (Proc.devRef .tc main_v41)) = Cert.ReferenceIdeal.Hand.row1 (W (Proc.devRef .tc main_arg8)) := by
  unfold kH3 hostOps3
  after_results_simp
  first | rfl | skip

theorem kH4_agg (W : Valuation τ sig (Elt Ideal)) :
    StableHlo.after kH4 W (no_index (Proc.devRef .tc main_v55)) = Cert.ReferenceIdeal.Hand.hAgg (W (Proc.devRef .tc main_v42)) (W (Proc.devRef .tc main_v1)) (W (Proc.devRef .tc main_v3)) (W (Proc.devRef .tc main_v11)) := by
  unfold kH4 hostOps4
  after_results_simp
  first | rfl | skip

theorem kH4_wl (W : Valuation τ sig (Elt Ideal)) :
    StableHlo.after kH4 W (no_index (Proc.devRef .tc main_v57)) = Cert.ReferenceIdeal.Hand.mat1 (W (Proc.devRef .tc main_arg4)) := by
  unfold kH4 hostOps4
  after_results_simp
  first | rfl | skip

theorem kH4_bl (W : Valuation τ sig (Elt Ideal)) :
    StableHlo.after kH4 W (no_index (Proc.devRef .tc main_v59)) = Cert.ReferenceIdeal.Hand.row1 (W (Proc.devRef .tc main_arg5)) := by
  unfold kH4 hostOps4
  after_results_simp
  first | rfl | skip

theorem kH4_wr (W : Valuation τ sig (Elt Ideal)) :
    StableHlo.after kH4 W (no_index (Proc.devRef .tc main_v61)) = Cert.ReferenceIdeal.Hand.mat1 (W (Proc.devRef .tc main_arg6)) := by
  unfold kH4 hostOps4
  after_results_simp
  first | rfl | skip

theorem kH5_g (W : Valuation τ sig (Elt Ideal)) :
    StableHlo.after kH5 W (no_index (Proc.devRef .tc main_v64)) = Cert.ReferenceIdeal.Hand.row2 (W (Proc.devRef .tc main_arg7)) := by
  unfold kH5 hostOps5
  after_results_simp
  first | rfl | skip

theorem kH5_b (W : Valuation τ sig (Elt Ideal)) :
    StableHlo.after kH5 W (no_index (Proc.devRef .tc main_v66)) = Cert.ReferenceIdeal.Hand.row2 (W (Proc.devRef .tc main_arg8)) := by
  unfold kH5 hostOps5
  after_results_simp
  first | rfl | skip

theorem kH6_agg (W : Valuation τ sig (Elt Ideal)) :
    StableHlo.after kH6 W (no_index (Proc.devRef .tc main_v80)) = Cert.ReferenceIdeal.Hand.hAgg (W (Proc.devRef .tc main_v67)) (W (Proc.devRef .tc main_v1)) (W (Proc.devRef .tc main_v3)) (W (Proc.devRef .tc main_v11)) := by
  unfold kH6 hostOps6
  after_results_simp
  first | rfl | skip

theorem kH6_wl (W : Valuation τ sig (Elt Ideal)) :
    StableHlo.after kH6 W (no_index (Proc.devRef .tc main_v82)) = Cert.ReferenceIdeal.Hand.mat2 (W (Proc.devRef .tc main_arg4)) := by
  unfold kH6 hostOps6
  after_results_simp
  first | rfl | skip

theorem kH6_bl (W : Valuation τ sig (Elt Ideal)) :
    StableHlo.after kH6 W (no_index (Proc.devRef .tc main_v84)) = Cert.ReferenceIdeal.Hand.row2 (W (Proc.devRef .tc main_arg5)) := by
  unfold kH6 hostOps6
  after_results_simp
  first | rfl | skip

theorem kH6_wr (W : Valuation τ sig (Elt Ideal)) :
    StableHlo.after kH6 W (no_index (Proc.devRef .tc main_v86)) = Cert.ReferenceIdeal.Hand.mat2 (W (Proc.devRef .tc main_arg6)) := by
  unfold kH6 hostOps6
  after_results_simp
  first | rfl | skip

/-! ## The launches -/

variable (m : (ℓ : Loc nD τ sig) → Buf (Elt Ideal) ℓ) (ρ : Dev nD → PrngReg)

theorem W2_out (c : Dev nD) :
    W2 m ρ c (no_index (Proc.devRef .tc main_v12)) = Cert.ReferenceIdeal.Hand.hLin0 ((StableHlo.after kH0 (W0 m ρ c)) (Proc.devRef .tc main_arg0)) ((StableHlo.after kH0 (W0 m ρ c)) (Proc.devRef .tc main_arg2)) ((StableHlo.after kH0 (W0 m ρ c)) (Proc.devRef .tc main_arg3)) :=
  (W2_arr m ρ c 3).trans (Reg0.arr (V1 m ρ) c)

/-- Launch 0's window arrays. -/
theorem arrs0 : ∀ w : Fin 4, Pipeline.arrRef spec0 w ∈ [main_arg0, main_arg2, main_arg3, main_v12] := by decide

theorem W2_keep (c : Dev nD) (r : Ref sig .tc) (hr : r ≠ main_v12) :
    W2 m ρ c (no_index (Proc.devRef .tc r)) = (StableHlo.after kH0 (W0 m ρ c)) (Proc.devRef .tc r) := by
  by_cases h : r ∈ [main_arg0, main_arg2, main_arg3, main_v12]
  · simp only [List.mem_cons, List.not_mem_nil, or_false] at h
    rcases h with rfl | rfl | rfl | rfl
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact (W2_arr m ρ c 2).trans (((dat0 (V1 m ρ) c).arrAt_in 2 rfl _).trans (A_eq0 (V1 m ρ) c 2))
    · exact absurd rfl hr
  · exact W2_of_ne m ρ c r (fun w e => h (e ▸ arrs0 w))

theorem W4_out (c : Dev nD) :
    W4 m ρ c (no_index (Proc.devRef .tc main_v17)) = Cert.ReferenceIdeal.Hand.hLN ((StableHlo.after kH1 (W2 m ρ c)) (Proc.devRef .tc main_v12)) ((StableHlo.after kH1 (W2 m ρ c)) (Proc.devRef .tc main_v14)) ((StableHlo.after kH1 (W2 m ρ c)) (Proc.devRef .tc main_v16)) :=
  (W4_arr m ρ c 3).trans (Reg1.arr (V3 m ρ) c)

/-- Launch 1's window arrays. -/
theorem arrs1 : ∀ w : Fin 4, Pipeline.arrRef spec1 w ∈ [main_v12, main_v14, main_v16, main_v17] := by decide

theorem W4_keep (c : Dev nD) (r : Ref sig .tc) (hr : r ≠ main_v17) :
    W4 m ρ c (no_index (Proc.devRef .tc r)) = (StableHlo.after kH1 (W2 m ρ c)) (Proc.devRef .tc r) := by
  by_cases h : r ∈ [main_v12, main_v14, main_v16, main_v17]
  · simp only [List.mem_cons, List.not_mem_nil, or_false] at h
    rcases h with rfl | rfl | rfl | rfl
    · exact (W4_arr m ρ c 0).trans (((dat1 (V3 m ρ) c).arrAt_in 0 rfl _).trans (A_eq1 (V3 m ρ) c 0))
    · exact (W4_arr m ρ c 1).trans (((dat1 (V3 m ρ) c).arrAt_in 1 rfl _).trans (A_eq1 (V3 m ρ) c 1))
    · exact (W4_arr m ρ c 2).trans (((dat1 (V3 m ρ) c).arrAt_in 2 rfl _).trans (A_eq1 (V3 m ρ) c 2))
    · exact absurd rfl hr
  · exact W4_of_ne m ρ c r (fun w e => h (e ▸ arrs1 w))

theorem W6_out (c : Dev nD) :
    W6 m ρ c (no_index (Proc.devRef .tc main_v37)) = Cert.ReferenceIdeal.Hand.hUpd ((StableHlo.after kH2 (W4 m ρ c)) (Proc.devRef .tc main_v12)) ((StableHlo.after kH2 (W4 m ρ c)) (Proc.devRef .tc main_v17)) ((StableHlo.after kH2 (W4 m ρ c)) (Proc.devRef .tc main_v30)) ((StableHlo.after kH2 (W4 m ρ c)) (Proc.devRef .tc main_v32)) ((StableHlo.after kH2 (W4 m ρ c)) (Proc.devRef .tc main_v34)) ((StableHlo.after kH2 (W4 m ρ c)) (Proc.devRef .tc main_v36)) :=
  (W6_arr m ρ c 6).trans (Reg2.arr (V5 m ρ) c)

/-- Launch 2's window arrays. -/
theorem arrs2 : ∀ w : Fin 7, Pipeline.arrRef spec2 w ∈ [main_v12, main_v17, main_v30, main_v32, main_v34, main_v36, main_v37] := by decide

theorem W6_keep (c : Dev nD) (r : Ref sig .tc) (hr : r ≠ main_v37) :
    W6 m ρ c (no_index (Proc.devRef .tc r)) = (StableHlo.after kH2 (W4 m ρ c)) (Proc.devRef .tc r) := by
  by_cases h : r ∈ [main_v12, main_v17, main_v30, main_v32, main_v34, main_v36, main_v37]
  · simp only [List.mem_cons, List.not_mem_nil, or_false] at h
    rcases h with rfl | rfl | rfl | rfl | rfl | rfl | rfl
    · exact (W6_arr m ρ c 0).trans (((dat2 (V5 m ρ) c).arrAt_in 0 rfl _).trans (A_eq2 (V5 m ρ) c 0))
    · exact (W6_arr m ρ c 1).trans (((dat2 (V5 m ρ) c).arrAt_in 1 rfl _).trans (A_eq2 (V5 m ρ) c 1))
    · exact (W6_arr m ρ c 2).trans (((dat2 (V5 m ρ) c).arrAt_in 2 rfl _).trans (A_eq2 (V5 m ρ) c 2))
    · exact (W6_arr m ρ c 3).trans (((dat2 (V5 m ρ) c).arrAt_in 3 rfl _).trans (A_eq2 (V5 m ρ) c 3))
    · exact (W6_arr m ρ c 4).trans (((dat2 (V5 m ρ) c).arrAt_in 4 rfl _).trans (A_eq2 (V5 m ρ) c 4))
    · exact (W6_arr m ρ c 5).trans (((dat2 (V5 m ρ) c).arrAt_in 5 rfl _).trans (A_eq2 (V5 m ρ) c 5))
    · exact absurd rfl hr
  · exact W6_of_ne m ρ c r (fun w e => h (e ▸ arrs2 w))

theorem W8_out (c : Dev nD) :
    W8 m ρ c (no_index (Proc.devRef .tc main_v42)) = Cert.ReferenceIdeal.Hand.hLN ((StableHlo.after kH3 (W6 m ρ c)) (Proc.devRef .tc main_v37)) ((StableHlo.after kH3 (W6 m ρ c)) (Proc.devRef .tc main_v39)) ((StableHlo.after kH3 (W6 m ρ c)) (Proc.devRef .tc main_v41)) :=
  (W8_arr m ρ c 3).trans (Reg3.arr (V7 m ρ) c)

/-- Launch 3's window arrays. -/
theorem arrs3 : ∀ w : Fin 4, Pipeline.arrRef spec3 w ∈ [main_v37, main_v39, main_v41, main_v42] := by decide

theorem W8_keep (c : Dev nD) (r : Ref sig .tc) (hr : r ≠ main_v42) :
    W8 m ρ c (no_index (Proc.devRef .tc r)) = (StableHlo.after kH3 (W6 m ρ c)) (Proc.devRef .tc r) := by
  by_cases h : r ∈ [main_v37, main_v39, main_v41, main_v42]
  · simp only [List.mem_cons, List.not_mem_nil, or_false] at h
    rcases h with rfl | rfl | rfl | rfl
    · exact (W8_arr m ρ c 0).trans (((dat3 (V7 m ρ) c).arrAt_in 0 rfl _).trans (A_eq3 (V7 m ρ) c 0))
    · exact (W8_arr m ρ c 1).trans (((dat3 (V7 m ρ) c).arrAt_in 1 rfl _).trans (A_eq3 (V7 m ρ) c 1))
    · exact (W8_arr m ρ c 2).trans (((dat3 (V7 m ρ) c).arrAt_in 2 rfl _).trans (A_eq3 (V7 m ρ) c 2))
    · exact absurd rfl hr
  · exact W8_of_ne m ρ c r (fun w e => h (e ▸ arrs3 w))

theorem W10_out (c : Dev nD) :
    W10 m ρ c (no_index (Proc.devRef .tc main_v62)) = Cert.ReferenceIdeal.Hand.hUpd ((StableHlo.after kH4 (W8 m ρ c)) (Proc.devRef .tc main_v37)) ((StableHlo.after kH4 (W8 m ρ c)) (Proc.devRef .tc main_v42)) ((StableHlo.after kH4 (W8 m ρ c)) (Proc.devRef .tc main_v55)) ((StableHlo.after kH4 (W8 m ρ c)) (Proc.devRef .tc main_v57)) ((StableHlo.after kH4 (W8 m ρ c)) (Proc.devRef .tc main_v59)) ((StableHlo.after kH4 (W8 m ρ c)) (Proc.devRef .tc main_v61)) :=
  (W10_arr m ρ c 6).trans (Reg4.arr (V9 m ρ) c)

/-- Launch 4's window arrays. -/
theorem arrs4 : ∀ w : Fin 7, Pipeline.arrRef spec4 w ∈ [main_v37, main_v42, main_v55, main_v57, main_v59, main_v61, main_v62] := by decide

theorem W10_keep (c : Dev nD) (r : Ref sig .tc) (hr : r ≠ main_v62) :
    W10 m ρ c (no_index (Proc.devRef .tc r)) = (StableHlo.after kH4 (W8 m ρ c)) (Proc.devRef .tc r) := by
  by_cases h : r ∈ [main_v37, main_v42, main_v55, main_v57, main_v59, main_v61, main_v62]
  · simp only [List.mem_cons, List.not_mem_nil, or_false] at h
    rcases h with rfl | rfl | rfl | rfl | rfl | rfl | rfl
    · exact (W10_arr m ρ c 0).trans (((dat4 (V9 m ρ) c).arrAt_in 0 rfl _).trans (A_eq4 (V9 m ρ) c 0))
    · exact (W10_arr m ρ c 1).trans (((dat4 (V9 m ρ) c).arrAt_in 1 rfl _).trans (A_eq4 (V9 m ρ) c 1))
    · exact (W10_arr m ρ c 2).trans (((dat4 (V9 m ρ) c).arrAt_in 2 rfl _).trans (A_eq4 (V9 m ρ) c 2))
    · exact (W10_arr m ρ c 3).trans (((dat4 (V9 m ρ) c).arrAt_in 3 rfl _).trans (A_eq4 (V9 m ρ) c 3))
    · exact (W10_arr m ρ c 4).trans (((dat4 (V9 m ρ) c).arrAt_in 4 rfl _).trans (A_eq4 (V9 m ρ) c 4))
    · exact (W10_arr m ρ c 5).trans (((dat4 (V9 m ρ) c).arrAt_in 5 rfl _).trans (A_eq4 (V9 m ρ) c 5))
    · exact absurd rfl hr
  · exact W10_of_ne m ρ c r (fun w e => h (e ▸ arrs4 w))

theorem W12_out (c : Dev nD) :
    W12 m ρ c (no_index (Proc.devRef .tc main_v67)) = Cert.ReferenceIdeal.Hand.hLN ((StableHlo.after kH5 (W10 m ρ c)) (Proc.devRef .tc main_v62)) ((StableHlo.after kH5 (W10 m ρ c)) (Proc.devRef .tc main_v64)) ((StableHlo.after kH5 (W10 m ρ c)) (Proc.devRef .tc main_v66)) :=
  (W12_arr m ρ c 3).trans (Reg5.arr (V11 m ρ) c)

/-- Launch 5's window arrays. -/
theorem arrs5 : ∀ w : Fin 4, Pipeline.arrRef spec5 w ∈ [main_v62, main_v64, main_v66, main_v67] := by decide

theorem W12_keep (c : Dev nD) (r : Ref sig .tc) (hr : r ≠ main_v67) :
    W12 m ρ c (no_index (Proc.devRef .tc r)) = (StableHlo.after kH5 (W10 m ρ c)) (Proc.devRef .tc r) := by
  by_cases h : r ∈ [main_v62, main_v64, main_v66, main_v67]
  · simp only [List.mem_cons, List.not_mem_nil, or_false] at h
    rcases h with rfl | rfl | rfl | rfl
    · exact (W12_arr m ρ c 0).trans (((dat5 (V11 m ρ) c).arrAt_in 0 rfl _).trans (A_eq5 (V11 m ρ) c 0))
    · exact (W12_arr m ρ c 1).trans (((dat5 (V11 m ρ) c).arrAt_in 1 rfl _).trans (A_eq5 (V11 m ρ) c 1))
    · exact (W12_arr m ρ c 2).trans (((dat5 (V11 m ρ) c).arrAt_in 2 rfl _).trans (A_eq5 (V11 m ρ) c 2))
    · exact absurd rfl hr
  · exact W12_of_ne m ρ c r (fun w e => h (e ▸ arrs5 w))

theorem W14_out (c : Dev nD) :
    W14 m ρ c (no_index (Proc.devRef .tc main_v87)) = Cert.ReferenceIdeal.Hand.hUpd ((StableHlo.after kH6 (W12 m ρ c)) (Proc.devRef .tc main_v62)) ((StableHlo.after kH6 (W12 m ρ c)) (Proc.devRef .tc main_v67)) ((StableHlo.after kH6 (W12 m ρ c)) (Proc.devRef .tc main_v80)) ((StableHlo.after kH6 (W12 m ρ c)) (Proc.devRef .tc main_v82)) ((StableHlo.after kH6 (W12 m ρ c)) (Proc.devRef .tc main_v84)) ((StableHlo.after kH6 (W12 m ρ c)) (Proc.devRef .tc main_v86)) :=
  (W14_arr m ρ c 6).trans (Reg6.arr (V13 m ρ) c)

/-- Launch 6's window arrays. -/
theorem arrs6 : ∀ w : Fin 7, Pipeline.arrRef spec6 w ∈ [main_v62, main_v67, main_v80, main_v82, main_v84, main_v86, main_v87] := by decide

theorem W14_keep (c : Dev nD) (r : Ref sig .tc) (hr : r ≠ main_v87) :
    W14 m ρ c (no_index (Proc.devRef .tc r)) = (StableHlo.after kH6 (W12 m ρ c)) (Proc.devRef .tc r) := by
  by_cases h : r ∈ [main_v62, main_v67, main_v80, main_v82, main_v84, main_v86, main_v87]
  · simp only [List.mem_cons, List.not_mem_nil, or_false] at h
    rcases h with rfl | rfl | rfl | rfl | rfl | rfl | rfl
    · exact (W14_arr m ρ c 0).trans (((dat6 (V13 m ρ) c).arrAt_in 0 rfl _).trans (A_eq6 (V13 m ρ) c 0))
    · exact (W14_arr m ρ c 1).trans (((dat6 (V13 m ρ) c).arrAt_in 1 rfl _).trans (A_eq6 (V13 m ρ) c 1))
    · exact (W14_arr m ρ c 2).trans (((dat6 (V13 m ρ) c).arrAt_in 2 rfl _).trans (A_eq6 (V13 m ρ) c 2))
    · exact (W14_arr m ρ c 3).trans (((dat6 (V13 m ρ) c).arrAt_in 3 rfl _).trans (A_eq6 (V13 m ρ) c 3))
    · exact (W14_arr m ρ c 4).trans (((dat6 (V13 m ρ) c).arrAt_in 4 rfl _).trans (A_eq6 (V13 m ρ) c 4))
    · exact (W14_arr m ρ c 5).trans (((dat6 (V13 m ρ) c).arrAt_in 5 rfl _).trans (A_eq6 (V13 m ρ) c 5))
    · exact absurd rfl hr
  · exact W14_of_ne m ρ c r (fun w e => h (e ▸ arrs6 w))

theorem W15_out (c : Dev nD) :
    W15 m ρ c (no_index (Proc.devRef .tc main_v88)) = Cert.ReferenceIdeal.Hand.hLin7 ((W14 m ρ c) (Proc.devRef .tc main_v87)) ((W14 m ρ c) (Proc.devRef .tc main_arg9)) ((W14 m ρ c) (Proc.devRef .tc main_arg10)) :=
  (W15_arr m ρ c 3).trans (Reg7.arr (V14 m ρ) c)

/-- Launch 7's window arrays. -/
theorem arrs7 : ∀ w : Fin 4, Pipeline.arrRef spec7 w ∈ [main_v87, main_arg9, main_arg10, main_v88] := by decide

theorem W15_keep (c : Dev nD) (r : Ref sig .tc) (hr : r ≠ main_v88) :
    W15 m ρ c (no_index (Proc.devRef .tc r)) = (W14 m ρ c) (Proc.devRef .tc r) := by
  by_cases h : r ∈ [main_v87, main_arg9, main_arg10, main_v88]
  · simp only [List.mem_cons, List.not_mem_nil, or_false] at h
    rcases h with rfl | rfl | rfl | rfl
    · exact (W15_arr m ρ c 0).trans (((dat7 (V14 m ρ) c).arrAt_in 0 rfl _).trans (A_eq7 (V14 m ρ) c 0))
    · exact (W15_arr m ρ c 1).trans (((dat7 (V14 m ρ) c).arrAt_in 1 rfl _).trans (A_eq7 (V14 m ρ) c 1))
    · exact (W15_arr m ρ c 2).trans (((dat7 (V14 m ρ) c).arrAt_in 2 rfl _).trans (A_eq7 (V14 m ρ) c 2))
    · exact absurd rfl hr
  · exact W15_of_ne m ρ c r (fun w e => h (e ▸ arrs7 w))

end Cert.KernelIdeal.Hand

end
-- ==== Proof.KValue.lean ====
/-
  The idealized kernel program's result, as a function of its arguments: followed back through the launches and the
  host stretches, the result buffer at the last boundary is the whole network of the launch memory's argument arrays.
-/
import proofs.«165537_j50680614093676_1_alg».proof.Proof.KChain

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The result buffer at the last boundary is the network of the arguments. -/
theorem value (c : Dev nD) :
    W15 m ρ c (Proc.devRef .tc main_v88)
      = Cert.ReferenceIdeal.Hand.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  simp (disch := decide) only [W15_out, W15_keep, W14_out, W14_keep, W12_out, W12_keep, W10_out, W10_keep, W8_out, W8_keep, W6_out, W6_keep, W4_out, W4_keep, W2_out, W2_keep, kH6_agg, kH6_wl, kH6_bl, kH6_wr, kH6_keep, kH5_g, kH5_b, kH5_keep, kH4_agg, kH4_wl, kH4_bl, kH4_wr, kH4_keep, kH3_g, kH3_b, kH3_keep, kH2_agg, kH2_wl, kH2_bl, kH2_wr, kH2_keep, kH1_g, kH1_b, kH1_keep, kH0_src, kH0_dst, kH0_inv, kH0_keep]
  rfl

end Cert.KernelIdeal.Hand

end
-- ==== Proof.RRun.lean ====
/-
  The reference program's run, read back in segments. Its @main is one straight line of 219 host operations. The line
  is cut into literal segments (the edge endpoints and in-degrees; the input projection; per layer: the layer's gain
  and shift rows, the row normalisation, the edge stage, the residual update; the output projection). Over ANY buffer
  contents a segment leaves every buffer it does not write as it was, and leaves its result at the stage's function of
  the buffers it reads. Chained from the launch contents, the result buffer ends at the whole network of the arguments.
-/
import proofs.«165537_j50680614093676_1_alg».proof.Proof.RefOps
import proofs.«165537_j50680614093676_1_alg».proof.Proof.RNet

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The segments -/

def segA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v10 main_v9 main_v11 (Host.divf : (⟨S50000, .f32⟩ : BufTy).Contents (Elt F) → (⟨S50000, .f32⟩ : BufTy).Contents (Elt F) → (⟨S50000, .f32⟩ : BufTy).Contents (Elt F)) ]

def segL0 : List (HloOp τ sig (Elt F)) :=
  [ binary main_arg0 main_arg2 main_v12 ((fun l r => Host.dotGeneral dot_S50000x16_S16x128_S50000x128_1_0_0_1_n_n none l r) : (⟨S50000x16, .f32⟩ : BufTy).Contents (Elt F) → (⟨S16x128, .f32⟩ : BufTy).Contents (Elt F) → (⟨S50000x128, .f32⟩ : BufTy).Contents (Elt F)),
    unary main_arg3 main_v13 (broadcastInDim S1x128 ![1] bcast_S128_S1x128_1 : (⟨S128, .f32⟩ : BufTy).Contents (Elt F) → (⟨S1x128, .f32⟩ : BufTy).Contents (Elt F)),
    unary main_v13 main_v14 (broadcastInDim S50000x128 ![0, 1] bcast_S1x128_S50000x128_0_1 : (⟨S1x128, .f32⟩ : BufTy).Contents (Elt F) → (⟨S50000x128, .f32⟩ : BufTy).Contents (Elt F)),
    binary main_v12 main_v14 main_v15 (addf : (⟨S50000x128, .f32⟩ : BufTy).Contents (Elt F) → (⟨S50000x128, .f32⟩ : BufTy).Contents (Elt F) → (⟨S50000x128, .f32⟩ : BufTy).Contents (Elt F)) ]

def segGB0 : List (HloOp τ sig (Elt F)) :=
  [ unary main_arg7 main_v16 ((extractStridedSlice S1x128 ![0, 0] · slices_S3x128_S1x128_0_0) : (⟨S3x128, .f32⟩ : BufTy).Contents (Elt F) → (⟨S1x128, .f32⟩ : BufTy).Contents (Elt F)),
    reshape main_v16 main_v17 rfl shapeCasts_S1x128_S128,
    unary main_arg8 main_v18 ((extractStridedSlice S1x128 ![0, 0] · slices_S3x128_S1x128_0_0) : (⟨S3x128, .f32⟩ : BufTy).Contents (Elt F) → (⟨S1x128, .f32⟩ : BufTy).Contents (Elt F)),
    reshape main_v18 main_v19 rfl shapeCasts_S1x128_S128 ]

def segLN0 : List (HloOp τ sig (Elt F)) :=
  [ nullary main_cst_3 (constant S_ .f32 0x00000000#32),
    binary main_v15 main_cst_3 main_v20 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v20 main_v21 (broadcastInDim S50000x1 ![0] bcast_S50000_S50000x1_0 : (⟨S50000, .f32⟩ : BufTy).Contents (Elt F) → (⟨S50000x1, .f32⟩ : BufTy).Contents (Elt F)),
    nullary main_cst_4 (constant S_ .f32 0x43000000#32),
    unary main_cst_4 main_v22 (broadcastInDim S50000x1 ![] bcast_S_S50000x1 : (⟨S_, .f32⟩ : BufTy).Contents (Elt F) → (⟨S50000x1, .f32⟩ : BufTy).Contents (Elt F)),
    binary main_v21 main_v22 main_v23 (Host.divf : (⟨S50000x1, .f32⟩ : BufTy).Contents (Elt F) → (⟨S50000x1, .f32⟩ : BufTy).Contents (Elt F) → (⟨S50000x1, .f32⟩ : BufTy).Contents (Elt F)),
    unary main_v23 main_v24 (broadcastInDim S50000x128 ![0, 1] bcast_S50000x1_S50000x128_0_1 : (⟨S50000x1, .f32⟩ : BufTy).Contents (Elt F) → (⟨S50000x128, .f32⟩ : BufTy).Contents (Elt F)),
    binary main_v15 main_v24 main_v25 (subf : (⟨S50000x128, .f32⟩ : BufTy).Contents (Elt F) → (⟨S50000x128, .f32⟩ : BufTy).Contents (Elt F) → (⟨S50000x128, .f32⟩ : BufTy).Contents (Elt F)),
    binary main_v25 main_v25 main_v26 (mulf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x00000000#32),
    binary main_v26 main_cst_5 main_v27 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v27 main_v28 (broadcastInDim S50000x1 ![0] bcast_S50000_S50000x1_0 : (⟨S50000, .f32⟩ : BufTy).Contents (Elt F) → (⟨S50000x1, .f32⟩ : BufTy).Contents (Elt F)),
    nullary main_cst_6 (constant S_ .f32 0x43000000#32),
    unary main_cst_6 main_v29 (broadcastInDim S50000x1 ![] bcast_S_S50000x1 : (⟨S_, .f32⟩ : BufTy).Contents (Elt F) → (⟨S50000x1, .f32⟩ : BufTy).Contents (Elt F)),
    binary main_v28 main_v29 main_v30 (Host.divf : (⟨S50000x1, .f32⟩ : BufTy).Contents (Elt F) → (⟨S50000x1, .f32⟩ : BufTy).Contents (Elt F) → (⟨S50000x1, .f32⟩ : BufTy).Contents (Elt F)),
    unary main_v23 main_v31 (broadcastInDim S50000x128 ![0, 1] bcast_S50000x1_S50000x128_0_1 : (⟨S50000x1, .f32⟩ : BufTy).Contents (Elt F) → (⟨S50000x128, .f32⟩ : BufTy).Contents (Elt F)),
    binary main_v15 main_v31 main_v32 (subf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3727C5AC#32),
    unary main_cst_7 main_v33 (broadcastInDim S50000x1 ![] bcast_S_S50000x1 : (⟨S_, .f32⟩ : BufTy).Contents (Elt F) → (⟨S50000x1, .f32⟩ : BufTy).Contents (Elt F)),
    binary main_v30 main_v33 main_v34 (addf : (⟨S50000x1, .f32⟩ : BufTy).Contents (Elt F) → (⟨S50000x1, .f32⟩ : BufTy).Contents (Elt F) → (⟨S50000x1, .f32⟩ : BufTy).Contents (Elt F)),
    unary main_v34 main_v35 (Host.rsqrt : (⟨S50000x1, .f32⟩ : BufTy).Contents (Elt F) → (⟨S50000x1, .f32⟩ : BufTy).Contents (Elt F)),
    unary main_v35 main_v36 (broadcastInDim S50000x128 ![0, 1] bcast_S50000x1_S50000x128_0_1 : (⟨S50000x1, .f32⟩ : BufTy).Contents (Elt F) → (⟨S50000x128, .f32⟩ : BufTy).Contents (Elt F)),
    binary main_v32 main_v36 main_v37 (mulf : (⟨S50000x128, .f32⟩ : BufTy).Contents (Elt F) → (⟨S50000x128, .f32⟩ : BufTy).Contents (Elt F) → (⟨S50000x128, .f32⟩ : BufTy).Contents (Elt F)),
    unary main_v17 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v37 main_v39 main_v40 (mulf : (⟨S50000x128, .f32⟩ : BufTy).Contents (Elt F) → (⟨S50000x128, .f32⟩ : BufTy).Contents (Elt F) → (⟨S50000x128, .f32⟩ : BufTy).Contents (Elt F)),
    unary main_v19 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v40 main_v42 main_v43 (addf : (⟨S50000x128, .f32⟩ : BufTy).Contents (Elt F) → (⟨S50000x128, .f32⟩ : BufTy).Contents (Elt F) → (⟨S50000x128, .f32⟩ : BufTy).Contents (Elt F)) ]

def segAG0 : List (HloOp τ sig (Elt F)) :=
  [ nullary main_c (constantI S_ 32 0#32),
    unary main_c main_v44 (broadcastInDim S800000 ![] bcast_S_S800000 : (⟨S_, .i32⟩ : BufTy).Contents (Elt F) → (⟨S800000, .i32⟩ : BufTy).Contents (Elt F)),
    binary main_v1 main_v44 main_v45 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v46 (broadcastInDim S800000 ![] bcast_S_S800000 : (⟨S_, .i32⟩ : BufTy).Contents (Elt F) → (⟨S800000, .i32⟩ : BufTy).Contents (Elt F)),
    binary main_v1 main_v46 main_v47 (addi : (⟨S800000, .i32⟩ : BufTy).Contents (Elt F) → (⟨S800000, .i32⟩ : BufTy).Contents (Elt F) → (⟨S800000, .i32⟩ : BufTy).Contents (Elt F)),
    ternary main_v45 main_v47 main_v1 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v48 main_v49 (broadcastInDim S800000x1 ![0] bcast_S800000_S800000x1_0 : (⟨S800000, .i32⟩ : BufTy).Contents (Elt F) → (⟨S800000x1, .i32⟩ : BufTy).Contents (Elt F)),
    binary main_v43 main_v49 main_v50 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_9 (constant S_ .f32 0x00000000#32),
    unary main_cst_9 main_v51 (broadcastInDim S50000x128 ![] bcast_S_S50000x128 : (⟨S_, .f32⟩ : BufTy).Contents (Elt F) → (⟨S50000x128, .f32⟩ : BufTy).Contents (Elt F)),
    unary main_v3 main_v52 (broadcastInDim S800000x1 ![0] bcast_S800000_S800000x1_0 : (⟨S800000, .i32⟩ : BufTy).Contents (Elt F) → (⟨S800000x1, .i32⟩ : BufTy).Contents (Elt F)),
    ternary main_v51 main_v52 main_v50 main_v53 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v11 main_v54 (broadcastInDim S50000x1 ![0] bcast_S50000_S50000x1_0 : (⟨S50000, .f32⟩ : BufTy).Contents (Elt F) → (⟨S50000x1, .f32⟩ : BufTy).Contents (Elt F)),
    unary main_v54 main_v55 (broadcastInDim S50000x128 ![0, 1] bcast_S50000x1_S50000x128_0_1 : (⟨S50000x1, .f32⟩ : BufTy).Contents (Elt F) → (⟨S50000x128, .f32⟩ : BufTy).Contents (Elt F)),
    binary main_v53 main_v55 main_v56 (mulf : (⟨S50000x128, .f32⟩ : BufTy).Contents (Elt F) → (⟨S50000x128, .f32⟩ : BufTy).Contents (Elt F) → (⟨S50000x128, .f32⟩ : BufTy).Contents (Elt F)) ]

def segUP0 : List (HloOp τ sig (Elt F)) :=
  [ unary main_arg4 main_v57 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v57 main_v58 rfl shapeCasts_S1x128x128_S128x128,
    binary main_v56 main_v58 main_v59 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v60 ((extractStridedSlice S1x128 ![0, 0] · slices_S3x128_S1x128_0_0) : (⟨S3x128, .f32⟩ : BufTy).Contents (Elt F) → (⟨S1x128, .f32⟩ : BufTy).Contents (Elt F)),
    reshape main_v60 main_v61 rfl shapeCasts_S1x128_S128,
    unary main_v61 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v59 main_v63 main_v64 (addf : (⟨S50000x128, .f32⟩ : BufTy).Contents (Elt F) → (⟨S50000x128, .f32⟩ : BufTy).Contents (Elt F) → (⟨S50000x128, .f32⟩ : BufTy).Contents (Elt F)),
    unary main_arg6 main_v65 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v65 main_v66 rfl shapeCasts_S1x128x128_S128x128,
    binary main_v43 main_v66 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v64 main_v67 main_v68 (addf : (⟨S50000x128, .f32⟩ : BufTy).Contents (Elt F) → (⟨S50000x128, .f32⟩ : BufTy).Contents (Elt F) → (⟨S50000x128, .f32⟩ : BufTy).Contents (Elt F)),
    binary main_v15 main_v68 main_v69 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v69) (TRef.of (T := ⟨S50000x128, .f32⟩) main_call0_v0) (TRef.of (T := ⟨S50000x128, .f32⟩) main_v70) maximumf ]

def segGB1 : List (HloOp τ sig (Elt F)) :=
  [ unary main_arg7 main_v71 ((extractStridedSlice S1x128 ![1, 0] · slices_S3x128_S1x128_1_0) : (⟨S3x128, .f32⟩ : BufTy).Contents (Elt F) → (⟨S1x128, .f32⟩ : BufTy).Contents (Elt F)),
    reshape main_v71 main_v72 rfl shapeCasts_S1x128_S128,
    unary main_arg8 main_v73 ((extractStridedSlice S1x128 ![1, 0] · slices_S3x128_S1x128_1_0) : (⟨S3x128, .f32⟩ : BufTy).Contents (Elt F) → (⟨S1x128, .f32⟩ : BufTy).Contents (Elt F)),
    reshape main_v73 main_v74 rfl shapeCasts_S1x128_S128 ]

def segLN1 : List (HloOp τ sig (Elt F)) :=
  [ nullary main_cst_10 (constant S_ .f32 0x00000000#32),
    binary main_v70 main_cst_10 main_v75 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v75 main_v76 (broadcastInDim S50000x1 ![0] bcast_S50000_S50000x1_0 : (⟨S50000, .f32⟩ : BufTy).Contents (Elt F) → (⟨S50000x1, .f32⟩ : BufTy).Contents (Elt F)),
    nullary main_cst_11 (constant S_ .f32 0x43000000#32),
    unary main_cst_11 main_v77 (broadcastInDim S50000x1 ![] bcast_S_S50000x1 : (⟨S_, .f32⟩ : BufTy).Contents (Elt F) → (⟨S50000x1, .f32⟩ : BufTy).Contents (Elt F)),
    binary main_v76 main_v77 main_v78 (Host.divf : (⟨S50000x1, .f32⟩ : BufTy).Contents (Elt F) → (⟨S50000x1, .f32⟩ : BufTy).Contents (Elt F) → (⟨S50000x1, .f32⟩ : BufTy).Contents (Elt F)),
    unary main_v78 main_v79 (broadcastInDim S50000x128 ![0, 1] bcast_S50000x1_S50000x128_0_1 : (⟨S50000x1, .f32⟩ : BufTy).Contents (Elt F) → (⟨S50000x128, .f32⟩ : BufTy).Contents (Elt F)),
    binary main_v70 main_v79 main_v80 (subf : (⟨S50000x128, .f32⟩ : BufTy).Contents (Elt F) → (⟨S50000x128, .f32⟩ : BufTy).Contents (Elt F) → (⟨S50000x128, .f32⟩ : BufTy).Contents (Elt F)),
    binary main_v80 main_v80 main_v81 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    binary main_v81 main_cst_12 main_v82 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v82 main_v83 (broadcastInDim S50000x1 ![0] bcast_S50000_S50000x1_0 : (⟨S50000, .f32⟩ : BufTy).Contents (Elt F) → (⟨S50000x1, .f32⟩ : BufTy).Contents (Elt F)),
    nullary main_cst_13 (constant S_ .f32 0x43000000#32),
    unary main_cst_13 main_v84 (broadcastInDim S50000x1 ![] bcast_S_S50000x1 : (⟨S_, .f32⟩ : BufTy).Contents (Elt F) → (⟨S50000x1, .f32⟩ : BufTy).Contents (Elt F)),
    binary main_v83 main_v84 main_v85 (Host.divf : (⟨S50000x1, .f32⟩ : BufTy).Contents (Elt F) → (⟨S50000x1, .f32⟩ : BufTy).Contents (Elt F) → (⟨S50000x1, .f32⟩ : BufTy).Contents (Elt F)),
    unary main_v78 main_v86 (broadcastInDim S50000x128 ![0, 1] bcast_S50000x1_S50000x128_0_1 : (⟨S50000x1, .f32⟩ : BufTy).Contents (Elt F) → (⟨S50000x128, .f32⟩ : BufTy).Contents (Elt F)),
    binary main_v70 main_v86 main_v87 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v88 (broadcastInDim S50000x1 ![] bcast_S_S50000x1 : (⟨S_, .f32⟩ : BufTy).Contents (Elt F) → (⟨S50000x1, .f32⟩ : BufTy).Contents (Elt F)),
    binary main_v85 main_v88 main_v89 (addf : (⟨S50000x1, .f32⟩ : BufTy).Contents (Elt F) → (⟨S50000x1, .f32⟩ : BufTy).Contents (Elt F) → (⟨S50000x1, .f32⟩ : BufTy).Contents (Elt F)),
    unary main_v89 main_v90 (Host.rsqrt : (⟨S50000x1, .f32⟩ : BufTy).Contents (Elt F) → (⟨S50000x1, .f32⟩ : BufTy).Contents (Elt F)),
    unary main_v90 main_v91 (broadcastInDim S50000x128 ![0, 1] bcast_S50000x1_S50000x128_0_1 : (⟨S50000x1, .f32⟩ : BufTy).Contents (Elt F) → (⟨S50000x128, .f32⟩ : BufTy).Contents (Elt F)),
    binary main_v87 main_v91 main_v92 (mulf : (⟨S50000x128, .f32⟩ : BufTy).Contents (Elt F) → (⟨S50000x128, .f32⟩ : BufTy).Contents (Elt F) → (⟨S50000x128, .f32⟩ : BufTy).Contents (Elt F)),
    unary main_v72 main_v93 (broadcastInDim S1x128 ![1] bcast_S128_S1x128_1 : (⟨S128, .f32⟩ : BufTy).Contents (Elt F) → (⟨S1x128, .f32⟩ : BufTy).Contents (Elt F)),
    unary main_v93 main_v94 (broadcastInDim S50000x128 ![0, 1] bcast_S1x128_S50000x128_0_1 : (⟨S1x128, .f32⟩ : BufTy).Contents (Elt F) → (⟨S50000x128, .f32⟩ : BufTy).Contents (Elt F)),
    binary main_v92 main_v94 main_v95 (mulf : (⟨S50000x128, .f32⟩ : BufTy).Contents (Elt F) → (⟨S50000x128, .f32⟩ : BufTy).Contents (Elt F) → (⟨S50000x128, .f32⟩ : BufTy).Contents (Elt F)),
    unary main_v74 main_v96 (broadcastInDim S1x128 ![1] bcast_S128_S1x128_1 : (⟨S128, .f32⟩ : BufTy).Contents (Elt F) → (⟨S1x128, .f32⟩ : BufTy).Contents (Elt F)),
    unary main_v96 main_v97 (broadcastInDim S50000x128 ![0, 1] bcast_S1x128_S50000x128_0_1 : (⟨S1x128, .f32⟩ : BufTy).Contents (Elt F) → (⟨S50000x128, .f32⟩ : BufTy).Contents (Elt F)),
    binary main_v95 main_v97 main_v98 (addf : (⟨S50000x128, .f32⟩ : BufTy).Contents (Elt F) → (⟨S50000x128, .f32⟩ : BufTy).Contents (Elt F) → (⟨S50000x128, .f32⟩ : BufTy).Contents (Elt F)) ]

def segAG1 : List (HloOp τ sig (Elt F)) :=
  [ nullary main_c_15 (constantI S_ 32 0#32),
    unary main_c_15 main_v99 (broadcastInDim S800000 ![] bcast_S_S800000 : (⟨S_, .i32⟩ : BufTy).Contents (Elt F) → (⟨S800000, .i32⟩ : BufTy).Contents (Elt F)),
    binary main_v1 main_v99 main_v100 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v101 (broadcastInDim S800000 ![] bcast_S_S800000 : (⟨S_, .i32⟩ : BufTy).Contents (Elt F) → (⟨S800000, .i32⟩ : BufTy).Contents (Elt F)),
    binary main_v1 main_v101 main_v102 (addi : (⟨S800000, .i32⟩ : BufTy).Contents (Elt F) → (⟨S800000, .i32⟩ : BufTy).Contents (Elt F) → (⟨S800000, .i32⟩ : BufTy).Contents (Elt F)),
    ternary main_v100 main_v102 main_v1 main_v103 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v103 main_v104 (broadcastInDim S800000x1 ![0] bcast_S800000_S800000x1_0 : (⟨S800000, .i32⟩ : BufTy).Contents (Elt F) → (⟨S800000x1, .i32⟩ : BufTy).Contents (Elt F)),
    binary main_v98 main_v104 main_v105 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_17 (constant S_ .f32 0x00000000#32),
    unary main_cst_17 main_v106 (broadcastInDim S50000x128 ![] bcast_S_S50000x128 : (⟨S_, .f32⟩ : BufTy).Contents (Elt F) → (⟨S50000x128, .f32⟩ : BufTy).Contents (Elt F)),
    unary main_v3 main_v107 (broadcastInDim S800000x1 ![0] bcast_S800000_S800000x1_0 : (⟨S800000, .i32⟩ : BufTy).Contents (Elt F) → (⟨S800000x1, .i32⟩ : BufTy).Contents (Elt F)),
    ternary main_v106 main_v107 main_v105 main_v108 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v11 main_v109 (broadcastInDim S50000x1 ![0] bcast_S50000_S50000x1_0 : (⟨S50000, .f32⟩ : BufTy).Contents (Elt F) → (⟨S50000x1, .f32⟩ : BufTy).Contents (Elt F)),
    unary main_v109 main_v110 (broadcastInDim S50000x128 ![0, 1] bcast_S50000x1_S50000x128_0_1 : (⟨S50000x1, .f32⟩ : BufTy).Contents (Elt F) → (⟨S50000x128, .f32⟩ : BufTy).Contents (Elt F)),
    binary main_v108 main_v110 main_v111 (mulf : (⟨S50000x128, .f32⟩ : BufTy).Contents (Elt F) → (⟨S50000x128, .f32⟩ : BufTy).Contents (Elt F) → (⟨S50000x128, .f32⟩ : BufTy).Contents (Elt F)) ]

def segUP1 : List (HloOp τ sig (Elt F)) :=
  [ unary main_arg4 main_v112 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v112 main_v113 rfl shapeCasts_S1x128x128_S128x128,
    binary main_v111 main_v113 main_v114 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v115 ((extractStridedSlice S1x128 ![1, 0] · slices_S3x128_S1x128_1_0) : (⟨S3x128, .f32⟩ : BufTy).Contents (Elt F) → (⟨S1x128, .f32⟩ : BufTy).Contents (Elt F)),
    reshape main_v115 main_v116 rfl shapeCasts_S1x128_S128,
    unary main_v116 main_v117 (broadcastInDim S1x128 ![1] bcast_S128_S1x128_1 : (⟨S128, .f32⟩ : BufTy).Contents (Elt F) → (⟨S1x128, .f32⟩ : BufTy).Contents (Elt F)),
    unary main_v117 main_v118 (broadcastInDim S50000x128 ![0, 1] bcast_S1x128_S50000x128_0_1 : (⟨S1x128, .f32⟩ : BufTy).Contents (Elt F) → (⟨S50000x128, .f32⟩ : BufTy).Contents (Elt F)),
    binary main_v114 main_v118 main_v119 (addf : (⟨S50000x128, .f32⟩ : BufTy).Contents (Elt F) → (⟨S50000x128, .f32⟩ : BufTy).Contents (Elt F) → (⟨S50000x128, .f32⟩ : BufTy).Contents (Elt F)),
    unary main_arg6 main_v120 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v120 main_v121 rfl shapeCasts_S1x128x128_S128x128,
    binary main_v98 main_v121 main_v122 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v119 main_v122 main_v123 (addf : (⟨S50000x128, .f32⟩ : BufTy).Contents (Elt F) → (⟨S50000x128, .f32⟩ : BufTy).Contents (Elt F) → (⟨S50000x128, .f32⟩ : BufTy).Contents (Elt F)),
    binary main_v70 main_v123 main_v124 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v124) (TRef.of (T := ⟨S50000x128, .f32⟩) main_call1_v0) (TRef.of (T := ⟨S50000x128, .f32⟩) main_v125) maximumf ]

def segGB2 : List (HloOp τ sig (Elt F)) :=
  [ unary main_arg7 main_v126 ((extractStridedSlice S1x128 ![2, 0] · slices_S3x128_S1x128_2_0) : (⟨S3x128, .f32⟩ : BufTy).Contents (Elt F) → (⟨S1x128, .f32⟩ : BufTy).Contents (Elt F)),
    reshape main_v126 main_v127 rfl shapeCasts_S1x128_S128,
    unary main_arg8 main_v128 ((extractStridedSlice S1x128 ![2, 0] · slices_S3x128_S1x128_2_0) : (⟨S3x128, .f32⟩ : BufTy).Contents (Elt F) → (⟨S1x128, .f32⟩ : BufTy).Contents (Elt F)),
    reshape main_v128 main_v129 rfl shapeCasts_S1x128_S128 ]

def segLN2 : List (HloOp τ sig (Elt F)) :=
  [ nullary main_cst_18 (constant S_ .f32 0x00000000#32),
    binary main_v125 main_cst_18 main_v130 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v130 main_v131 (broadcastInDim S50000x1 ![0] bcast_S50000_S50000x1_0 : (⟨S50000, .f32⟩ : BufTy).Contents (Elt F) → (⟨S50000x1, .f32⟩ : BufTy).Contents (Elt F)),
    nullary main_cst_19 (constant S_ .f32 0x43000000#32),
    unary main_cst_19 main_v132 (broadcastInDim S50000x1 ![] bcast_S_S50000x1 : (⟨S_, .f32⟩ : BufTy).Contents (Elt F) → (⟨S50000x1, .f32⟩ : BufTy).Contents (Elt F)),
    binary main_v131 main_v132 main_v133 (Host.divf : (⟨S50000x1, .f32⟩ : BufTy).Contents (Elt F) → (⟨S50000x1, .f32⟩ : BufTy).Contents (Elt F) → (⟨S50000x1, .f32⟩ : BufTy).Contents (Elt F)),
    unary main_v133 main_v134 (broadcastInDim S50000x128 ![0, 1] bcast_S50000x1_S50000x128_0_1 : (⟨S50000x1, .f32⟩ : BufTy).Contents (Elt F) → (⟨S50000x128, .f32⟩ : BufTy).Contents (Elt F)),
    binary main_v125 main_v134 main_v135 (subf : (⟨S50000x128, .f32⟩ : BufTy).Contents (Elt F) → (⟨S50000x128, .f32⟩ : BufTy).Contents (Elt F) → (⟨S50000x128, .f32⟩ : BufTy).Contents (Elt F)),
    binary main_v135 main_v135 main_v136 (mulf : (⟨S50000x128, .f32⟩ : BufTy).Contents (Elt F) → (⟨S50000x128, .f32⟩ : BufTy).Contents (Elt F) → (⟨S50000x128, .f32⟩ : BufTy).Contents (Elt F)),
    nullary main_cst_20 (constant S_ .f32 0x00000000#32),
    binary main_v136 main_cst_20 main_v137 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v137 main_v138 (broadcastInDim S50000x1 ![0] bcast_S50000_S50000x1_0 : (⟨S50000, .f32⟩ : BufTy).Contents (Elt F) → (⟨S50000x1, .f32⟩ : BufTy).Contents (Elt F)),
    nullary main_cst_21 (constant S_ .f32 0x43000000#32),
    unary main_cst_21 main_v139 (broadcastInDim S50000x1 ![] bcast_S_S50000x1 : (⟨S_, .f32⟩ : BufTy).Contents (Elt F) → (⟨S50000x1, .f32⟩ : BufTy).Contents (Elt F)),
    binary main_v138 main_v139 main_v140 (Host.divf : (⟨S50000x1, .f32⟩ : BufTy).Contents (Elt F) → (⟨S50000x1, .f32⟩ : BufTy).Contents (Elt F) → (⟨S50000x1, .f32⟩ : BufTy).Contents (Elt F)),
    unary main_v133 main_v141 (broadcastInDim S50000x128 ![0, 1] bcast_S50000x1_S50000x128_0_1 : (⟨S50000x1, .f32⟩ : BufTy).Contents (Elt F) → (⟨S50000x128, .f32⟩ : BufTy).Contents (Elt F)),
    binary main_v125 main_v141 main_v142 (subf : (⟨S50000x128, .f32⟩ : BufTy).Contents (Elt F) → (⟨S50000x128, .f32⟩ : BufTy).Contents (Elt F) → (⟨S50000x128, .f32⟩ : BufTy).Contents (Elt F)),
    nullary main_cst_22 (constant S_ .f32 0x3727C5AC#32),
    unary main_cst_22 main_v143 (broadcastInDim S50000x1 ![] bcast_S_S50000x1 : (⟨S_, .f32⟩ : BufTy).Contents (Elt F) → (⟨S50000x1, .f32⟩ : BufTy).Contents (Elt F)),
    binary main_v140 main_v143 main_v144 (addf : (⟨S50000x1, .f32⟩ : BufTy).Contents (Elt F) → (⟨S50000x1, .f32⟩ : BufTy).Contents (Elt F) → (⟨S50000x1, .f32⟩ : BufTy).Contents (Elt F)),
    unary main_v144 main_v145 (Host.rsqrt : (⟨S50000x1, .f32⟩ : BufTy).Contents (Elt F) → (⟨S50000x1, .f32⟩ : BufTy).Contents (Elt F)),
    unary main_v145 main_v146 (broadcastInDim S50000x128 ![0, 1] bcast_S50000x1_S50000x128_0_1 : (⟨S50000x1, .f32⟩ : BufTy).Contents (Elt F) → (⟨S50000x128, .f32⟩ : BufTy).Contents (Elt F)),
    binary main_v142 main_v146 main_v147 (mulf : (⟨S50000x128, .f32⟩ : BufTy).Contents (Elt F) → (⟨S50000x128, .f32⟩ : BufTy).Contents (Elt F) → (⟨S50000x128, .f32⟩ : BufTy).Contents (Elt F)),
    unary main_v127 main_v148 (broadcastInDim S1x128 ![1] bcast_S128_S1x128_1 : (⟨S128, .f32⟩ : BufTy).Contents (Elt F) → (⟨S1x128, .f32⟩ : BufTy).Contents (Elt F)),
    unary main_v148 main_v149 (broadcastInDim S50000x128 ![0, 1] bcast_S1x128_S50000x128_0_1 : (⟨S1x128, .f32⟩ : BufTy).Contents (Elt F) → (⟨S50000x128, .f32⟩ : BufTy).Contents (Elt F)),
    binary main_v147 main_v149 main_v150 (mulf : (⟨S50000x128, .f32⟩ : BufTy).Contents (Elt F) → (⟨S50000x128, .f32⟩ : BufTy).Contents (Elt F) → (⟨S50000x128, .f32⟩ : BufTy).Contents (Elt F)),
    unary main_v129 main_v151 (broadcastInDim S1x128 ![1] bcast_S128_S1x128_1 : (⟨S128, .f32⟩ : BufTy).Contents (Elt F) → (⟨S1x128, .f32⟩ : BufTy).Contents (Elt F)),
    unary main_v151 main_v152 (broadcastInDim S50000x128 ![0, 1] bcast_S1x128_S50000x128_0_1 : (⟨S1x128, .f32⟩ : BufTy).Contents (Elt F) → (⟨S50000x128, .f32⟩ : BufTy).Contents (Elt F)),
    binary main_v150 main_v152 main_v153 (addf : (⟨S50000x128, .f32⟩ : BufTy).Contents (Elt F) → (⟨S50000x128, .f32⟩ : BufTy).Contents (Elt F) → (⟨S50000x128, .f32⟩ : BufTy).Contents (Elt F)) ]

def segAG2 : List (HloOp τ sig (Elt F)) :=
  [ nullary main_c_23 (constantI S_ 32 0#32),
    unary main_c_23 main_v154 (broadcastInDim S800000 ![] bcast_S_S800000 : (⟨S_, .i32⟩ : BufTy).Contents (Elt F) → (⟨S800000, .i32⟩ : BufTy).Contents (Elt F)),
    binary main_v1 main_v154 main_v155 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v156 (broadcastInDim S800000 ![] bcast_S_S800000 : (⟨S_, .i32⟩ : BufTy).Contents (Elt F) → (⟨S800000, .i32⟩ : BufTy).Contents (Elt F)),
    binary main_v1 main_v156 main_v157 (addi : (⟨S800000, .i32⟩ : BufTy).Contents (Elt F) → (⟨S800000, .i32⟩ : BufTy).Contents (Elt F) → (⟨S800000, .i32⟩ : BufTy).Contents (Elt F)),
    ternary main_v155 main_v157 main_v1 main_v158 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v158 main_v159 (broadcastInDim S800000x1 ![0] bcast_S800000_S800000x1_0 : (⟨S800000, .i32⟩ : BufTy).Contents (Elt F) → (⟨S800000x1, .i32⟩ : BufTy).Contents (Elt F)),
    binary main_v153 main_v159 main_v160 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_25 (constant S_ .f32 0x00000000#32),
    unary main_cst_25 main_v161 (broadcastInDim S50000x128 ![] bcast_S_S50000x128 : (⟨S_, .f32⟩ : BufTy).Contents (Elt F) → (⟨S50000x128, .f32⟩ : BufTy).Contents (Elt F)),
    unary main_v3 main_v162 (broadcastInDim S800000x1 ![0] bcast_S800000_S800000x1_0 : (⟨S800000, .i32⟩ : BufTy).Contents (Elt F) → (⟨S800000x1, .i32⟩ : BufTy).Contents (Elt F)),
    ternary main_v161 main_v162 main_v160 main_v163 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v11 main_v164 (broadcastInDim S50000x1 ![0] bcast_S50000_S50000x1_0 : (⟨S50000, .f32⟩ : BufTy).Contents (Elt F) → (⟨S50000x1, .f32⟩ : BufTy).Contents (Elt F)),
    unary main_v164 main_v165 (broadcastInDim S50000x128 ![0, 1] bcast_S50000x1_S50000x128_0_1 : (⟨S50000x1, .f32⟩ : BufTy).Contents (Elt F) → (⟨S50000x128, .f32⟩ : BufTy).Contents (Elt F)),
    binary main_v163 main_v165 main_v166 (mulf : (⟨S50000x128, .f32⟩ : BufTy).Contents (Elt F) → (⟨S50000x128, .f32⟩ : BufTy).Contents (Elt F) → (⟨S50000x128, .f32⟩ : BufTy).Contents (Elt F)) ]

def segUP2 : List (HloOp τ sig (Elt F)) :=
  [ unary main_arg4 main_v167 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v167 main_v168 rfl shapeCasts_S1x128x128_S128x128,
    binary main_v166 main_v168 main_v169 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v170 ((extractStridedSlice S1x128 ![2, 0] · slices_S3x128_S1x128_2_0) : (⟨S3x128, .f32⟩ : BufTy).Contents (Elt F) → (⟨S1x128, .f32⟩ : BufTy).Contents (Elt F)),
    reshape main_v170 main_v171 rfl shapeCasts_S1x128_S128,
    unary main_v171 main_v172 (broadcastInDim S1x128 ![1] bcast_S128_S1x128_1 : (⟨S128, .f32⟩ : BufTy).Contents (Elt F) → (⟨S1x128, .f32⟩ : BufTy).Contents (Elt F)),
    unary main_v172 main_v173 (broadcastInDim S50000x128 ![0, 1] bcast_S1x128_S50000x128_0_1 : (⟨S1x128, .f32⟩ : BufTy).Contents (Elt F) → (⟨S50000x128, .f32⟩ : BufTy).Contents (Elt F)),
    binary main_v169 main_v173 main_v174 (addf : (⟨S50000x128, .f32⟩ : BufTy).Contents (Elt F) → (⟨S50000x128, .f32⟩ : BufTy).Contents (Elt F) → (⟨S50000x128, .f32⟩ : BufTy).Contents (Elt F)),
    unary main_arg6 main_v175 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v175 main_v176 rfl shapeCasts_S1x128x128_S128x128,
    binary main_v153 main_v176 main_v177 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v174 main_v177 main_v178 (addf : (⟨S50000x128, .f32⟩ : BufTy).Contents (Elt F) → (⟨S50000x128, .f32⟩ : BufTy).Contents (Elt F) → (⟨S50000x128, .f32⟩ : BufTy).Contents (Elt F)),
    binary main_v125 main_v178 main_v179 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v179) (TRef.of (T := ⟨S50000x128, .f32⟩) main_call2_v0) (TRef.of (T := ⟨S50000x128, .f32⟩) main_v180) maximumf ]

def segFin : List (HloOp τ sig (Elt F)) :=
  [ binary main_v180 main_arg9 main_v181 ((fun l r => Host.dotGeneral dot_S50000x128_S128x4_S50000x4_1_0_0_1_n_n none l r) : (⟨S50000x128, .f32⟩ : BufTy).Contents (Elt F) → (⟨S128x4, .f32⟩ : BufTy).Contents (Elt F) → (⟨S50000x4, .f32⟩ : BufTy).Contents (Elt F)),
    unary main_arg10 main_v182 (broadcastInDim S1x4 ![1] bcast_S4_S1x4_1 : (⟨S4, .f32⟩ : BufTy).Contents (Elt F) → (⟨S1x4, .f32⟩ : BufTy).Contents (Elt F)),
    unary main_v182 main_v183 (broadcastInDim S50000x4 ![0, 1] bcast_S1x4_S50000x4_0_1 : (⟨S1x4, .f32⟩ : BufTy).Contents (Elt F) → (⟨S50000x4, .f32⟩ : BufTy).Contents (Elt F)),
    binary main_v181 main_v183 main_v184 (addf : (⟨S50000x4, .f32⟩ : BufTy).Contents (Elt F) → (⟨S50000x4, .f32⟩ : BufTy).Contents (Elt F) → (⟨S50000x4, .f32⟩ : BufTy).Contents (Elt F)) ]

/-- The line is its segments in order. -/
theorem ops_split : (Cert.ReferenceIdeal.ValueP.ops : List (HloOp τ sig (Elt F)))
    = segA ++ (segL0 ++ (segGB0 ++ (segLN0 ++ (segAG0 ++ (segUP0 ++ (segGB1 ++ (segLN1 ++ (segAG1 ++ (segUP1 ++ (segGB2 ++ (segLN2 ++ (segAG2 ++ (segUP2 ++ (segFin)))))))))))))) := rfl

/-! ## What each segment leaves alone -/

theorem segA_keep (W : Valuation τ sig (Elt F)) (r : Ref sig .tc)
    (hr : r ∉ [main_v0, main_v1, main_v2, main_v3, main_cst, main_v4, main_cst_0, main_v5, main_v6, main_v7, main_cst_1, main_v8, main_v9, main_cst_2, main_v10, main_v11]) :
    after segA W (no_index (Proc.devRef .tc r)) = W (Proc.devRef .tc r) :=
  after_of_forall_not_mem segA W (List.forall_iff_forall_mem.mp (by
    simp only [segA, List.Forall, TRef.nullary, TRef.unary, TRef.binary, nullary_writes, unary_writes, binary_writes, ternary_writes, reshape_writes, Finset.mem_singleton]
    repeat' apply And.intro
    all_goals exact devRef_ne_of_ne (fun h => hr (by subst h; decide))))

theorem segL0_keep (W : Valuation τ sig (Elt F)) (r : Ref sig .tc)
    (hr : r ∉ [main_v12, main_v13, main_v14, main_v15]) :
    after segL0 W (no_index (Proc.devRef .tc r)) = W (Proc.devRef .tc r) :=
  after_of_forall_not_mem segL0 W (List.forall_iff_forall_mem.mp (by
    simp only [segL0, List.Forall, TRef.nullary, TRef.unary, TRef.binary, nullary_writes, unary_writes, binary_writes, ternary_writes, reshape_writes, Finset.mem_singleton]
    repeat' apply And.intro
    all_goals exact devRef_ne_of_ne (fun h => hr (by subst h; decide))))

theorem segGB0_keep (W : Valuation τ sig (Elt F)) (r : Ref sig .tc)
    (hr : r ∉ [main_v16, main_v17, main_v18, main_v19]) :
    after segGB0 W (no_index (Proc.devRef .tc r)) = W (Proc.devRef .tc r) :=
  after_of_forall_not_mem segGB0 W (List.forall_iff_forall_mem.mp (by
    simp only [segGB0, List.Forall, TRef.nullary, TRef.unary, TRef.binary, nullary_writes, unary_writes, binary_writes, ternary_writes, reshape_writes, Finset.mem_singleton]
    repeat' apply And.intro
    all_goals exact devRef_ne_of_ne (fun h => hr (by subst h; decide))))

theorem segLN0_keep (W : Valuation τ sig (Elt F)) (r : Ref sig .tc)
    (hr : r ∉ [main_cst_3, main_v20, main_v21, main_cst_4, main_v22, main_v23, main_v24, main_v25, main_v26, main_cst_5, main_v27, main_v28, main_cst_6, main_v29, main_v30, main_v31, main_v32, main_cst_7, main_v33, main_v34, main_v35, main_v36, main_v37, main_v38, main_v39, main_v40, main_v41, main_v42, main_v43]) :
    after segLN0 W (no_index (Proc.devRef .tc r)) = W (Proc.devRef .tc r) :=
  after_of_forall_not_mem segLN0 W (List.forall_iff_forall_mem.mp (by
    simp only [segLN0, List.Forall, TRef.nullary, TRef.unary, TRef.binary, nullary_writes, unary_writes, binary_writes, ternary_writes, reshape_writes, Finset.mem_singleton]
    repeat' apply And.intro
    all_goals exact devRef_ne_of_ne (fun h => hr (by subst h; decide))))

theorem segAG0_keep (W : Valuation τ sig (Elt F)) (r : Ref sig .tc)
    (hr : r ∉ [main_c, main_v44, main_v45, main_c_8, main_v46, main_v47, main_v48, main_v49, main_v50, main_cst_9, main_v51, main_v52, main_v53, main_v54, main_v55, main_v56]) :
    after segAG0 W (no_index (Proc.devRef .tc r)) = W (Proc.devRef .tc r) :=
  after_of_forall_not_mem segAG0 W (List.forall_iff_forall_mem.mp (by
    simp only [segAG0, List.Forall, TRef.nullary, TRef.unary, TRef.binary, nullary_writes, unary_writes, binary_writes, ternary_writes, reshape_writes, Finset.mem_singleton]
    repeat' apply And.intro
    all_goals exact devRef_ne_of_ne (fun h => hr (by subst h; decide))))

theorem segUP0_keep (W : Valuation τ sig (Elt F)) (r : Ref sig .tc)
    (hr : r ∉ [main_v57, main_v58, main_v59, main_v60, main_v61, main_v62, main_v63, main_v64, main_v65, main_v66, main_v67, main_v68, main_v69, main_call0_cst, main_call0_v0, main_v70]) :
    after segUP0 W (no_index (Proc.devRef .tc r)) = W (Proc.devRef .tc r) :=
  after_of_forall_not_mem segUP0 W (List.forall_iff_forall_mem.mp (by
    simp only [segUP0, List.Forall, TRef.nullary, TRef.unary, TRef.binary, nullary_writes, unary_writes, binary_writes, ternary_writes, reshape_writes, Finset.mem_singleton]
    repeat' apply And.intro
    all_goals exact devRef_ne_of_ne (fun h => hr (by subst h; decide))))

theorem segGB1_keep (W : Valuation τ sig (Elt F)) (r : Ref sig .tc)
    (hr : r ∉ [main_v71, main_v72, main_v73, main_v74]) :
    after segGB1 W (no_index (Proc.devRef .tc r)) = W (Proc.devRef .tc r) :=
  after_of_forall_not_mem segGB1 W (List.forall_iff_forall_mem.mp (by
    simp only [segGB1, List.Forall, TRef.nullary, TRef.unary, TRef.binary, nullary_writes, unary_writes, binary_writes, ternary_writes, reshape_writes, Finset.mem_singleton]
    repeat' apply And.intro
    all_goals exact devRef_ne_of_ne (fun h => hr (by subst h; decide))))

theorem segLN1_keep (W : Valuation τ sig (Elt F)) (r : Ref sig .tc)
    (hr : r ∉ [main_cst_10, main_v75, main_v76, main_cst_11, main_v77, main_v78, main_v79, main_v80, main_v81, main_cst_12, main_v82, main_v83, main_cst_13, main_v84, main_v85, main_v86, main_v87, main_cst_14, main_v88, main_v89, main_v90, main_v91, main_v92, main_v93, main_v94, main_v95, main_v96, main_v97, main_v98]) :
    after segLN1 W (no_index (Proc.devRef .tc r)) = W (Proc.devRef .tc r) :=
  after_of_forall_not_mem segLN1 W (List.forall_iff_forall_mem.mp (by
    simp only [segLN1, List.Forall, TRef.nullary, TRef.unary, TRef.binary, nullary_writes, unary_writes, binary_writes, ternary_writes, reshape_writes, Finset.mem_singleton]
    repeat' apply And.intro
    all_goals exact devRef_ne_of_ne (fun h => hr (by subst h; decide))))

theorem segAG1_keep (W : Valuation τ sig (Elt F)) (r : Ref sig .tc)
    (hr : r ∉ [main_c_15, main_v99, main_v100, main_c_16, main_v101, main_v102, main_v103, main_v104, main_v105, main_cst_17, main_v106, main_v107, main_v108, main_v109, main_v110, main_v111]) :
    after segAG1 W (no_index (Proc.devRef .tc r)) = W (Proc.devRef .tc r) :=
  after_of_forall_not_mem segAG1 W (List.forall_iff_forall_mem.mp (by
    simp only [segAG1, List.Forall, TRef.nullary, TRef.unary, TRef.binary, nullary_writes, unary_writes, binary_writes, ternary_writes, reshape_writes, Finset.mem_singleton]
    repeat' apply And.intro
    all_goals exact devRef_ne_of_ne (fun h => hr (by subst h; decide))))

theorem segUP1_keep (W : Valuation τ sig (Elt F)) (r : Ref sig .tc)
    (hr : r ∉ [main_v112, main_v113, main_v114, main_v115, main_v116, main_v117, main_v118, main_v119, main_v120, main_v121, main_v122, main_v123, main_v124, main_call1_cst, main_call1_v0, main_v125]) :
    after segUP1 W (no_index (Proc.devRef .tc r)) = W (Proc.devRef .tc r) :=
  after_of_forall_not_mem segUP1 W (List.forall_iff_forall_mem.mp (by
    simp only [segUP1, List.Forall, TRef.nullary, TRef.unary, TRef.binary, nullary_writes, unary_writes, binary_writes, ternary_writes, reshape_writes, Finset.mem_singleton]
    repeat' apply And.intro
    all_goals exact devRef_ne_of_ne (fun h => hr (by subst h; decide))))

theorem segGB2_keep (W : Valuation τ sig (Elt F)) (r : Ref sig .tc)
    (hr : r ∉ [main_v126, main_v127, main_v128, main_v129]) :
    after segGB2 W (no_index (Proc.devRef .tc r)) = W (Proc.devRef .tc r) :=
  after_of_forall_not_mem segGB2 W (List.forall_iff_forall_mem.mp (by
    simp only [segGB2, List.Forall, TRef.nullary, TRef.unary, TRef.binary, nullary_writes, unary_writes, binary_writes, ternary_writes, reshape_writes, Finset.mem_singleton]
    repeat' apply And.intro
    all_goals exact devRef_ne_of_ne (fun h => hr (by subst h; decide))))

theorem segLN2_keep (W : Valuation τ sig (Elt F)) (r : Ref sig .tc)
    (hr : r ∉ [main_cst_18, main_v130, main_v131, main_cst_19, main_v132, main_v133, main_v134, main_v135, main_v136, main_cst_20, main_v137, main_v138, main_cst_21, main_v139, main_v140, main_v141, main_v142, main_cst_22, main_v143, main_v144, main_v145, main_v146, main_v147, main_v148, main_v149, main_v150, main_v151, main_v152, main_v153]) :
    after segLN2 W (no_index (Proc.devRef .tc r)) = W (Proc.devRef .tc r) :=
  after_of_forall_not_mem segLN2 W (List.forall_iff_forall_mem.mp (by
    simp only [segLN2, List.Forall, TRef.nullary, TRef.unary, TRef.binary, nullary_writes, unary_writes, binary_writes, ternary_writes, reshape_writes, Finset.mem_singleton]
    repeat' apply And.intro
    all_goals exact devRef_ne_of_ne (fun h => hr (by subst h; decide))))

theorem segAG2_keep (W : Valuation τ sig (Elt F)) (r : Ref sig .tc)
    (hr : r ∉ [main_c_23, main_v154, main_v155, main_c_24, main_v156, main_v157, main_v158, main_v159, main_v160, main_cst_25, main_v161, main_v162, main_v163, main_v164, main_v165, main_v166]) :
    after segAG2 W (no_index (Proc.devRef .tc r)) = W (Proc.devRef .tc r) :=
  after_of_forall_not_mem segAG2 W (List.forall_iff_forall_mem.mp (by
    simp only [segAG2, List.Forall, TRef.nullary, TRef.unary, TRef.binary, nullary_writes, unary_writes, binary_writes, ternary_writes, reshape_writes, Finset.mem_singleton]
    repeat' apply And.intro
    all_goals exact devRef_ne_of_ne (fun h => hr (by subst h; decide))))

theorem segUP2_keep (W : Valuation τ sig (Elt F)) (r : Ref sig .tc)
    (hr : r ∉ [main_v167, main_v168, main_v169, main_v170, main_v171, main_v172, main_v173, main_v174, main_v175, main_v176, main_v177, main_v178, main_v179, main_call2_cst, main_call2_v0, main_v180]) :
    after segUP2 W (no_index (Proc.devRef .tc r)) = W (Proc.devRef .tc r) :=
  after_of_forall_not_mem segUP2 W (List.forall_iff_forall_mem.mp (by
    simp only [segUP2, List.Forall, TRef.nullary, TRef.unary, TRef.binary, nullary_writes, unary_writes, binary_writes, ternary_writes, reshape_writes, Finset.mem_singleton]
    repeat' apply And.intro
    all_goals exact devRef_ne_of_ne (fun h => hr (by subst h; decide))))

theorem segFin_keep (W : Valuation τ sig (Elt F)) (r : Ref sig .tc)
    (hr : r ∉ [main_v181, main_v182, main_v183, main_v184]) :
    after segFin W (no_index (Proc.devRef .tc r)) = W (Proc.devRef .tc r) :=
  after_of_forall_not_mem segFin W (List.forall_iff_forall_mem.mp (by
    simp only [segFin, List.Forall, TRef.nullary, TRef.unary, TRef.binary, nullary_writes, unary_writes, binary_writes, ternary_writes, reshape_writes, Finset.mem_singleton]
    repeat' apply And.intro
    all_goals exact devRef_ne_of_ne (fun h => hr (by subst h; decide))))

/-! ## What each segment computes -/

theorem segA_src (W : Valuation τ sig (Elt Ideal)) :
    after (segA (F := Ideal)) W (no_index (Proc.devRef .tc main_v1)) = hSrc (W (Proc.devRef .tc main_arg1)) := by
  unfold segA
  after_results_simp
  first | rfl | skip

theorem segA_dst (W : Valuation τ sig (Elt Ideal)) :
    after (segA (F := Ideal)) W (no_index (Proc.devRef .tc main_v3)) = hDst (W (Proc.devRef .tc main_arg1)) := by
  unfold segA
  after_results_simp
  first | rfl | skip

theorem segA_inv (W : Valuation τ sig (Elt Ideal)) :
    after (segA (F := Ideal)) W (no_index (Proc.devRef .tc main_v11)) = hInvDeg (hDst (W (Proc.devRef .tc main_arg1))) := by
  unfold segA
  after_results_simp
  first | rfl | skip

theorem segL0_out (W : Valuation τ sig (Elt Ideal)) :
    after (segL0 (F := Ideal)) W (no_index (Proc.devRef .tc main_v15)) = hLin0 (W (Proc.devRef .tc main_arg0)) (W (Proc.devRef .tc main_arg2)) (W (Proc.devRef .tc main_arg3)) := by
  unfold segL0
  after_results_simp
  first | rfl | skip

theorem segGB0_g (W : Valuation τ sig (Elt Ideal)) :
    after (segGB0 (F := Ideal)) W (no_index (Proc.devRef .tc main_v17)) = row0 (W (Proc.devRef .tc main_arg7)) := by
  unfold segGB0
  after_results_simp
  first | rfl | skip

theorem segGB0_b (W : Valuation τ sig (Elt Ideal)) :
    after (segGB0 (F := Ideal)) W (no_index (Proc.devRef .tc main_v19)) = row0 (W (Proc.devRef .tc main_arg8)) := by
  unfold segGB0
  after_results_simp
  first | rfl | skip

theorem segLN0_out (W : Valuation τ sig (Elt Ideal)) :
    after (segLN0 (F := Ideal)) W (no_index (Proc.devRef .tc main_v43)) = hLN (W (Proc.devRef .tc main_v15)) (W (Proc.devRef .tc main_v17)) (W (Proc.devRef .tc main_v19)) := by
  unfold segLN0
  after_results_simp
  first | rfl | skip

theorem segAG0_out (W : Valuation τ sig (Elt Ideal)) :
    after (segAG0 (F := Ideal)) W (no_index (Proc.devRef .tc main_v56)) = hAgg (W (Proc.devRef .tc main_v43)) (W (Proc.devRef .tc main_v1)) (W (Proc.devRef .tc main_v3)) (W (Proc.devRef .tc main_v11)) := by
  unfold segAG0
  after_results_simp
  first | rfl | skip

theorem segUP0_out (W : Valuation τ sig (Elt Ideal)) :
    after (segUP0 (F := Ideal)) W (no_index (Proc.devRef .tc main_v70)) = hUpd (W (Proc.devRef .tc main_v15)) (W (Proc.devRef .tc main_v43)) (W (Proc.devRef .tc main_v56)) (mat0 (W (Proc.devRef .tc main_arg4))) (row0 (W (Proc.devRef .tc main_arg5))) (mat0 (W (Proc.devRef .tc main_arg6))) := by
  unfold segUP0
  after_results_simp
  first | rfl | skip

theorem segGB1_g (W : Valuation τ sig (Elt Ideal)) :
    after (segGB1 (F := Ideal)) W (no_index (Proc.devRef .tc main_v72)) = row1 (W (Proc.devRef .tc main_arg7)) := by
  unfold segGB1
  after_results_simp
  first | rfl | skip

theorem segGB1_b (W : Valuation τ sig (Elt Ideal)) :
    after (segGB1 (F := Ideal)) W (no_index (Proc.devRef .tc main_v74)) = row1 (W (Proc.devRef .tc main_arg8)) := by
  unfold segGB1
  after_results_simp
  first | rfl | skip

theorem segLN1_out (W : Valuation τ sig (Elt Ideal)) :
    after (segLN1 (F := Ideal)) W (no_index (Proc.devRef .tc main_v98)) = hLN (W (Proc.devRef .tc main_v70)) (W (Proc.devRef .tc main_v72)) (W (Proc.devRef .tc main_v74)) := by
  unfold segLN1
  after_results_simp
  first | rfl | skip

theorem segAG1_out (W : Valuation τ sig (Elt Ideal)) :
    after (segAG1 (F := Ideal)) W (no_index (Proc.devRef .tc main_v111)) = hAgg (W (Proc.devRef .tc main_v98)) (W (Proc.devRef .tc main_v1)) (W (Proc.devRef .tc main_v3)) (W (Proc.devRef .tc main_v11)) := by
  unfold segAG1
  after_results_simp
  first | rfl | skip

theorem segUP1_out (W : Valuation τ sig (Elt Ideal)) :
    after (segUP1 (F := Ideal)) W (no_index (Proc.devRef .tc main_v125)) = hUpd (W (Proc.devRef .tc main_v70)) (W (Proc.devRef .tc main_v98)) (W (Proc.devRef .tc main_v111)) (mat1 (W (Proc.devRef .tc main_arg4))) (row1 (W (Proc.devRef .tc main_arg5))) (mat1 (W (Proc.devRef .tc main_arg6))) := by
  unfold segUP1
  after_results_simp
  first | rfl | skip

theorem segGB2_g (W : Valuation τ sig (Elt Ideal)) :
    after (segGB2 (F := Ideal)) W (no_index (Proc.devRef .tc main_v127)) = row2 (W (Proc.devRef .tc main_arg7)) := by
  unfold segGB2
  after_results_simp
  first | rfl | skip

theorem segGB2_b (W : Valuation τ sig (Elt Ideal)) :
    after (segGB2 (F := Ideal)) W (no_index (Proc.devRef .tc main_v129)) = row2 (W (Proc.devRef .tc main_arg8)) := by
  unfold segGB2
  after_results_simp
  first | rfl | skip

theorem segLN2_out (W : Valuation τ sig (Elt Ideal)) :
    after (segLN2 (F := Ideal)) W (no_index (Proc.devRef .tc main_v153)) = hLN (W (Proc.devRef .tc main_v125)) (W (Proc.devRef .tc main_v127)) (W (Proc.devRef .tc main_v129)) := by
  unfold segLN2
  after_results_simp
  first | rfl | skip

theorem segAG2_out (W : Valuation τ sig (Elt Ideal)) :
    after (segAG2 (F := Ideal)) W (no_index (Proc.devRef .tc main_v166)) = hAgg (W (Proc.devRef .tc main_v153)) (W (Proc.devRef .tc main_v1)) (W (Proc.devRef .tc main_v3)) (W (Proc.devRef .tc main_v11)) := by
  unfold segAG2
  after_results_simp
  first | rfl | skip

theorem segUP2_out (W : Valuation τ sig (Elt Ideal)) :
    after (segUP2 (F := Ideal)) W (no_index (Proc.devRef .tc main_v180)) = hUpd (W (Proc.devRef .tc main_v125)) (W (Proc.devRef .tc main_v153)) (W (Proc.devRef .tc main_v166)) (mat2 (W (Proc.devRef .tc main_arg4))) (row2 (W (Proc.devRef .tc main_arg5))) (mat2 (W (Proc.devRef .tc main_arg6))) := by
  unfold segUP2
  after_results_simp
  first | rfl | skip

theorem segFin_out (W : Valuation τ sig (Elt Ideal)) :
    after (segFin (F := Ideal)) W (no_index (Proc.devRef .tc main_v184)) = hLin7 (W (Proc.devRef .tc main_v180)) (W (Proc.devRef .tc main_arg9)) (W (Proc.devRef .tc main_arg10)) := by
  unfold segFin
  after_results_simp
  first | rfl | skip

end Cert.ReferenceIdeal.Hand

end
-- ==== Proof.RValue.lean ====
/-
  The reference program's result, and its arguments, after the whole line of host operations from any buffer contents:
  the result buffer is the whole network of the argument buffers, and no operation writes an argument buffer.
-/
import proofs.«165537_j50680614093676_1_alg».proof.Proof.RRun

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- The result buffer after the line is the network of the argument buffers. -/
theorem value (W : Valuation τ sig (Elt Ideal)) :
    after (Cert.ReferenceIdeal.ValueP.ops (F := Ideal)) W (Proc.devRef .tc main_v184)
      = net (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  rw [ops_split]
  repeat rw [after_append]
  simp (disch := decide) only [segFin_out, segUP2_out, segAG2_out, segLN2_out, segGB2_g, segGB2_b, segUP1_out, segAG1_out, segLN1_out, segGB1_g, segGB1_b, segUP0_out, segAG0_out, segLN0_out, segGB0_g, segGB0_b, segL0_out, segA_src, segA_dst, segA_inv, segFin_keep, segUP2_keep, segAG2_keep, segLN2_keep, segGB2_keep, segUP1_keep, segAG1_keep, segLN1_keep, segGB1_keep, segUP0_keep, segAG0_keep, segLN0_keep, segGB0_keep, segL0_keep, segA_keep]
  rfl

theorem keep_main_arg0 (W : Valuation τ sig (Elt Ideal)) :
    after (Cert.ReferenceIdeal.ValueP.ops (F := Ideal)) W (Proc.devRef .tc main_arg0) = W (Proc.devRef .tc main_arg0) := by
  rw [ops_split]
  repeat rw [after_append]
  simp (disch := decide) only [segFin_keep, segUP2_keep, segAG2_keep, segLN2_keep, segGB2_keep, segUP1_keep, segAG1_keep, segLN1_keep, segGB1_keep, segUP0_keep, segAG0_keep, segLN0_keep, segGB0_keep, segL0_keep, segA_keep]

theorem keep_main_arg1 (W : Valuation τ sig (Elt Ideal)) :
    after (Cert.ReferenceIdeal.ValueP.ops (F := Ideal)) W (Proc.devRef .tc main_arg1) = W (Proc.devRef .tc main_arg1) := by
  rw [ops_split]
  repeat rw [after_append]
  simp (disch := decide) only [segFin_keep, segUP2_keep, segAG2_keep, segLN2_keep, segGB2_keep, segUP1_keep, segAG1_keep, segLN1_keep, segGB1_keep, segUP0_keep, segAG0_keep, segLN0_keep, segGB0_keep, segL0_keep, segA_keep]

theorem keep_main_arg2 (W : Valuation τ sig (Elt Ideal)) :
    after (Cert.ReferenceIdeal.ValueP.ops (F := Ideal)) W (Proc.devRef .tc main_arg2) = W (Proc.devRef .tc main_arg2) := by
  rw [ops_split]
  repeat rw [after_append]
  simp (disch := decide) only [segFin_keep, segUP2_keep, segAG2_keep, segLN2_keep, segGB2_keep, segUP1_keep, segAG1_keep, segLN1_keep, segGB1_keep, segUP0_keep, segAG0_keep, segLN0_keep, segGB0_keep, segL0_keep, segA_keep]

theorem keep_main_arg3 (W : Valuation τ sig (Elt Ideal)) :
    after (Cert.ReferenceIdeal.ValueP.ops (F := Ideal)) W (Proc.devRef .tc main_arg3) = W (Proc.devRef .tc main_arg3) := by
  rw [ops_split]
  repeat rw [after_append]
  simp (disch := decide) only [segFin_keep, segUP2_keep, segAG2_keep, segLN2_keep, segGB2_keep, segUP1_keep, segAG1_keep, segLN1_keep, segGB1_keep, segUP0_keep, segAG0_keep, segLN0_keep, segGB0_keep, segL0_keep, segA_keep]

theorem keep_main_arg4 (W : Valuation τ sig (Elt Ideal)) :
    after (Cert.ReferenceIdeal.ValueP.ops (F := Ideal)) W (Proc.devRef .tc main_arg4) = W (Proc.devRef .tc main_arg4) := by
  rw [ops_split]
  repeat rw [after_append]
  simp (disch := decide) only [segFin_keep, segUP2_keep, segAG2_keep, segLN2_keep, segGB2_keep, segUP1_keep, segAG1_keep, segLN1_keep, segGB1_keep, segUP0_keep, segAG0_keep, segLN0_keep, segGB0_keep, segL0_keep, segA_keep]

theorem keep_main_arg5 (W : Valuation τ sig (Elt Ideal)) :
    after (Cert.ReferenceIdeal.ValueP.ops (F := Ideal)) W (Proc.devRef .tc main_arg5) = W (Proc.devRef .tc main_arg5) := by
  rw [ops_split]
  repeat rw [after_append]
  simp (disch := decide) only [segFin_keep, segUP2_keep, segAG2_keep, segLN2_keep, segGB2_keep, segUP1_keep, segAG1_keep, segLN1_keep, segGB1_keep, segUP0_keep, segAG0_keep, segLN0_keep, segGB0_keep, segL0_keep, segA_keep]

theorem keep_main_arg6 (W : Valuation τ sig (Elt Ideal)) :
    after (Cert.ReferenceIdeal.ValueP.ops (F := Ideal)) W (Proc.devRef .tc main_arg6) = W (Proc.devRef .tc main_arg6) := by
  rw [ops_split]
  repeat rw [after_append]
  simp (disch := decide) only [segFin_keep, segUP2_keep, segAG2_keep, segLN2_keep, segGB2_keep, segUP1_keep, segAG1_keep, segLN1_keep, segGB1_keep, segUP0_keep, segAG0_keep, segLN0_keep, segGB0_keep, segL0_keep, segA_keep]

theorem keep_main_arg7 (W : Valuation τ sig (Elt Ideal)) :
    after (Cert.ReferenceIdeal.ValueP.ops (F := Ideal)) W (Proc.devRef .tc main_arg7) = W (Proc.devRef .tc main_arg7) := by
  rw [ops_split]
  repeat rw [after_append]
  simp (disch := decide) only [segFin_keep, segUP2_keep, segAG2_keep, segLN2_keep, segGB2_keep, segUP1_keep, segAG1_keep, segLN1_keep, segGB1_keep, segUP0_keep, segAG0_keep, segLN0_keep, segGB0_keep, segL0_keep, segA_keep]

theorem keep_main_arg8 (W : Valuation τ sig (Elt Ideal)) :
    after (Cert.ReferenceIdeal.ValueP.ops (F := Ideal)) W (Proc.devRef .tc main_arg8) = W (Proc.devRef .tc main_arg8) := by
  rw [ops_split]
  repeat rw [after_append]
  simp (disch := decide) only [segFin_keep, segUP2_keep, segAG2_keep, segLN2_keep, segGB2_keep, segUP1_keep, segAG1_keep, segLN1_keep, segGB1_keep, segUP0_keep, segAG0_keep, segLN0_keep, segGB0_keep, segL0_keep, segA_keep]

theorem keep_main_arg9 (W : Valuation τ sig (Elt Ideal)) :
    after (Cert.ReferenceIdeal.ValueP.ops (F := Ideal)) W (Proc.devRef .tc main_arg9) = W (Proc.devRef .tc main_arg9) := by
  rw [ops_split]
  repeat rw [after_append]
  simp (disch := decide) only [segFin_keep, segUP2_keep, segAG2_keep, segLN2_keep, segGB2_keep, segUP1_keep, segAG1_keep, segLN1_keep, segGB1_keep, segUP0_keep, segAG0_keep, segLN0_keep, segGB0_keep, segL0_keep, segA_keep]

theorem keep_main_arg10 (W : Valuation τ sig (Elt Ideal)) :
    after (Cert.ReferenceIdeal.ValueP.ops (F := Ideal)) W (Proc.devRef .tc main_arg10) = W (Proc.devRef .tc main_arg10) := by
  rw [ops_split]
  repeat rw [after_append]
  simp (disch := decide) only [segFin_keep, segUP2_keep, segAG2_keep, segLN2_keep, segGB2_keep, segUP1_keep, segAG1_keep, segLN1_keep, segGB1_keep, segUP0_keep, segAG0_keep, segLN0_keep, segGB0_keep, segL0_keep, segA_keep]

end Cert.ReferenceIdeal.Hand

end
-- ==== Proof.lean ====
/-
  The five claims. Both programs compute one network on a graph of 50000 nodes and 800000 edges: an input projection,
  three layers (row normalisation; the mean of the normalised source rows over each node's incoming edges; a residual
  update through two 128 by 128 products, clipped below at zero) and an output projection. The reference runs
  everything as host operations; the kernel runs the projections, the normalisations and the updates as eight
  launches, each over ten blocks of 5000 rows, and keeps the edge stage on the host. On the extended reals a change of
  float format is the identity, a matrix-unit product into a zero accumulator and the host's product are one sum, and a
  lane sum and the host's row sum started at zero are one sum; every launch writes blocks of ONE whole-array function
  of its input arrays, the reference's own stage, so both programs end at the same function of the arguments. No law
  beyond these readings is used, and the precondition is never opened.
  The frames of the two kernel programs are the generated ones; the reference's frame is its run with the result
  dropped; the idealization rewrote no operation, so `preserves` is `True`.
-/
import proofs.«165537_j50680614093676_1_alg».proof.Defs
import proofs.«165537_j50680614093676_1_alg».proof.Proof.Gen.Kernel
import proofs.«165537_j50680614093676_1_alg».proof.Proof.Gen.Kernel.Frame
import proofs.«165537_j50680614093676_1_alg».proof.Proof.Gen.KernelIdeal
import proofs.«165537_j50680614093676_1_alg».proof.Proof.Gen.KernelIdeal.Frame
import proofs.«165537_j50680614093676_1_alg».proof.Proof.Gen.ReferenceIdeal
import proofs.«165537_j50680614093676_1_alg».proof.Proof.Gen.Pre_finite_inputs
import proofs.«165537_j50680614093676_1_alg».proof.Proof.KRun
import proofs.«165537_j50680614093676_1_alg».proof.Proof.KValue
import proofs.«165537_j50680614093676_1_alg».proof.Proof.RValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run: every weakly fair execution terminates with every buffer at the line's fold over the launch
    contents. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ (d : Dev Cert.ReferenceIdeal.nD) (b : Ref Cert.ReferenceIdeal.sig .tc),
        r.2.mem ((d.tc : Thread Cert.ReferenceIdeal.nD Cert.ReferenceIdeal.τ).loc b)
          = StableHlo.after (Cert.ReferenceIdeal.ValueP.ops (F := Ideal)) (StableHlo.launchContents m d) (Proc.devRef .tc b) :=
  StableHlo.run_seq Cert.ReferenceIdeal.ValueP.scopedRefs_eq Cert.ReferenceIdeal.ValueP.scopedSems_eq Cert.ReferenceIdeal.defs Cert.ReferenceIdeal.main (fun _ => Cert.ReferenceIdeal.ValueP.ops)
    Cert.ReferenceIdeal.ValueP.main_eq (fun _ => Cert.ReferenceIdeal.ValueP.ops_sub) m ρ

theorem frame_ri : Cert.frame_ReferenceIdeal := fun m ρ _ =>
  (θ_run Cert.ReferenceIdeal.defs _ _).mono (fun _ h c =>
    ⟨(h c Cert.ReferenceIdeal.main_arg0).trans (Cert.ReferenceIdeal.Hand.keep_main_arg0 _),
     (h c Cert.ReferenceIdeal.main_arg1).trans (Cert.ReferenceIdeal.Hand.keep_main_arg1 _),
     (h c Cert.ReferenceIdeal.main_arg2).trans (Cert.ReferenceIdeal.Hand.keep_main_arg2 _),
     (h c Cert.ReferenceIdeal.main_arg3).trans (Cert.ReferenceIdeal.Hand.keep_main_arg3 _),
     (h c Cert.ReferenceIdeal.main_arg4).trans (Cert.ReferenceIdeal.Hand.keep_main_arg4 _),
     (h c Cert.ReferenceIdeal.main_arg5).trans (Cert.ReferenceIdeal.Hand.keep_main_arg5 _),
     (h c Cert.ReferenceIdeal.main_arg6).trans (Cert.ReferenceIdeal.Hand.keep_main_arg6 _),
     (h c Cert.ReferenceIdeal.main_arg7).trans (Cert.ReferenceIdeal.Hand.keep_main_arg7 _),
     (h c Cert.ReferenceIdeal.main_arg8).trans (Cert.ReferenceIdeal.Hand.keep_main_arg8 _),
     (h c Cert.ReferenceIdeal.main_arg9).trans (Cert.ReferenceIdeal.Hand.keep_main_arg9 _),
     (h c Cert.ReferenceIdeal.main_arg10).trans (Cert.ReferenceIdeal.Hand.keep_main_arg10 _)⟩)
    (ref_run m ρ)

theorem preserves : Cert.preserves_Kernel_KernelIdeal := trivial

/-- Both idealized programs end with the result at the network of the arguments, and memories agreeing on the arguments
    give the same network. -/
theorem algebraic : Cert.algebraic_KernelIdeal_ReferenceIdeal := by
  intro m ρ m' ρ' _ hagree
  refine ⟨fun c => Cert.ReferenceIdeal.Hand.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.Hand.value m ρ c), (h c).2⟩)
      (Cert.KernelIdeal.Hand.run_named m ρ)
  · refine (θ_run Cert.ReferenceIdeal.defs _ _).mono (fun r h c => ?_) (ref_run m' ρ')
    obtain ⟨e0, e1, e2, e3, e4, e5, e6, e7, e8, e9, e10⟩ := hagree c
    refine ⟨?_, (h c Cert.ReferenceIdeal.main_arg0).trans (Cert.ReferenceIdeal.Hand.keep_main_arg0 _),
      (h c Cert.ReferenceIdeal.main_arg1).trans (Cert.ReferenceIdeal.Hand.keep_main_arg1 _),
      (h c Cert.ReferenceIdeal.main_arg2).trans (Cert.ReferenceIdeal.Hand.keep_main_arg2 _),
      (h c Cert.ReferenceIdeal.main_arg3).trans (Cert.ReferenceIdeal.Hand.keep_main_arg3 _),
      (h c Cert.ReferenceIdeal.main_arg4).trans (Cert.ReferenceIdeal.Hand.keep_main_arg4 _),
      (h c Cert.ReferenceIdeal.main_arg5).trans (Cert.ReferenceIdeal.Hand.keep_main_arg5 _),
      (h c Cert.ReferenceIdeal.main_arg6).trans (Cert.ReferenceIdeal.Hand.keep_main_arg6 _),
      (h c Cert.ReferenceIdeal.main_arg7).trans (Cert.ReferenceIdeal.Hand.keep_main_arg7 _),
      (h c Cert.ReferenceIdeal.main_arg8).trans (Cert.ReferenceIdeal.Hand.keep_main_arg8 _),
      (h c Cert.ReferenceIdeal.main_arg9).trans (Cert.ReferenceIdeal.Hand.keep_main_arg9 _),
      (h c Cert.ReferenceIdeal.main_arg10).trans (Cert.ReferenceIdeal.Hand.keep_main_arg10 _)⟩
    refine (h c Cert.ReferenceIdeal.main_v184).trans ((Cert.ReferenceIdeal.Hand.value _).trans ?_)
    show Cert.ReferenceIdeal.Hand.net (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
